-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x600000 : Shape := ⟨2, ![2, 600000]⟩
abbrev S600000 : Shape := ⟨1, ![600000]⟩
abbrev S100000 : Shape := ⟨1, ![100000]⟩
abbrev S7x128 : Shape := ⟨2, ![7, 128]⟩
abbrev S128 : Shape := ⟨1, ![128]⟩
abbrev S128x128 : Shape := ⟨2, ![128, 128]⟩
abbrev S384x128 : Shape := ⟨2, ![384, 128]⟩
abbrev S128x2 : Shape := ⟨2, ![128, 2]⟩
abbrev S2 : Shape := ⟨1, ![2]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S600000 : S_.BroadcastsInDim S600000 (![] : Fin 0 → Fin S600000.rank)
  reducesTo_S600000_S_d0 : S600000.ReducesTo [0] S_
  bcast_S_S7x128 : S_.BroadcastsInDim S7x128 (![] : Fin 0 → Fin S7x128.rank)
  reducesTo_S7x128_S_d0_1 : S7x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg23 : FVec F S2 .f32) (main_v98 : IVec S_ 1) (main_v101 : IVec S128x2 1) (main_c_39 : IVec S_ 1) : IVec S_ 1 :=
  let main_v102 : IVec S_ 1 := (fun x v => Host.reduce IntOp.andi x v reducesTo_S128x2_S_d0_1 h_S_) main_v101 main_c_39
  let main_v103 : IVec S_ 1 := andi main_v98 main_v102
  let main_v104 : FVec F S2 .f32 := Host.absf main_arg23
  let main_cst_40 : FVec F S_ .f32 := constant S_ .f32 0x7F800000#32
  let main_v105 : FVec F S2 .f32 := broadcastInDim S2 ![] bcast_S_S2 main_cst_40
  let main_v106 : IVec S2 1 := cmpf .olt main_v104 main_v105
  let main_c_41 : IVec S_ 1 := constantI S_ 1 1#1
  let main_v107 : IVec S_ 1 := (fun x v => Host.reduce IntOp.andi x v reducesTo_S2_S_d0 h_S_) main_v106 main_c_41
  let main_v108 : IVec S_ 1 := andi main_v103 main_v107
  main_v108

def fn_part5 {F : FTy → Type} [FloatOps F] (main_arg20 : FVec F S128 .f32) (main_arg21 : FVec F S128 .f32) (main_arg22 : FVec F S128x2 .f32) (main_arg23 : FVec F S2 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x2 .f32 := Host.absf main_arg22
  let main_cst_38 : FVec F S_ .f32 := constant S_ .f32 0x7F800000#32
  let main_v100 : FVec F S128x2 .f32 := broadcastInDim S128x2 ![] bcast_S_S128x2 main_cst_38
  let main_v101 : IVec S128x2 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S384x128 .f32) (main_arg17 : FVec F S128 .f32) (main_arg18 : FVec F S128x128 .f32) (main_arg19 : FVec F S128 .f32) (main_arg20 : FVec F S128 .f32) (main_arg21 : FVec F S128 .f32) (main_arg22 : FVec F S128x2 .f32) (main_arg23 : FVec F S2 .f32) (main_v63 : IVec S_ 1) (main_v67 : IVec S_ 1) : IVec S_ 1 :=
  let main_v68 : IVec S_ 1 := andi main_v63 main_v67
  let main_v69 : FVec F S384x128 .f32 := Host.absf main_arg16
  let main_cst_26 : FVec F S_ .f32 := constant S_ .f32 0x7F800000#32
  let main_v70 : FVec F S384x128 .f32 := broadcastInDim S384x128 ![] bcast_S_S384x128 main_cst_26
  let main_v71 : IVec S384x128 1 := cmpf .olt main_v69 main_v70
  let main_c_27 : IVec S_ 1 := constantI S_ 1 1#1
  let main_v72 : IVec S_ 1 := (fun x v => Host.reduce IntOp.andi x v reducesTo_S384x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S128 .f32) (main_arg14 : FVec F S128x128 .f32) (main_arg15 : FVec F S128 .f32) (main_arg16 : FVec F S384x128 .f32) (main_arg17 : FVec F S128 .f32) (main_arg18 : FVec F S128x128 .f32) (main_arg19 : FVec F S128 .f32) (main_arg20 : FVec F S128 .f32) (main_arg21 : FVec F S128 .f32) (main_arg22 : FVec F S128x2 .f32) (main_arg23 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S384x128 .f32) (main_arg17 : FVec F S128 .f32) (main_arg18 : FVec F S128x128 .f32) (main_arg19 : FVec F S128 .f32) (main_arg20 : FVec F S128 .f32) (main_arg21 : FVec F S128 .f32) (main_arg22 : FVec F S128x2 .f32) (main_arg23 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S384x128 .f32) (main_arg17 : FVec F S128 .f32) (main_arg18 : FVec F S128x128 .f32) (main_arg19 : FVec F S128 .f32) (main_arg20 : FVec F S128 .f32) (main_arg21 : FVec F S128 .f32) (main_arg22 : FVec F S128x2 .f32) (main_arg23 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x7 .f32) (main_arg1 : IVec S2x600000 32) (main_arg2 : FVec F S600000 .f32) (main_arg3 : IVec S100000 32) (main_arg4 : FVec F S7x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S384x128 .f32) (main_arg17 : FVec F S128 .f32) (main_arg18 : FVec F S128x128 .f32) (main_arg19 : FVec F S128 .f32) (main_arg20 : FVec F S128 .f32) (main_arg21 : FVec F S128 .f32) (main_arg22 : FVec F S128x2 .f32) (main_arg23 : FVec F S2 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S7x128 .f32 := Host.absf main_arg4
  let main_cst_2 : FVec F S_ .f32 := constant S_ .f32 0x7F800000#32
  let main_v10 : FVec F S7x128 .f32 := broadcastInDim S7x128 ![] bcast_S_S7x128 main_cst_2
  let main_v11 : IVec S7x128 1 := cmpf .olt main_v9 main_v10
  let main_c_3 : IVec S_ 1 := constantI S_ 1 1#1
  let main_v12 : IVec S_ 1 := (fun x v => Host.reduce IntOp.andi x v reducesTo_S7x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x7 : Shape := ⟨2, ![100000, 7]⟩
abbrev S2x600000 : Shape := ⟨2, ![2, 600000]⟩
abbrev S600000 : Shape := ⟨1, ![600000]⟩
abbrev S100000 : Shape := ⟨1, ![100000]⟩
abbrev S7x128 : Shape := ⟨2, ![7, 128]⟩
abbrev S128 : Shape := ⟨1, ![128]⟩
abbrev S128x128 : Shape := ⟨2, ![128, 128]⟩
abbrev S384x128 : Shape := ⟨2, ![384, 128]⟩
abbrev S128x2 : Shape := ⟨2, ![128, 2]⟩
abbrev S2 : Shape := ⟨1, ![2]⟩
abbrev S1x600000 : Shape := ⟨2, ![1, 600000]⟩
abbrev S_ : Shape := ⟨0, ![]⟩
abbrev S600000x1 : Shape := ⟨2, ![600000, 1]⟩
abbrev S600000x7 : Shape := ⟨2, ![600000, 7]⟩
abbrev S100000x128 : Shape := ⟨2, ![100000, 128]⟩
abbrev S5000x7 : Shape := ⟨2, ![5000, 7]⟩
abbrev S5000x128 : Shape := ⟨2, ![5000, 128]⟩
abbrev S1x128 : Shape := ⟨2, ![1, 128]⟩
abbrev S600000x128 : Shape := ⟨2, ![600000, 128]⟩
abbrev S2048x128 : Shape := ⟨2, ![2048, 128]⟩
abbrev S100000x1 : Shape := ⟨2, ![100000, 1]⟩
abbrev S2048x2 : Shape := ⟨2, ![2048, 2]⟩
abbrev S1x2 : Shape := ⟨2, ![1, 2]⟩

abbrev nBuf : Space → Nat
  | .hbm => 79
  | .vmem => 50
  | .smem => 0
  | _ => 0

abbrev bufTy : (tb : Table) → Fin (tcTables nBuf tb) → BufTy
  | .hbm, ⟨0, _⟩ => ⟨S100000x7, .f32⟩
  | .hbm, ⟨1, _⟩ => ⟨S2x600000, .i32⟩
  | .hbm, ⟨2, _⟩ => ⟨S600000, .f32⟩
  | .hbm, ⟨3, _⟩ => ⟨S100000, .i32⟩
  | .hbm, ⟨4, _⟩ => ⟨S7x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S384x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128x2, .f32⟩
  | .hbm, ⟨23, _⟩ => ⟨S2, .f32⟩
  | .hbm, ⟨24, _⟩ => ⟨S1x600000, .i32⟩
  | .hbm, ⟨25, _⟩ => ⟨S600000, .i32⟩
  | .hbm, ⟨26, _⟩ => ⟨S1x600000, .i32⟩
  | .hbm, ⟨27, _⟩ => ⟨S600000, .i32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x7, .f32⟩
  | .hbm, ⟨37, _⟩ => ⟨S_, .f32⟩
  | .hbm, ⟨38, _⟩ => ⟨S100000x7, .f32⟩
  | .hbm, ⟨39, _⟩ => ⟨S600000x1, .i32⟩
  | .hbm, ⟨40, _⟩ => ⟨S100000x7, .f32⟩
  | .hbm, ⟨41, _⟩ => ⟨S100000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S_, .f32⟩
  | .hbm, ⟨52, _⟩ => ⟨S100000x128, .f32⟩
  | .hbm, ⟨53, _⟩ => ⟨S600000x1, .i32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S600000, .i32⟩
  | .hbm, ⟨58, _⟩ => ⟨S600000, .i1⟩
  | .hbm, ⟨59, _⟩ => ⟨S_, .i32⟩
  | .hbm, ⟨60, _⟩ => ⟨S600000, .i32⟩
  | .hbm, ⟨61, _⟩ => ⟨S600000, .i32⟩
  | .hbm, ⟨62, _⟩ => ⟨S600000, .i32⟩
  | .hbm, ⟨63, _⟩ => ⟨S600000x1, .i32⟩
  | .hbm, ⟨64, _⟩ => ⟨S600000x128, .f32⟩
  | .hbm, ⟨65, _⟩ => ⟨S_, .f32⟩
  | .hbm, ⟨66, _⟩ => ⟨S100000x128, .f32⟩
  | .hbm, ⟨67, _⟩ => ⟨S600000x1, .i32⟩
  | .hbm, ⟨68, _⟩ => ⟨S100000x128, .f32⟩
  | .hbm, ⟨69, _⟩ => ⟨S100000x128, .f32⟩
  | .hbm, ⟨70, _⟩ => ⟨S128x128, .f32⟩
  | .hbm, ⟨71, _⟩ => ⟨S128x128, .f32⟩
  | .hbm, ⟨72, _⟩ => ⟨S128x128, .f32⟩
  | .hbm, ⟨73, _⟩ => ⟨S100000x128, .f32⟩
  | .hbm, ⟨74, _⟩ => ⟨S_, .f32⟩
  | .hbm, ⟨75, _⟩ => ⟨S2048x128, .f32⟩
  | .hbm, ⟨76, _⟩ => ⟨S100000x1, .i32⟩
  | .hbm, ⟨77, _⟩ => ⟨S2048x128, .f32⟩
  | .hbm, ⟨78, _⟩ => ⟨S2048x2, .f32⟩
  | .local _ .vmem, ⟨0, _⟩ => ⟨S5000x7, .f32⟩
  | .local _ .vmem, ⟨1, _⟩ => ⟨S5000x7, .f32⟩
  | .local _ .vmem, ⟨2, _⟩ => ⟨S5000x7, .f32⟩
  | .local _ .vmem, ⟨3, _⟩ => ⟨S5000x7, .f32⟩
  | .local _ .vmem, ⟨4, _⟩ => ⟨S7x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S128x128, .f32⟩
  | .local _ .vmem, ⟨38, _⟩ => ⟨S128x128, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S2048x128, .f32⟩
  | .local _ .vmem, ⟨43, _⟩ => ⟨S128x128, .f32⟩
  | .local _ .vmem, ⟨44, _⟩ => ⟨S128, .f32⟩
  | .local _ .vmem, ⟨45, _⟩ => ⟨S128, .f32⟩
  | .local _ .vmem, ⟨46, _⟩ => ⟨S128, .f32⟩
  | .local _ .vmem, ⟨47, _⟩ => ⟨S128x2, .f32⟩
  | .local _ .vmem, ⟨48, _⟩ => ⟨S2, .f32⟩
  | .local _ .vmem, ⟨49, _⟩ => ⟨S2048x2, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_1 : Ref sig .tc := ⟨.hbm, 42, rfl⟩
abbrev main_v15 : Ref sig .tc := ⟨.hbm, 43, rfl⟩
abbrev main_v16 : Ref sig .tc := ⟨.hbm, 44, rfl⟩
abbrev main_c_2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_3 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_4 : Ref sig .tc := ⟨.hbm, 56, rfl⟩
abbrev main_v26 : Ref sig .tc := ⟨.hbm, 57, rfl⟩
abbrev main_v27 : Ref sig .tc := ⟨.hbm, 58, rfl⟩
abbrev main_c_5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_6 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_7 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc4_stg0_0 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg7_0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41
abbrev cc4_sem0_0 : DmaSem sig := 42
abbrev cc4_sem1_0 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem7_0 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2048x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S2 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S2048x2 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x7 : S_.BroadcastsInDim S100000x7 (![] : Fin 0 → Fin S100000x7.rank)
  inb_S5000x7_S5000x7_0_0 : ∀ a, (![0, 0] : Fin 2 → Nat) a + S5000x7.size a ≤ S5000x7.size a
  h_S5000x7 : 0 < S5000x7.numel
  shapeCasts_S5000x7_S5000x7 : S5000x7.ShapeCasts S5000x7
  bitsLt_bf16_f32 : FTy.bits .bf16 < FTy.bits .f32
  inb_S7x128_S7x128_0_0 : ∀ a, (![0, 0] : Fin 2 → Nat) a + S7x128.size a ≤ S7x128.size a
  h_S7x128 : 0 < S7x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S5000x128_S5000x128 : S5000x128.ShapeCasts S5000x128
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128x128_S128x128 : S128x128.ShapeCasts S128x128
  bcast_S_S2048x128 : S_.BroadcastsInDim S2048x128 (![] : Fin 0 → Fin S2048x128.rank)
  bcast_S100000_S100000x1_0 : S100000.BroadcastsInDim S100000x1 (![0] : Fin 1 → Fin S100000x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1x128_S2048x128 : S1x128.Broadcasts S2048x128
  reduces_S2048x128_S128 : S2048x128.Reduces [0] S128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  gather_S100000x7_S600000x1_S600000x7_1_0_n_n_0_1_17_wf : GatherDims.WF S100000x7 S600000x1 S600000x7 [1] [0] [] [0] [] 1 ![1, 7]
  scatter_S100000x7_S600000x1_S600000x7_1_0_0_1_wf : ScatterDims.WF S100000x7 S600000x1 S600000x7 [1] [0] [0] 1
  dot_S5000x7_S7x128_S5000x128_1_0_0_1_n_n_wf : DotDims.WF S5000x7 S7x128 S5000x128 [1] [0] [0] [1] [] []
  dot_S5000x128_S128x128_S5000x128_1_0_0_1_n_n_wf : DotDims.WF S5000x128 S128x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S2048x128_S100000x1_S100000x128_1_0_0_1_wf : ScatterDims.WF S2048x128 S100000x1 S100000x128 [1] [0] [0] 1
  dot_S2048x128_S128x128_S2048x128_1_0_0_1_n_n_wf : DotDims.WF S2048x128 S128x128 S2048x128 [1] [0] [0] [1] [] []
  dot_S2048x128_S128x2_S2048x2_1_0_0_1_n_n_wf : DotDims.WF S2048x128 S128x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x7.size a ≤ S100000x7.size a
  hwx0_0 : ∀ i : grid0.Coords, EltTy.bits .f32 = 32 ∨ (Rect.block (s := S100000x7) S5000x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x7.size a ≤ S100000x7.size a
  hwx0_1 : ∀ i : grid0.Coords, EltTy.bits .f32 = 32 ∨ (Rect.block (s := S100000x7) S5000x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x128.size a ≤ S7x128.size a
  hwx0_2 : ∀ i : grid0.Coords, EltTy.bits .f32 = 32 ∨ (Rect.block (s := S7x128) S7x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S2048x128.size a
  hwx4_0 : ∀ i : grid4.Coords, EltTy.bits .f32 = 32 ∨ (Rect.block (s := S2048x128) S2048x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x2.size a ≤ S128x2.size a
  hwx4_5 : ∀ i : grid4.Coords, EltTy.bits .f32 = 32 ∨ (Rect.block (s := S128x2) S128x2.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S2.size a ≤ S2.size a
  hwx4_6 : ∀ i : grid4.Coords, EltTy.bits .f32 = 32 ∨ (Rect.block (s := S2) S2.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S2048x2.size a ≤ S2048x2.size a
  hwx4_7 : ∀ i : grid4.Coords, EltTy.bits .f32 = 32 ∨ (Rect.block (s := S2048x2) S2048x2.size (cc4_transform_7 i) (hinb4_7 i)).WholeWords (EltTy.packing .f32)

variable [Facts₀]

def gather_S100000x7_S600000x1_S600000x7_1_0_n_n_0_1_17 : GatherDims S100000x7 S600000x1 S600000x7 where
  offsetDims := [1]
  collapsedSliceDims := [0]
  operandBatchingDims := []
  startIndicesBatchingDims := []
  startIndexMap := [0]
  indexVectorDim := 1
  sliceSizes := ![1, 7]
  wf := gather_S100000x7_S600000x1_S600000x7_1_0_n_n_0_1_17_wf
def scatter_S100000x7_S600000x1_S600000x7_1_0_0_1 : ScatterDims S100000x7 S600000x1 S600000x7 where
  updateWindowDims := [1]
  insertedWindowDims := [0]
  scatterDimsToOperandDims := [0]
  indexVectorDim := 1
  wf := scatter_S100000x7_S600000x1_S600000x7_1_0_0_1_wf
def dot_S5000x7_S7x128_S5000x128_1_0_0_1_n_n : DotDims S5000x7 S7x128 S5000x128 where
  lhsContracting := [1]
  rhsContracting := [0]
  lhsNonContracting := [0]
  rhsNonContracting := [1]
  lhsBatch := []
  rhsBatch := []
  wf := dot_S5000x7_S7x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf

abbrev win0_0 : Pipeline.Window sig grid0 :=
  Pipeline.Window.ofSpec (Memref.whole main_arg0) S5000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S7x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v14) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v37) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg17) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v40) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v43) S2048x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg18) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg19) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg20) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg21) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg22) S128x2.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg23) S2.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v44) S2048x2.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x7 : Shape := ⟨2, ![100000, 7]⟩
abbrev S2x600000 : Shape := ⟨2, ![2, 600000]⟩
abbrev S600000 : Shape := ⟨1, ![600000]⟩
abbrev S100000 : Shape := ⟨1, ![100000]⟩
abbrev S7x128 : Shape := ⟨2, ![7, 128]⟩
abbrev S128 : Shape := ⟨1, ![128]⟩
abbrev S128x128 : Shape := ⟨2, ![128, 128]⟩
abbrev S384x128 : Shape := ⟨2, ![384, 128]⟩
abbrev S128x2 : Shape := ⟨2, ![128, 2]⟩
abbrev S2 : Shape := ⟨1, ![2]⟩
abbrev S1x600000 : Shape := ⟨2, ![1, 600000]⟩
abbrev S_ : Shape := ⟨0, ![]⟩
abbrev S600000x1 : Shape := ⟨2, ![600000, 1]⟩
abbrev S600000x7 : Shape := ⟨2, ![600000, 7]⟩
abbrev S100000x128 : Shape := ⟨2, ![100000, 128]⟩
abbrev S1x128 : Shape := ⟨2, ![1, 128]⟩
abbrev S600000x128 : Shape := ⟨2, ![600000, 128]⟩
abbrev S100000x384 : Shape := ⟨2, ![100000, 384]⟩
abbrev S2048x128 : Shape := ⟨2, ![2048, 128]⟩
abbrev S100000x1 : Shape := ⟨2, ![100000, 1]⟩
abbrev S2048x2 : Shape := ⟨2, ![2048, 2]⟩
abbrev S1x2 : Shape := ⟨2, ![1, 2]⟩

abbrev nBuf : Space → Nat
  | .hbm => 176
  | .vmem => 0
  | .smem => 0
  | _ => 0

abbrev hbmTy0_0 (i : Nat) : BufTy := match i % 128 with
  | 0 => ⟨S100000x7, .f32⟩
  | 1 => ⟨S2x600000, .i32⟩
  | 2 => ⟨S600000, .f32⟩
  | 3 => ⟨S100000, .i32⟩
  | 4 => ⟨S7x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S384x128, .f32⟩
  | 17 => ⟨S128, .f32⟩
  | 18 => ⟨S128x128, .f32⟩
  | 19 => ⟨S128, .f32⟩
  | 20 => ⟨S128, .f32⟩
  | 21 => ⟨S128, .f32⟩
  | 22 => ⟨S128x2, .f32⟩
  | 23 => ⟨S2, .f32⟩
  | 24 => ⟨S1x600000, .i32⟩
  | 25 => ⟨S600000, .i32⟩
  | 26 => ⟨S1x600000, .i32⟩
  | 27 => ⟨S600000, .i32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x7, .f32⟩
  | 37 => ⟨S_, .f32⟩
  | 38 => ⟨S100000x7, .f32⟩
  | 39 => ⟨S600000x1, .i32⟩
  | 40 => ⟨S100000x7, .f32⟩
  | 41 => ⟨S100000x7, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000x128, .f32⟩
  | 65 => ⟨S_, .f32⟩
  | 66 => ⟨S100000x128, .f32⟩
  | 67 => ⟨S600000x1, .i32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000x128, .f32⟩
  | 93 => ⟨S_, .f32⟩
  | 94 => ⟨S100000x128, .f32⟩
  | 95 => ⟨S600000x1, .i32⟩
  | 96 => ⟨S100000x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x384, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S2048x128, .f32⟩
  | 119 => ⟨S100000x1, .i32⟩
  | 120 => ⟨S2048x128, .f32⟩
  | 121 => ⟨S2048x128, .f32⟩
  | 122 => ⟨S1x128, .f32⟩
  | 123 => ⟨S2048x128, .f32⟩
  | 124 => ⟨S2048x128, .f32⟩
  | 125 => ⟨S_, .f32⟩
  | 126 => ⟨S128, .f32⟩
  | 127 => ⟨S_, .f32⟩
  | _ => ⟨S100000x7, .f32⟩

abbrev hbmTy0_1 (i : Nat) : BufTy := match i % 128 with
  | 0 => ⟨S128, .f32⟩
  | 1 => ⟨S128, .f32⟩
  | 2 => ⟨S_, .i32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S2048x128, .f32⟩
  | 10 => ⟨S2048x128, .f32⟩
  | 11 => ⟨S2048x128, .f32⟩
  | 12 => ⟨S_, .f32⟩
  | 13 => ⟨S_, .f32⟩
  | 14 => ⟨S_, .f32⟩
  | 15 => ⟨S_, .f32⟩
  | 16 => ⟨S128, .f32⟩
  | 17 => ⟨S128, .f32⟩
  | 18 => ⟨S128, .f32⟩
  | 19 => ⟨S_, .f32⟩
  | 20 => ⟨S_, .i1⟩
  | 21 => ⟨S_, .f32⟩
  | 22 => ⟨S_, .f32⟩
  | 23 => ⟨S128, .f32⟩
  | 24 => ⟨S128, .f32⟩
  | 25 => ⟨S1x128, .f32⟩
  | 26 => ⟨S2048x128, .f32⟩
  | 27 => ⟨S2048x128, .f32⟩
  | 28 => ⟨S_, .f32⟩
  | 29 => ⟨S128, .f32⟩
  | 30 => ⟨S128, .f32⟩
  | 31 => ⟨S128, .f32⟩
  | 32 => ⟨S1x128, .f32⟩
  | 33 => ⟨S2048x128, .f32⟩
  | 34 => ⟨S2048x128, .f32⟩
  | 35 => ⟨S1x128, .f32⟩
  | 36 => ⟨S2048x128, .f32⟩
  | 37 => ⟨S2048x128, .f32⟩
  | 38 => ⟨S1x128, .f32⟩
  | 39 => ⟨S2048x128, .f32⟩
  | 40 => ⟨S2048x128, .f32⟩
  | 41 => ⟨S_, .f32⟩
  | 42 => ⟨S2048x128, .f32⟩
  | 43 => ⟨S2048x128, .f32⟩
  | 44 => ⟨S2048x2, .f32⟩
  | 45 => ⟨S1x2, .f32⟩
  | 46 => ⟨S2048x2, .f32⟩
  | 47 => ⟨S2048x2, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call0_cst : Ref sig .tc := ⟨.hbm, 46, rfl⟩
abbrev main_call0_v0 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_call1_cst : Ref sig .tc := ⟨.hbm, 53, rfl⟩
abbrev main_call1_v0 : Ref sig .tc := ⟨.hbm, 54, rfl⟩
abbrev main_v24 : Ref sig .tc := ⟨.hbm, 55, rfl⟩
abbrev main_c_1 : Ref sig .tc := ⟨.hbm, 56, rfl⟩
abbrev main_v25 : Ref sig .tc := ⟨.hbm, 57, rfl⟩
abbrev main_v26 : Ref sig .tc := ⟨.hbm, 58, rfl⟩
abbrev main_c_2 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_3 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_call2_cst : Ref sig .tc := ⟨.hbm, 74, rfl⟩
abbrev main_call2_v0 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_call3_cst : Ref sig .tc := ⟨.hbm, 81, rfl⟩
abbrev main_call3_v0 : Ref sig .tc := ⟨.hbm, 82, rfl⟩
abbrev main_v45 : Ref sig .tc := ⟨.hbm, 83, rfl⟩
abbrev main_c_4 : Ref sig .tc := ⟨.hbm, 84, rfl⟩
abbrev main_v46 : Ref sig .tc := ⟨.hbm, 85, rfl⟩
abbrev main_v47 : Ref sig .tc := ⟨.hbm, 86, rfl⟩
abbrev main_c_5 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_6 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_call4_cst : Ref sig .tc := ⟨.hbm, 102, rfl⟩
abbrev main_call4_v0 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_call5_cst : Ref sig .tc := ⟨.hbm, 109, rfl⟩
abbrev main_call5_v0 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_7 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_8 : Ref sig .tc := ⟨.hbm, 125, rfl⟩
abbrev main_v79 : Ref sig .tc := ⟨.hbm, 126, rfl⟩
abbrev main_cst_9 : Ref sig .tc := ⟨.hbm, 127, rfl⟩
abbrev main_v80 : Ref sig .tc := ⟨.hbm, 128, rfl⟩
abbrev main_v81 : Ref sig .tc := ⟨.hbm, 129, rfl⟩
abbrev main_c_10 : Ref sig .tc := ⟨.hbm, 130, rfl⟩
abbrev main_call6_cst : Ref sig .tc := ⟨.hbm, 131, rfl⟩
abbrev main_call6_v0 : Ref sig .tc := ⟨.hbm, 132, rfl⟩
abbrev main_call6_v1 : Ref sig .tc := ⟨.hbm, 133, rfl⟩
abbrev main_call6_cst_0 : Ref sig .tc := ⟨.hbm, 134, rfl⟩
abbrev main_call6_v2 : Ref sig .tc := ⟨.hbm, 135, rfl⟩
abbrev main_call6_v3 : Ref sig .tc := ⟨.hbm, 136, rfl⟩
abbrev main_call6_v4 : Ref sig .tc := ⟨.hbm, 137, rfl⟩
abbrev main_call6_v5 : Ref sig .tc := ⟨.hbm, 138, rfl⟩
abbrev main_call6_v6 : Ref sig .tc := ⟨.hbm, 139, rfl⟩
abbrev main_call6_v7 : Ref sig .tc := ⟨.hbm, 140, rfl⟩
abbrev main_call6_cst_1 : Ref sig .tc := ⟨.hbm, 141, rfl⟩
abbrev main_call6_v8 : Ref sig .tc := ⟨.hbm, 142, rfl⟩
abbrev main_call6_cst_2 : Ref sig .tc := ⟨.hbm, 143, rfl⟩
abbrev main_call6_v9 : Ref sig .tc := ⟨.hbm, 144, rfl⟩
abbrev main_call6_v10 : Ref sig .tc := ⟨.hbm, 145, rfl⟩
abbrev main_call6_v11 : Ref sig .tc := ⟨.hbm, 146, rfl⟩
abbrev main_call6_cst_3 : Ref sig .tc := ⟨.hbm, 147, rfl⟩
abbrev main_call6_v12 : Ref sig .tc := ⟨.hbm, 148, rfl⟩
abbrev main_call6_cst_4 : Ref sig .tc := ⟨.hbm, 149, rfl⟩
abbrev main_call6_call0_v0 : Ref sig .tc := ⟨.hbm, 150, rfl⟩
abbrev main_call6_call0_v1 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_cst_11 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_call7_cst : Ref sig .tc := ⟨.hbm, 169, rfl⟩
abbrev main_call7_v0 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x7 : S_.BroadcastsInDim S100000x7 (![] : Fin 0 → Fin S100000x7.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S1x128_S2048x128_0_1 : S1x128.BroadcastsInDim S2048x128 (![0, 1] : Fin 2 → Fin S2048x128.rank)
  reducesTo_S2048x128_S128_d0 : S2048x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  gather_S100000x7_S600000x1_S600000x7_1_0_n_n_0_1_17_wf : GatherDims.WF S100000x7 S600000x1 S600000x7 [1] [0] [] [0] [] 1 ![1, 7]
  scatter_S100000x7_S600000x1_S600000x7_1_0_0_1_wf : ScatterDims.WF S100000x7 S600000x1 S600000x7 [1] [0] [0] 1
  dot_S100000x7_S7x128_S100000x128_1_0_0_1_n_n_wf : DotDims.WF S100000x7 S7x128 S100000x128 [1] [0] [0] [1] [] []
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x384_S384x128_S100000x128_1_0_0_1_n_n_wf : DotDims.WF S100000x384 S384x128 S100000x128 [1] [0] [0] [1] [] []
  scatter_S2048x128_S100000x1_S100000x128_1_0_0_1_wf : ScatterDims.WF S2048x128 S100000x1 S100000x128 [1] [0] [0] 1
  dot_S2048x128_S128x128_S2048x128_1_0_0_1_n_n_wf : DotDims.WF S2048x128 S128x128 S2048x128 [1] [0] [0] [1] [] []
  dot_S2048x128_S128x2_S2048x2_1_0_0_1_n_n_wf : DotDims.WF S2048x128 S128x2 S2048x2 [1] [0] [0] [1] [] []

variable [Facts₀]

def gather_S100000x7_S600000x1_S600000x7_1_0_n_n_0_1_17 : GatherDims S100000x7 S600000x1 S600000x7 where
  offsetDims := [1]
  collapsedSliceDims := [0]
  operandBatchingDims := []
  startIndicesBatchingDims := []
  startIndexMap := [0]
  indexVectorDim := 1
  sliceSizes := ![1, 7]
  wf := gather_S100000x7_S600000x1_S600000x7_1_0_n_n_0_1_17_wf
def scatter_S100000x7_S600000x1_S600000x7_1_0_0_1 : ScatterDims S100000x7 S600000x1 S600000x7 where
  updateWindowDims := [1]
  insertedWindowDims := [0]
  scatterDimsToOperandDims := [0]
  indexVectorDim := 1
  wf := scatter_S100000x7_S600000x1_S600000x7_1_0_0_1_wf
def dot_S100000x7_S7x128_S100000x128_1_0_0_1_n_n : DotDims S100000x7 S7x128 S100000x128 where
  lhsContracting := [1]
  rhsContracting := [0]
  lhsNonContracting := [0]
  rhsNonContracting := [1]
  lhsBatch := []
  rhsBatch := []
  wf := dot_S100000x7_S7x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf

class Facts : Prop extends Facts₀ where

variable [Facts]
-- ==== Proof.KernelRun.lean ====
/-
  The kernel's run with its result named.  Every weakly fair execution of @main from a memory with zero counters ends,
  nothing faulting; at the end every buffer that outlives a region holds what the fold through @main's ten segments
  (five stretches of host operations, five regions) leaves in it.  Read at the result buffer that is the last region's
  output as the fold names it; read at an argument it is the launch contents.
-/
import proofs.«149011_j79517024518682_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.KernelIdeal.Facts]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v44) = W10 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v44 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c),
       (h c _ (mem_uc main_arg21 (by decide))).trans (W10_main_arg21 m ρ c),
       (h c _ (mem_uc main_arg22 (by decide))).trans (W10_main_arg22 m ρ c),
       (h c _ (mem_uc main_arg23 (by decide))).trans (W10_main_arg23 m ρ c)⟩)

end Cert.KernelIdeal.ValueRun

end
-- ==== Proof.Spec.lean ====
/-
  The network both programs compute, as whole-array functions at any float instance, written with the reference's own
  host operations and named stage by stage:

    a1 = sum over the edges e into node i of x[src e]        h1 = r(r((x + a1) W1 + b1) W1' + b1')
    a2 = the same sums of h1's rows                          h2 = r(r((h1 + a2) W2 + b2) W2' + b2')
    a3 = the same sums of h2's rows                          h3 = r(r((h2 + a3) W3 + b3) W3' + b3')
    h  = [h1 | h2 | h3] J + j                                g[k] = sum of h's rows over the nodes of graph k
    z  = g C + c,  mu = the mean of each column of z,  v = the mean of (z - mu)^2 over each column,
    out = r((z - mu) (v + eps)^(-1/2) gamma + beta) D + d    (r = max(., 0))

  A negative source index is wrapped once by the number of nodes, exactly as the program's text does; gather and
  scatter-add treat an index out of range as the host operations do.  Nothing here is evaluated: the two programs
  are compared stage by stage against these functions.
-/
import proofs.«149011_j79517024518682_1_alg».proof.ReferenceIdeal

noncomputable section

namespace Cert.Gnn

open Idealize.ShloMosaic Cert.ReferenceIdeal Cert.ReferenceIdeal.Facts₀

variable {F : FTy → Type} [FloatOps F] [Cert.ReferenceIdeal.Facts]

/-- Row 0 of the edge list as a vector: the source node of every edge. -/
def edgeRow0 (ei : (⟨S2x600000, .i32⟩ : BufTy).Contents (Elt F)) : (⟨S600000, .i32⟩ : BufTy).Contents (Elt F) :=
  shapeCast S600000 (extractStridedSlice S1x600000 ![0, 0] ei slices_S2x600000_S1x600000_0_0) shapeCasts_S1x600000_S600000

/-- Row 1 of the edge list as a vector: the destination node of every edge. -/
def edgeRow1 (ei : (⟨S2x600000, .i32⟩ : BufTy).Contents (Elt F)) : (⟨S600000, .i32⟩ : BufTy).Contents (Elt F) :=
  shapeCast S600000 (extractStridedSlice S1x600000 ![1, 0] ei slices_S2x600000_S1x600000_1_0) shapeCasts_S1x600000_S600000

/-- A vector of source nodes as a column of start indices, a negative entry wrapped by the number of nodes. -/
def wrapRows (s : (⟨S600000, .i32⟩ : BufTy).Contents (Elt F)) : (⟨S600000x1, .i32⟩ : BufTy).Contents (Elt F) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 100000#32))) s)

/-- A vector of destination nodes as a column of scatter indices. -/
def colRows (d : (⟨S600000, .i32⟩ : BufTy).Contents (Elt F)) : (⟨S600000x1, .i32⟩ : BufTy).Contents (Elt F) :=
  broadcastInDim S600000x1 ![0] bcast_S600000_S600000x1_0 d

/-- The source node of every edge, as a column of start indices. -/
def srcRows (ei : (⟨S2x600000, .i32⟩ : BufTy).Contents (Elt F)) : (⟨S600000x1, .i32⟩ : BufTy).Contents (Elt F) := wrapRows (edgeRow0 ei)

/-- The destination node of every edge, as a column of scatter indices. -/
def dstRows (ei : (⟨S2x600000, .i32⟩ : BufTy).Contents (Elt F)) : (⟨S600000x1, .i32⟩ : BufTy).Contents (Elt F) := colRows (edgeRow1 ei)

/-- Neighbour sums of the 7 input features: row i is the sum of x[src e] over the edges e into i. -/
def aggIn (x : (⟨S100000x7, .f32⟩ : BufTy).Contents (Elt F)) (ei : (⟨S2x600000, .i32⟩ : BufTy).Contents (Elt F)) : (⟨S100000x7, .f32⟩ : BufTy).Contents (Elt F) :=
  Host.scatterAdd scatter_S100000x7_S600000x1_S600000x7_1_0_0_1
    (broadcastInDim S100000x7 ![] bcast_S_S100000x7 (constant S_ .f32 0x00000000#32)) (dstRows ei)
    (Host.gather gather_S100000x7_S600000x1_S600000x7_1_0_n_n_0_1_17 x (srcRows ei))

/-- Neighbour sums of 128 hidden features. -/
def aggHid (h : (⟨S100000x128, .f32⟩ : BufTy).Contents (Elt F)) (ei : (⟨S2x600000, .i32⟩ : BufTy).Contents (Elt F)) : (⟨S100000x128, .f32⟩ : BufTy).Contents (Elt F) :=
  Host.scatterAdd scatter_S100000x128_S600000x1_S600000x128_1_0_0_1
    (broadcastInDim S100000x128 ![] bcast_S_S100000x128 (constant S_ .f32 0x00000000#32)) (dstRows ei)
    (Host.gather gather_S100000x128_S600000x1_S600000x128_1_0_n_n_0_1_1128 h (srcRows ei))

/-- A bias row laid under every node's row. -/
def biasHid (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- max(., 0) on a node-by-feature matrix. -/
def reluHid (a : (⟨S100000x128, .f32⟩ : BufTy).Contents (Elt F)) : (⟨S100000x128, .f32⟩ : BufTy).Contents (Elt F) :=
  maximumf a (broadcastInDim S100000x128 ![] bcast_S_S100000x128 (constant S_ .f32 0x00000000#32))

/-- The first graph layer: r(r((x + a) w1 + b1) w2 + b2) on 7 input features. -/
def ginIn (x a : (⟨S100000x7, .f32⟩ : BufTy).Contents (Elt F)) (w1 : (⟨S7x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) : (⟨S100000x128, .f32⟩ : BufTy).Contents (Elt F) :=
  reluHid (addf (Host.dotGeneral dot_S100000x128_S128x128_S100000x128_1_0_0_1_n_n none
    (reluHid (addf (Host.dotGeneral dot_S100000x7_S7x128_S100000x128_1_0_0_1_n_n none (addf x a) w1) (biasHid b1))) w2) (biasHid b2))

/-- A hidden graph layer: r(r((h + a) w1 + b1) w2 + b2) on 128 features. -/
def ginHid (h a : (⟨S100000x128, .f32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) : (⟨S100000x128, .f32⟩ : BufTy).Contents (Elt F) :=
  reluHid (addf (Host.dotGeneral dot_S100000x128_S128x128_S100000x128_1_0_0_1_n_n none
    (reluHid (addf (Host.dotGeneral dot_S100000x128_S128x128_S100000x128_1_0_0_1_n_n none (addf h a) w1) (biasHid b1))) w2) (biasHid b2))

/-- The three layers' features side by side, projected back to 128 features: [h1 | h2 | h3] J + j. -/
def jkProj (h1 h2 h3 : (⟨S100000x128, .f32⟩ : BufTy).Contents (Elt F)) (J : (⟨S384x128, .f32⟩ : BufTy).Contents (Elt F)) (j : (⟨S128, .f32⟩ : BufTy).Contents (Elt F)) : (⟨S100000x128, .f32⟩ : BufTy).Contents (Elt F) :=
  addf (Host.dotGeneral dot_S100000x384_S384x128_S100000x128_1_0_0_1_n_n none
    (concatenate S100000x384 1 [⟨S100000x128, h1⟩, ⟨S100000x128, h2⟩, ⟨S100000x128, h3⟩]
      concatenates_S100000x128_S100000x128_S100000x128_S100000x384_d1) J) (biasHid j)

/-- One row per graph: the sum of the rows of the nodes assigned to it. -/
def pool (h : (⟨S100000x128, .f32⟩ : BufTy).Contents (Elt F)) (batch : (⟨S100000, .i32⟩ : BufTy).Contents (Elt F)) : (⟨S2048x128, .f32⟩ : BufTy).Contents (Elt F) :=
  Host.scatterAdd scatter_S2048x128_S100000x1_S100000x128_1_0_0_1
    (broadcastInDim S2048x128 ![] bcast_S_S2048x128 (constant S_ .f32 0x00000000#32))
    (broadcastInDim S100000x1 ![0] bcast_S100000_S100000x1_0 batch) h

/-- A per-feature row laid under every graph's row. -/
def underGraphs (b : (⟨S128, .f32⟩ : BufTy).Contents (Elt F)) : (⟨S2048x128, .f32⟩ : BufTy).Contents (Elt F) :=
  broadcastInDim S2048x128 ![0, 1] bcast_S1x128_S2048x128_0_1 (broadcastInDim S1x128 ![1] bcast_S128_S1x128_1 b)

/-- The column sums of a graph-by-feature matrix. -/
def colSum (z : (⟨S2048x128, .f32⟩ : BufTy).Contents (Elt F)) : (⟨S128, .f32⟩ : BufTy).Contents (Elt F) :=
  Host.reduceAdd z (constant S_ .f32 0x00000000#32) reducesTo_S2048x128_S128_d0 h_S_

/-- The hidden layer of the classifier before normalisation: g C + c. -/
def preNorm (g : (⟨S2048x128, .f32⟩ : BufTy).Contents (Elt F)) (C : (⟨S128x128, .f32⟩ : BufTy).Contents (Elt F)) (c : (⟨S128, .f32⟩ : BufTy).Contents (Elt F)) : (⟨S2048x128, .f32⟩ : BufTy).Contents (Elt F) :=
  addf (Host.dotGeneral dot_S2048x128_S128x128_S2048x128_1_0_0_1_n_n none g C) (underGraphs c)

/-- The column means, sum / 2048. -/
def colMean (z : (⟨S2048x128, .f32⟩ : BufTy).Contents (Elt F)) : (⟨S128, .f32⟩ : BufTy).Contents (Elt F) :=
  Host.divf (colSum z) (broadcastInDim S128 ![] bcast_S_S128 (constant S_ .f32 0x45000000#32))

/-- The divisor of the variance as the program's text computes it: 2048 - float(0). -/
def varCount : (⟨S_, .f32⟩ : BufTy).Contents (Elt F) :=
  subf (constant S_ .f32 0x45000000#32) (sitofp .f32 (constantI S_ 32 0#32))

/-- The squared deviations from the column means, the mean recomputed as a [1,128] row as the program's text does. -/
def sqDev (z : (⟨S2048x128, .f32⟩ : BufTy).Contents (Elt F)) : (⟨S2048x128, .f32⟩ : BufTy).Contents (Elt F) :=
  let cen : (⟨S2048x128, .f32⟩ : BufTy).Contents (Elt F) :=
    subf z (broadcastInDim S2048x128 ![0, 1] bcast_S1x128_S2048x128_0_1
      (Host.divf (broadcastInDim S1x128 ![1] bcast_S128_S1x128_1 (colSum z))
        (broadcastInDim S1x128 ![] bcast_S_S1x128 (constant S_ .f32 0x45000000#32))))
  mulf cen cen

/-- The column variances as the program's text computes them: the squared deviations summed and divided by
    varCount, kept where varCount > 0 and NaN elsewhere. -/
def colVar (z : (⟨S2048x128, .f32⟩ : BufTy).Contents (Elt F)) : (⟨S128, .f32⟩ : BufTy).Contents (Elt F) :=
  select (broadcastInDim S128 ![] bcast_S_S128 (cmpf .ogt (varCount (F := F)) (constant S_ .f32 0x00000000#32)))
    (Host.divf (colSum (sqDev z)) (broadcastInDim S128 ![] bcast_S_S128 (varCount (F := F))))
    (broadcastInDim S128 ![] bcast_S_S128 (id (constant S_ .f32 0x7FC00000#32)))

/-- The reciprocal standard deviation of each column, (v + eps)^(-1/2). -/
def invStd (z : (⟨S2048x128, .f32⟩ : BufTy).Contents (Elt F)) : (⟨S128, .f32⟩ : BufTy).Contents (Elt F) :=
  Host.rsqrt (addf (colVar z) (broadcastInDim S128 ![] bcast_S_S128 (constant S_ .f32 0x3727C5AC#32)))

/-- The normalised, scaled, shifted and rectified hidden layer. -/
def normed (z : (⟨S2048x128, .f32⟩ : BufTy).Contents (Elt F)) (γ β : (⟨S128, .f32⟩ : BufTy).Contents (Elt F)) : (⟨S2048x128, .f32⟩ : BufTy).Contents (Elt F) :=
  maximumf (addf (mulf (mulf (subf z (underGraphs (colMean z))) (underGraphs (invStd z))) (underGraphs γ)) (underGraphs β))
    (broadcastInDim S2048x128 ![] bcast_S_S2048x128 (constant S_ .f32 0x00000000#32))

/-- The classifier: normalise z = g C + c column by column with its own mean and variance, scale and shift,
    rectify, and project to two classes. -/
def classify (g : (⟨S2048x128, .f32⟩ : BufTy).Contents (Elt F)) (C : (⟨S128x128, .f32⟩ : BufTy).Contents (Elt F)) (c γ β : (⟨S128, .f32⟩ : BufTy).Contents (Elt F)) (D : (⟨S128x2, .f32⟩ : BufTy).Contents (Elt F)) (d : (⟨S2, .f32⟩ : BufTy).Contents (Elt F)) : (⟨S2048x2, .f32⟩ : BufTy).Contents (Elt F) :=
  addf (Host.dotGeneral dot_S2048x128_S128x2_S2048x2_1_0_0_1_n_n none (normed (preNorm g C c) γ β) D)
    (broadcastInDim S2048x2 ![0, 1] bcast_S1x2_S2048x2_0_1 (broadcastInDim S1x2 ![1] bcast_S2_S1x2_1 d))

/-- The whole network: three graph layers, each fed the neighbour sums of the layer before, the projection of the three
    side by side, the per-graph sums, the classifier. -/
def net (x : (⟨S100000x7, .f32⟩ : BufTy).Contents (Elt F)) (ei : (⟨S2x600000, .i32⟩ : BufTy).Contents (Elt F)) (batch : (⟨S100000, .i32⟩ : BufTy).Contents (Elt F))
    (w11 : (⟨S7x128, .f32⟩ : BufTy).Contents (Elt F)) (b11 : (⟨S128, .f32⟩ : BufTy).Contents (Elt F)) (w12 : (⟨S128x128, .f32⟩ : BufTy).Contents (Elt F)) (b12 : (⟨S128, .f32⟩ : BufTy).Contents (Elt F))
    (w21 : (⟨S128x128, .f32⟩ : BufTy).Contents (Elt F)) (b21 : (⟨S128, .f32⟩ : BufTy).Contents (Elt F)) (w22 : (⟨S128x128, .f32⟩ : BufTy).Contents (Elt F)) (b22 : (⟨S128, .f32⟩ : BufTy).Contents (Elt F))
    (w31 : (⟨S128x128, .f32⟩ : BufTy).Contents (Elt F)) (b31 : (⟨S128, .f32⟩ : BufTy).Contents (Elt F)) (w32 : (⟨S128x128, .f32⟩ : BufTy).Contents (Elt F)) (b32 : (⟨S128, .f32⟩ : BufTy).Contents (Elt F))
    (J : (⟨S384x128, .f32⟩ : BufTy).Contents (Elt F)) (j : (⟨S128, .f32⟩ : BufTy).Contents (Elt F)) (C : (⟨S128x128, .f32⟩ : BufTy).Contents (Elt F)) (c γ β : (⟨S128, .f32⟩ : BufTy).Contents (Elt F)) (D : (⟨S128x2, .f32⟩ : BufTy).Contents (Elt F)) (d : (⟨S2, .f32⟩ : BufTy).Contents (Elt F)) :
    (⟨S2048x2, .f32⟩ : BufTy).Contents (Elt F) :=
  let h1 := ginIn x (aggIn x ei) w11 b11 w12 b12
  let h2 := ginHid h1 (aggHid h1 ei) w21 b21 w22 b22
  let h3 := ginHid h2 (aggHid h2 ei) w31 b31 w32 b32
  classify (pool (jkProj h1 h2 h3 J j) batch) C c γ β D d

end Cert.Gnn

end
-- ==== Proof.KernelHost.lean ====
/-
  What each stretch of host operations of the kernel's @main leaves, read from the contents W it starts from, in the
  specification's words: the two rows of the edge list as vectors; the neighbour sums (a gather of the source rows
  scatter-added at the destination rows); the three row blocks of the projection matrix; the per-graph sums.
-/
import proofs.«149011_j79517024518682_1_alg».proof.Proof.Gen.KernelIdeal.Launch
import proofs.«149011_j79517024518682_1_alg».proof.Proof.Spec
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.ShloMosaic.StableHlo

variable {F : FTy → Type} [FloatOps F] [Cert.KernelIdeal.Facts] [Cert.ReferenceIdeal.Facts]
variable (W : Valuation τ sig (Elt F))

/-- Stretch 0 leaves the source nodes of the edges in the buffer of %1. -/
theorem stretch0_src : StableHlo.after hostOps0 W (Proc.devRef .tc main_v1) = Cert.Gnn.edgeRow0 (W (Proc.devRef .tc main_arg1)) := by
  after_results; rfl

/-- Stretch 0 leaves the destination nodes of the edges in the buffer of %3. -/
theorem stretch0_dst : StableHlo.after hostOps0 W (Proc.devRef .tc main_v3) = Cert.Gnn.edgeRow1 (W (Proc.devRef .tc main_arg1)) := by
  after_results; rfl

set_option maxHeartbeats 2000000 in
/-- Stretch 0 leaves the neighbour sums of the input features in the buffer of %13. -/
theorem stretch0_agg : StableHlo.after hostOps0 W (Proc.devRef .tc main_v13)
    = Cert.Gnn.aggIn (W (Proc.devRef .tc main_arg0)) (W (Proc.devRef .tc main_arg1)) := by
  after_results_simp; rfl

set_option maxHeartbeats 2000000 in
/-- Stretch 1 leaves the neighbour sums of the first layer's rows in the buffer of %24, the edge rows being what
    stretch 0 left in the buffers of %1 and %3. -/
theorem stretch1_agg (ei : (⟨S2x600000, .i32⟩ : BufTy).Contents (Elt F)) (h1 : W (Proc.devRef .tc main_v1) = Cert.Gnn.edgeRow0 ei)
    (h3 : W (Proc.devRef .tc main_v3) = Cert.Gnn.edgeRow1 ei) :
    StableHlo.after hostOps1 W (Proc.devRef .tc main_v24) = Cert.Gnn.aggHid (W (Proc.devRef .tc main_v14)) ei := by
  after_results_simp; rw [h1, h3]; rfl

set_option maxHeartbeats 2000000 in
/-- Stretch 2 leaves the neighbour sums of the second layer's rows in the buffer of %35. -/
theorem stretch2_agg (ei : (⟨S2x600000, .i32⟩ : BufTy).Contents (Elt F)) (h1 : W (Proc.devRef .tc main_v1) = Cert.Gnn.edgeRow0 ei)
    (h3 : W (Proc.devRef .tc main_v3) = Cert.Gnn.edgeRow1 ei) :
    StableHlo.after hostOps2 W (Proc.devRef .tc main_v35) = Cert.Gnn.aggHid (W (Proc.devRef .tc main_v25)) ei := by
  after_results_simp; rw [h1, h3]; rfl

/-- Stretch 3 leaves the projection matrix's rows 0..127, 128..255, 256..383 in the buffers of %37, %38, %39. -/
theorem stretch3_block0 : StableHlo.after hostOps3 W (Proc.devRef .tc main_v37)
    = extractStridedSlice S128x128 ![0, 0] (W (Proc.devRef .tc main_arg16)) Facts₀.slices_S384x128_S128x128_0_0 := by
  after_results
theorem stretch3_block1 : StableHlo.after hostOps3 W (Proc.devRef .tc main_v38)
    = extractStridedSlice S128x128 ![128, 0] (W (Proc.devRef .tc main_arg16)) Facts₀.slices_S384x128_S128x128_128_0 := by
  after_results
theorem stretch3_block2 : StableHlo.after hostOps3 W (Proc.devRef .tc main_v39)
    = extractStridedSlice S128x128 ![256, 0] (W (Proc.devRef .tc main_arg16)) Facts₀.slices_S384x128_S128x128_256_0 := by
  after_results

/-- Stretch 4 leaves the per-graph sums of the projected rows in the buffer of %43. -/
theorem stretch4_pool : StableHlo.after hostOps4 W (Proc.devRef .tc main_v43)
    = Cert.Gnn.pool (W (Proc.devRef .tc main_v40)) (W (Proc.devRef .tc main_arg3)) := by
  after_results; rfl

end Cert.KernelIdeal.HostValue

end
-- ==== Proof.KernelFold.lean ====
/-
  The kernel's result as the network function of its arguments.  @main is ten segments: five stretches of host
  operations, each followed by a region.  Write W0 ... W10 for the contents of the buffers at the eleven boundaries.
  A buffer keeps its contents across a stretch that does not write it, across a region that does not own it, and
  across a region that only reads it; a stretch leaves the neighbour sums, the row blocks of the projection matrix and
  the per-graph sums of what it finds; a region leaves its stage function of the arrays it finds (the five facts
  RegionValues gathers).  Following each buffer the next segment needs from boundary to boundary gives the layers
  h1, h2, h3, the projection, the per-graph sums and the classifier's output in turn, each as the specification's
  function of the launch contents of the arguments.
-/
import proofs.«149011_j79517024518682_1_alg».proof.Proof.Gen.KernelIdeal.Frame
import proofs.«149011_j79517024518682_1_alg».proof.Proof.KernelHost
import proofs.«149011_j79517024518682_1_alg».proof.Proof.Spec
import proofs.«149011_j79517024518682_1_alg».proof.Proof.Gen.ReferenceIdeal
import Idealize.ShloMosaic.PureOps.Ideal.Laws

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem
open Idealize.ShloMosaic.Pipeline (Dat Cfg Window)

/-- None of a stretch's operations writes the buffer: each operation's one written buffer is another one. -/
macro "untouched_by" ops:ident : tactic => `(tactic| (
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- What each region leaves in its output array, for whatever contents V it is entered with: its stage of the network
    applied to the arrays it finds. -/
structure RegionValues : Prop where
  layer1 : ∀ (V : (c : Dev nD) → (b : Ref sig .tc) → Buf (Elt Ideal) ((c : Thread nD τ).loc b)) (c : Dev nD), (dat0 (F := Ideal) V c).arrAt 6 cfg0.N
    = Cert.Gnn.ginIn (F := Ideal) (V c main_arg0) (V c main_v13) (V c main_arg4) (V c main_arg5) (V c main_arg6) (V c main_arg7)
  layer2 : ∀ (V : (c : Dev nD) → (b : Ref sig .tc) → Buf (Elt Ideal) ((c : Thread nD τ).loc b)) (c : Dev nD), (dat1 (F := Ideal) V c).arrAt 6 cfg1.N
    = Cert.Gnn.ginHid (F := Ideal) (V c main_v14) (V c main_v24) (V c main_arg8) (V c main_arg9) (V c main_arg10) (V c main_arg11)
  layer3 : ∀ (V : (c : Dev nD) → (b : Ref sig .tc) → Buf (Elt Ideal) ((c : Thread nD τ).loc b)) (c : Dev nD), (dat2 (F := Ideal) V c).arrAt 6 cfg2.N
    = Cert.Gnn.ginHid (F := Ideal) (V c main_v25) (V c main_v35) (V c main_arg12) (V c main_arg13) (V c main_arg14) (V c main_arg15)
  proj : ∀ (V : (c : Dev nD) → (b : Ref sig .tc) → Buf (Elt Ideal) ((c : Thread nD τ).loc b)) (c : Dev nD) (J : Vec Ideal S384x128 .f32),
    V c main_v37 = extractStridedSlice S128x128 ![0, 0] J Facts₀.slices_S384x128_S128x128_0_0 →
    V c main_v38 = extractStridedSlice S128x128 ![128, 0] J Facts₀.slices_S384x128_S128x128_128_0 →
    V c main_v39 = extractStridedSlice S128x128 ![256, 0] J Facts₀.slices_S384x128_S128x128_256_0 →
    (dat3 (F := Ideal) V c).arrAt 7 cfg3.N
      = Cert.Gnn.jkProj (F := Ideal) (V c main_v14) (V c main_v25) (V c main_v36) J (V c main_arg17)
  classifier : ∀ (V : (c : Dev nD) → (b : Ref sig .tc) → Buf (Elt Ideal) ((c : Thread nD τ).loc b)) (c : Dev nD), (dat4 (F := Ideal) V c).arrAt 7 cfg4.N
    = Cert.Gnn.classify (F := Ideal) (V c main_v43) (V c main_arg18) (V c main_arg19) (V c main_arg20) (V c main_arg21) (V c main_arg22) (V c main_arg23)

variable (m : (ℓ : Loc nD τ sig) → Buf (Elt Ideal) ℓ) (ρ : Dev nD → PrngReg) (c : Dev nD)

/-! ## The arguments at the boundaries: nothing writes an argument.  An argument used early is followed forward from
    the launch memory, one used late backward from the last boundary, where it is known to be as launched. -/

theorem arg0_at1 : W1 m ρ c (Proc.devRef .tc main_arg0) = m ((c : Thread nD τ).loc main_arg0) :=
  (StableHlo.after_of_forall_not_mem (b := Proc.devRef .tc main_arg0) _ _ (List.forall_iff_forall_mem.mp (by untouched_by hostOps0))).trans rfl
theorem arg4_at1 : W1 m ρ c (Proc.devRef .tc main_arg4) = m ((c : Thread nD τ).loc main_arg4) :=
  (StableHlo.after_of_forall_not_mem (b := Proc.devRef .tc main_arg4) _ _ (List.forall_iff_forall_mem.mp (by untouched_by hostOps0))).trans rfl
theorem arg5_at1 : W1 m ρ c (Proc.devRef .tc main_arg5) = m ((c : Thread nD τ).loc main_arg5) :=
  (StableHlo.after_of_forall_not_mem (b := Proc.devRef .tc main_arg5) _ _ (List.forall_iff_forall_mem.mp (by untouched_by hostOps0))).trans rfl
theorem arg6_at1 : W1 m ρ c (Proc.devRef .tc main_arg6) = m ((c : Thread nD τ).loc main_arg6) :=
  (StableHlo.after_of_forall_not_mem (b := Proc.devRef .tc main_arg6) _ _ (List.forall_iff_forall_mem.mp (by untouched_by hostOps0))).trans rfl
theorem arg7_at1 : W1 m ρ c (Proc.devRef .tc main_arg7) = m ((c : Thread nD τ).loc main_arg7) :=
  (StableHlo.after_of_forall_not_mem (b := Proc.devRef .tc main_arg7) _ _ (List.forall_iff_forall_mem.mp (by untouched_by hostOps0))).trans rfl
theorem arg3_at9 : W9 m ρ c (Proc.devRef .tc main_arg3) = m ((c : Thread nD τ).loc main_arg3) :=
  (W10_of_ne m ρ c main_arg3 (by decide)).symm.trans (W10_main_arg3 m ρ c)
theorem arg3_at8 : W8 m ρ c (Proc.devRef .tc main_arg3) = m ((c : Thread nD τ).loc main_arg3) :=
  (StableHlo.after_of_forall_not_mem (b := Proc.devRef .tc main_arg3) _ _ (List.forall_iff_forall_mem.mp (by untouched_by hostOps4))).symm.trans (arg3_at9 m ρ c)
theorem arg8_at9 : W9 m ρ c (Proc.devRef .tc main_arg8) = m ((c : Thread nD τ).loc main_arg8) :=
  (W10_of_ne m ρ c main_arg8 (by decide)).symm.trans (W10_main_arg8 m ρ c)
theorem arg8_at8 : W8 m ρ c (Proc.devRef .tc main_arg8) = m ((c : Thread nD τ).loc main_arg8) :=
  (StableHlo.after_of_forall_not_mem (b := Proc.devRef .tc main_arg8) _ _ (List.forall_iff_forall_mem.mp (by untouched_by hostOps4))).symm.trans (arg8_at9 m ρ c)
theorem arg8_at7 : W7 m ρ c (Proc.devRef .tc main_arg8) = m ((c : Thread nD τ).loc main_arg8) :=
  (W8_of_ne m ρ c main_arg8 (by decide)).symm.trans (arg8_at8 m ρ c)
theorem arg8_at6 : W6 m ρ c (Proc.devRef .tc main_arg8) = m ((c : Thread nD τ).loc main_arg8) :=
  (StableHlo.after_of_forall_not_mem (b := Proc.devRef .tc main_arg8) _ _ (List.forall_iff_forall_mem.mp (by untouched_by hostOps3))).symm.trans (arg8_at7 m ρ c)
theorem arg8_at5 : W5 m ρ c (Proc.devRef .tc main_arg8) = m ((c : Thread nD τ).loc main_arg8) :=
  (W6_of_ne m ρ c main_arg8 (by decide)).symm.trans (arg8_at6 m ρ c)
theorem arg8_at4 : W4 m ρ c (Proc.devRef .tc main_arg8) = m ((c : Thread nD τ).loc main_arg8) :=
  (StableHlo.after_of_forall_not_mem (b := Proc.devRef .tc main_arg8) _ _ (List.forall_iff_forall_mem.mp (by untouched_by hostOps2))).symm.trans (arg8_at5 m ρ c)
theorem arg8_at3 : W3 m ρ c (Proc.devRef .tc main_arg8) = m ((c : Thread nD τ).loc main_arg8) :=
  ((W4_arr m ρ c 2).trans (((dat1 (V3 m ρ) c).arrAt_in 2 rfl _).trans (A_eq1 (V3 m ρ) c 2))).symm.trans (arg8_at4 m ρ c)
theorem arg9_at9 : W9 m ρ c (Proc.devRef .tc main_arg9) = m ((c : Thread nD τ).loc main_arg9) :=
  (W10_of_ne m ρ c main_arg9 (by decide)).symm.trans (W10_main_arg9 m ρ c)
theorem arg9_at8 : W8 m ρ c (Proc.devRef .tc main_arg9) = m ((c : Thread nD τ).loc main_arg9) :=
  (StableHlo.after_of_forall_not_mem (b := Proc.devRef .tc main_arg9) _ _ (List.forall_iff_forall_mem.mp (by untouched_by hostOps4))).symm.trans (arg9_at9 m ρ c)
theorem arg9_at7 : W7 m ρ c (Proc.devRef .tc main_arg9) = m ((c : Thread nD τ).loc main_arg9) :=
  (W8_of_ne m ρ c main_arg9 (by decide)).symm.trans (arg9_at8 m ρ c)
theorem arg9_at6 : W6 m ρ c (Proc.devRef .tc main_arg9) = m ((c : Thread nD τ).loc main_arg9) :=
  (StableHlo.after_of_forall_not_mem (b := Proc.devRef .tc main_arg9) _ _ (List.forall_iff_forall_mem.mp (by untouched_by hostOps3))).symm.trans (arg9_at7 m ρ c)
theorem arg9_at5 : W5 m ρ c (Proc.devRef .tc main_arg9) = m ((c : Thread nD τ).loc main_arg9) :=
  (W6_of_ne m ρ c main_arg9 (by decide)).symm.trans (arg9_at6 m ρ c)
theorem arg9_at4 : W4 m ρ c (Proc.devRef .tc main_arg9) = m ((c : Thread nD τ).loc main_arg9) :=
  (StableHlo.after_of_forall_not_mem (b := Proc.devRef .tc main_arg9) _ _ (List.forall_iff_forall_mem.mp (by untouched_by hostOps2))).symm.trans (arg9_at5 m ρ c)
theorem arg9_at3 : W3 m ρ c (Proc.devRef .tc main_arg9) = m ((c : Thread nD τ).loc main_arg9) :=
  ((W4_arr m ρ c 3).trans (((dat1 (V3 m ρ) c).arrAt_in 3 rfl _).trans (A_eq1 (V3 m ρ) c 3))).symm.trans (arg9_at4 m ρ c)
theorem arg10_at9 : W9 m ρ c (Proc.devRef .tc main_arg10) = m ((c : Thread nD τ).loc main_arg10) :=
  (W10_of_ne m ρ c main_arg10 (by decide)).symm.trans (W10_main_arg10 m ρ c)
theorem arg10_at8 : W8 m ρ c (Proc.devRef .tc main_arg10) = m ((c : Thread nD τ).loc main_arg10) :=
  (StableHlo.after_of_forall_not_mem (b := Proc.devRef .tc main_arg10) _ _ (List.forall_iff_forall_mem.mp (by untouched_by hostOps4))).symm.trans (arg10_at9 m ρ c)
theorem arg10_at7 : W7 m ρ c (Proc.devRef .tc main_arg10) = m ((c : Thread nD τ).loc main_arg10) :=
  (W8_of_ne m ρ c main_arg10 (by decide)).symm.trans (arg10_at8 m ρ c)
theorem arg10_at6 : W6 m ρ c (Proc.devRef .tc main_arg10) = m ((c : Thread nD τ).loc main_arg10) :=
  (StableHlo.after_of_forall_not_mem (b := Proc.devRef .tc main_arg10) _ _ (List.forall_iff_forall_mem.mp (by untouched_by hostOps3))).symm.trans (arg10_at7 m ρ c)
theorem arg10_at5 : W5 m ρ c (Proc.devRef .tc main_arg10) = m ((c : Thread nD τ).loc main_arg10) :=
  (W6_of_ne m ρ c main_arg10 (by decide)).symm.trans (arg10_at6 m ρ c)
theorem arg10_at4 : W4 m ρ c (Proc.devRef .tc main_arg10) = m ((c : Thread nD τ).loc main_arg10) :=
  (StableHlo.after_of_forall_not_mem (b := Proc.devRef .tc main_arg10) _ _ (List.forall_iff_forall_mem.mp (by untouched_by hostOps2))).symm.trans (arg10_at5 m ρ c)
theorem arg10_at3 : W3 m ρ c (Proc.devRef .tc main_arg10) = m ((c : Thread nD τ).loc main_arg10) :=
  ((W4_arr m ρ c 4).trans (((dat1 (V3 m ρ) c).arrAt_in 4 rfl _).trans (A_eq1 (V3 m ρ) c 4))).symm.trans (arg10_at4 m ρ c)
theorem arg11_at9 : W9 m ρ c (Proc.devRef .tc main_arg11) = m ((c : Thread nD τ).loc main_arg11) :=
  (W10_of_ne m ρ c main_arg11 (by decide)).symm.trans (W10_main_arg11 m ρ c)
theorem arg11_at8 : W8 m ρ c (Proc.devRef .tc main_arg11) = m ((c : Thread nD τ).loc main_arg11) :=
  (StableHlo.after_of_forall_not_mem (b := Proc.devRef .tc main_arg11) _ _ (List.forall_iff_forall_mem.mp (by untouched_by hostOps4))).symm.trans (arg11_at9 m ρ c)
theorem arg11_at7 : W7 m ρ c (Proc.devRef .tc main_arg11) = m ((c : Thread nD τ).loc main_arg11) :=
  (W8_of_ne m ρ c main_arg11 (by decide)).symm.trans (arg11_at8 m ρ c)
theorem arg11_at6 : W6 m ρ c (Proc.devRef .tc main_arg11) = m ((c : Thread nD τ).loc main_arg11) :=
  (StableHlo.after_of_forall_not_mem (b := Proc.devRef .tc main_arg11) _ _ (List.forall_iff_forall_mem.mp (by untouched_by hostOps3))).symm.trans (arg11_at7 m ρ c)
theorem arg11_at5 : W5 m ρ c (Proc.devRef .tc main_arg11) = m ((c : Thread nD τ).loc main_arg11) :=
  (W6_of_ne m ρ c main_arg11 (by decide)).symm.trans (arg11_at6 m ρ c)
theorem arg11_at4 : W4 m ρ c (Proc.devRef .tc main_arg11) = m ((c : Thread nD τ).loc main_arg11) :=
  (StableHlo.after_of_forall_not_mem (b := Proc.devRef .tc main_arg11) _ _ (List.forall_iff_forall_mem.mp (by untouched_by hostOps2))).symm.trans (arg11_at5 m ρ c)
theorem arg11_at3 : W3 m ρ c (Proc.devRef .tc main_arg11) = m ((c : Thread nD τ).loc main_arg11) :=
  ((W4_arr m ρ c 5).trans (((dat1 (V3 m ρ) c).arrAt_in 5 rfl _).trans (A_eq1 (V3 m ρ) c 5))).symm.trans (arg11_at4 m ρ c)
theorem arg12_at9 : W9 m ρ c (Proc.devRef .tc main_arg12) = m ((c : Thread nD τ).loc main_arg12) :=
  (W10_of_ne m ρ c main_arg12 (by decide)).symm.trans (W10_main_arg12 m ρ c)
theorem arg12_at8 : W8 m ρ c (Proc.devRef .tc main_arg12) = m ((c : Thread nD τ).loc main_arg12) :=
  (StableHlo.after_of_forall_not_mem (b := Proc.devRef .tc main_arg12) _ _ (List.forall_iff_forall_mem.mp (by untouched_by hostOps4))).symm.trans (arg12_at9 m ρ c)
theorem arg12_at7 : W7 m ρ c (Proc.devRef .tc main_arg12) = m ((c : Thread nD τ).loc main_arg12) :=
  (W8_of_ne m ρ c main_arg12 (by decide)).symm.trans (arg12_at8 m ρ c)
theorem arg12_at6 : W6 m ρ c (Proc.devRef .tc main_arg12) = m ((c : Thread nD τ).loc main_arg12) :=
  (StableHlo.after_of_forall_not_mem (b := Proc.devRef .tc main_arg12) _ _ (List.forall_iff_forall_mem.mp (by untouched_by hostOps3))).symm.trans (arg12_at7 m ρ c)
theorem arg12_at5 : W5 m ρ c (Proc.devRef .tc main_arg12) = m ((c : Thread nD τ).loc main_arg12) :=
  ((W6_arr m ρ c 2).trans (((dat2 (V5 m ρ) c).arrAt_in 2 rfl _).trans (A_eq2 (V5 m ρ) c 2))).symm.trans (arg12_at6 m ρ c)
theorem arg13_at9 : W9 m ρ c (Proc.devRef .tc main_arg13) = m ((c : Thread nD τ).loc main_arg13) :=
  (W10_of_ne m ρ c main_arg13 (by decide)).symm.trans (W10_main_arg13 m ρ c)
theorem arg13_at8 : W8 m ρ c (Proc.devRef .tc main_arg13) = m ((c : Thread nD τ).loc main_arg13) :=
  (StableHlo.after_of_forall_not_mem (b := Proc.devRef .tc main_arg13) _ _ (List.forall_iff_forall_mem.mp (by untouched_by hostOps4))).symm.trans (arg13_at9 m ρ c)
theorem arg13_at7 : W7 m ρ c (Proc.devRef .tc main_arg13) = m ((c : Thread nD τ).loc main_arg13) :=
  (W8_of_ne m ρ c main_arg13 (by decide)).symm.trans (arg13_at8 m ρ c)
theorem arg13_at6 : W6 m ρ c (Proc.devRef .tc main_arg13) = m ((c : Thread nD τ).loc main_arg13) :=
  (StableHlo.after_of_forall_not_mem (b := Proc.devRef .tc main_arg13) _ _ (List.forall_iff_forall_mem.mp (by untouched_by hostOps3))).symm.trans (arg13_at7 m ρ c)
theorem arg13_at5 : W5 m ρ c (Proc.devRef .tc main_arg13) = m ((c : Thread nD τ).loc main_arg13) :=
  ((W6_arr m ρ c 3).trans (((dat2 (V5 m ρ) c).arrAt_in 3 rfl _).trans (A_eq2 (V5 m ρ) c 3))).symm.trans (arg13_at6 m ρ c)
theorem arg14_at9 : W9 m ρ c (Proc.devRef .tc main_arg14) = m ((c : Thread nD τ).loc main_arg14) :=
  (W10_of_ne m ρ c main_arg14 (by decide)).symm.trans (W10_main_arg14 m ρ c)
theorem arg14_at8 : W8 m ρ c (Proc.devRef .tc main_arg14) = m ((c : Thread nD τ).loc main_arg14) :=
  (StableHlo.after_of_forall_not_mem (b := Proc.devRef .tc main_arg14) _ _ (List.forall_iff_forall_mem.mp (by untouched_by hostOps4))).symm.trans (arg14_at9 m ρ c)
theorem arg14_at7 : W7 m ρ c (Proc.devRef .tc main_arg14) = m ((c : Thread nD τ).loc main_arg14) :=
  (W8_of_ne m ρ c main_arg14 (by decide)).symm.trans (arg14_at8 m ρ c)
theorem arg14_at6 : W6 m ρ c (Proc.devRef .tc main_arg14) = m ((c : Thread nD τ).loc main_arg14) :=
  (StableHlo.after_of_forall_not_mem (b := Proc.devRef .tc main_arg14) _ _ (List.forall_iff_forall_mem.mp (by untouched_by hostOps3))).symm.trans (arg14_at7 m ρ c)
theorem arg14_at5 : W5 m ρ c (Proc.devRef .tc main_arg14) = m ((c : Thread nD τ).loc main_arg14) :=
  ((W6_arr m ρ c 4).trans (((dat2 (V5 m ρ) c).arrAt_in 4 rfl _).trans (A_eq2 (V5 m ρ) c 4))).symm.trans (arg14_at6 m ρ c)
theorem arg15_at9 : W9 m ρ c (Proc.devRef .tc main_arg15) = m ((c : Thread nD τ).loc main_arg15) :=
  (W10_of_ne m ρ c main_arg15 (by decide)).symm.trans (W10_main_arg15 m ρ c)
theorem arg15_at8 : W8 m ρ c (Proc.devRef .tc main_arg15) = m ((c : Thread nD τ).loc main_arg15) :=
  (StableHlo.after_of_forall_not_mem (b := Proc.devRef .tc main_arg15) _ _ (List.forall_iff_forall_mem.mp (by untouched_by hostOps4))).symm.trans (arg15_at9 m ρ c)
theorem arg15_at7 : W7 m ρ c (Proc.devRef .tc main_arg15) = m ((c : Thread nD τ).loc main_arg15) :=
  (W8_of_ne m ρ c main_arg15 (by decide)).symm.trans (arg15_at8 m ρ c)
theorem arg15_at6 : W6 m ρ c (Proc.devRef .tc main_arg15) = m ((c : Thread nD τ).loc main_arg15) :=
  (StableHlo.after_of_forall_not_mem (b := Proc.devRef .tc main_arg15) _ _ (List.forall_iff_forall_mem.mp (by untouched_by hostOps3))).symm.trans (arg15_at7 m ρ c)
theorem arg15_at5 : W5 m ρ c (Proc.devRef .tc main_arg15) = m ((c : Thread nD τ).loc main_arg15) :=
  ((W6_arr m ρ c 5).trans (((dat2 (V5 m ρ) c).arrAt_in 5 rfl _).trans (A_eq2 (V5 m ρ) c 5))).symm.trans (arg15_at6 m ρ c)
theorem arg16_at9 : W9 m ρ c (Proc.devRef .tc main_arg16) = m ((c : Thread nD τ).loc main_arg16) :=
  (W10_of_ne m ρ c main_arg16 (by decide)).symm.trans (W10_main_arg16 m ρ c)
theorem arg16_at8 : W8 m ρ c (Proc.devRef .tc main_arg16) = m ((c : Thread nD τ).loc main_arg16) :=
  (StableHlo.after_of_forall_not_mem (b := Proc.devRef .tc main_arg16) _ _ (List.forall_iff_forall_mem.mp (by untouched_by hostOps4))).symm.trans (arg16_at9 m ρ c)
theorem arg16_at7 : W7 m ρ c (Proc.devRef .tc main_arg16) = m ((c : Thread nD τ).loc main_arg16) :=
  (W8_of_ne m ρ c main_arg16 (by decide)).symm.trans (arg16_at8 m ρ c)
theorem arg16_at6 : W6 m ρ c (Proc.devRef .tc main_arg16) = m ((c : Thread nD τ).loc main_arg16) :=
  (StableHlo.after_of_forall_not_mem (b := Proc.devRef .tc main_arg16) _ _ (List.forall_iff_forall_mem.mp (by untouched_by hostOps3))).symm.trans (arg16_at7 m ρ c)
theorem arg17_at9 : W9 m ρ c (Proc.devRef .tc main_arg17) = m ((c : Thread nD τ).loc main_arg17) :=
  (W10_of_ne m ρ c main_arg17 (by decide)).symm.trans (W10_main_arg17 m ρ c)
theorem arg17_at8 : W8 m ρ c (Proc.devRef .tc main_arg17) = m ((c : Thread nD τ).loc main_arg17) :=
  (StableHlo.after_of_forall_not_mem (b := Proc.devRef .tc main_arg17) _ _ (List.forall_iff_forall_mem.mp (by untouched_by hostOps4))).symm.trans (arg17_at9 m ρ c)
theorem arg17_at7 : W7 m ρ c (Proc.devRef .tc main_arg17) = m ((c : Thread nD τ).loc main_arg17) :=
  ((W8_arr m ρ c 6).trans (((dat3 (V7 m ρ) c).arrAt_in 6 rfl _).trans (A_eq3 (V7 m ρ) c 6))).symm.trans (arg17_at8 m ρ c)
theorem arg18_at9 : W9 m ρ c (Proc.devRef .tc main_arg18) = m ((c : Thread nD τ).loc main_arg18) :=
  ((W10_arr m ρ c 1).trans (((dat4 (V9 m ρ) c).arrAt_in 1 rfl _).trans (A_eq4 (V9 m ρ) c 1))).symm.trans (W10_main_arg18 m ρ c)
theorem arg19_at9 : W9 m ρ c (Proc.devRef .tc main_arg19) = m ((c : Thread nD τ).loc main_arg19) :=
  ((W10_arr m ρ c 2).trans (((dat4 (V9 m ρ) c).arrAt_in 2 rfl _).trans (A_eq4 (V9 m ρ) c 2))).symm.trans (W10_main_arg19 m ρ c)
theorem arg20_at9 : W9 m ρ c (Proc.devRef .tc main_arg20) = m ((c : Thread nD τ).loc main_arg20) :=
  ((W10_arr m ρ c 3).trans (((dat4 (V9 m ρ) c).arrAt_in 3 rfl _).trans (A_eq4 (V9 m ρ) c 3))).symm.trans (W10_main_arg20 m ρ c)
theorem arg21_at9 : W9 m ρ c (Proc.devRef .tc main_arg21) = m ((c : Thread nD τ).loc main_arg21) :=
  ((W10_arr m ρ c 4).trans (((dat4 (V9 m ρ) c).arrAt_in 4 rfl _).trans (A_eq4 (V9 m ρ) c 4))).symm.trans (W10_main_arg21 m ρ c)
theorem arg22_at9 : W9 m ρ c (Proc.devRef .tc main_arg22) = m ((c : Thread nD τ).loc main_arg22) :=
  ((W10_arr m ρ c 5).trans (((dat4 (V9 m ρ) c).arrAt_in 5 rfl _).trans (A_eq4 (V9 m ρ) c 5))).symm.trans (W10_main_arg22 m ρ c)
theorem arg23_at9 : W9 m ρ c (Proc.devRef .tc main_arg23) = m ((c : Thread nD τ).loc main_arg23) :=
  ((W10_arr m ρ c 6).trans (((dat4 (V9 m ρ) c).arrAt_in 6 rfl _).trans (A_eq4 (V9 m ρ) c 6))).symm.trans (W10_main_arg23 m ρ c)

/-! ## The stages of the network on the launch contents -/

abbrev sA1 := Cert.Gnn.aggIn (F := Ideal) (m ((c : Thread nD τ).loc main_arg0)) (m ((c : Thread nD τ).loc main_arg1))
abbrev sH1 := Cert.Gnn.ginIn (F := Ideal) (m ((c : Thread nD τ).loc main_arg0)) (sA1 m c) (m ((c : Thread nD τ).loc main_arg4)) (m ((c : Thread nD τ).loc main_arg5)) (m ((c : Thread nD τ).loc main_arg6)) (m ((c : Thread nD τ).loc main_arg7))
abbrev sA2 := Cert.Gnn.aggHid (F := Ideal) (sH1 m c) (m ((c : Thread nD τ).loc main_arg1))
abbrev sH2 := Cert.Gnn.ginHid (F := Ideal) (sH1 m c) (sA2 m c) (m ((c : Thread nD τ).loc main_arg8)) (m ((c : Thread nD τ).loc main_arg9)) (m ((c : Thread nD τ).loc main_arg10)) (m ((c : Thread nD τ).loc main_arg11))
abbrev sA3 := Cert.Gnn.aggHid (F := Ideal) (sH2 m c) (m ((c : Thread nD τ).loc main_arg1))
abbrev sH3 := Cert.Gnn.ginHid (F := Ideal) (sH2 m c) (sA3 m c) (m ((c : Thread nD τ).loc main_arg12)) (m ((c : Thread nD τ).loc main_arg13)) (m ((c : Thread nD τ).loc main_arg14)) (m ((c : Thread nD τ).loc main_arg15))
abbrev sProj := Cert.Gnn.jkProj (F := Ideal) (sH1 m c) (sH2 m c) (sH3 m c) (m ((c : Thread nD τ).loc main_arg16)) (m ((c : Thread nD τ).loc main_arg17))
abbrev sPool := Cert.Gnn.pool (F := Ideal) (sProj m c) (m ((c : Thread nD τ).loc main_arg3))
abbrev sOut := Cert.Gnn.classify (F := Ideal) (sPool m c) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))

/-! ## The edge rows and the first neighbour sums, which no region produces -/

theorem src_at1 : W1 m ρ c (Proc.devRef .tc main_v1) = Cert.Gnn.edgeRow0 (F := Ideal) (m ((c : Thread nD τ).loc main_arg1)) := HostValue.stretch0_src (W0 m ρ c)
theorem src_at2 : W2 m ρ c (Proc.devRef .tc main_v1) = Cert.Gnn.edgeRow0 (F := Ideal) (m ((c : Thread nD τ).loc main_arg1)) := (W2_of_ne m ρ c main_v1 (by decide)).trans (src_at1 m ρ c)
theorem src_at3 : W3 m ρ c (Proc.devRef .tc main_v1) = Cert.Gnn.edgeRow0 (F := Ideal) (m ((c : Thread nD τ).loc main_arg1)) := (StableHlo.after_of_forall_not_mem (b := Proc.devRef .tc main_v1) _ _ (List.forall_iff_forall_mem.mp (by untouched_by hostOps1))).trans (src_at2 m ρ c)
theorem src_at4 : W4 m ρ c (Proc.devRef .tc main_v1) = Cert.Gnn.edgeRow0 (F := Ideal) (m ((c : Thread nD τ).loc main_arg1)) := (W4_of_ne m ρ c main_v1 (by decide)).trans (src_at3 m ρ c)
theorem dst_at1 : W1 m ρ c (Proc.devRef .tc main_v3) = Cert.Gnn.edgeRow1 (F := Ideal) (m ((c : Thread nD τ).loc main_arg1)) := HostValue.stretch0_dst (W0 m ρ c)
theorem dst_at2 : W2 m ρ c (Proc.devRef .tc main_v3) = Cert.Gnn.edgeRow1 (F := Ideal) (m ((c : Thread nD τ).loc main_arg1)) := (W2_of_ne m ρ c main_v3 (by decide)).trans (dst_at1 m ρ c)
theorem dst_at3 : W3 m ρ c (Proc.devRef .tc main_v3) = Cert.Gnn.edgeRow1 (F := Ideal) (m ((c : Thread nD τ).loc main_arg1)) := (StableHlo.after_of_forall_not_mem (b := Proc.devRef .tc main_v3) _ _ (List.forall_iff_forall_mem.mp (by untouched_by hostOps1))).trans (dst_at2 m ρ c)
theorem dst_at4 : W4 m ρ c (Proc.devRef .tc main_v3) = Cert.Gnn.edgeRow1 (F := Ideal) (m ((c : Thread nD τ).loc main_arg1)) := (W4_of_ne m ρ c main_v3 (by decide)).trans (dst_at3 m ρ c)
theorem agg1_at1 : W1 m ρ c (Proc.devRef .tc main_v13) = sA1 m c := HostValue.stretch0_agg (W0 m ρ c)

/-! ## The layers, the projection, the per-graph sums and the output, boundary by boundary -/

variable (H : RegionValues)
include H

theorem h1_at2 : W2 m ρ c (Proc.devRef .tc main_v14) = sH1 m c :=
  (W2_arr m ρ c 6).trans ((H.layer1 (V1 m ρ) c).trans (by
    rw [show V1 m ρ c main_arg0 = _ from arg0_at1 m ρ c, show V1 m ρ c main_v13 = _ from agg1_at1 m ρ c, show V1 m ρ c main_arg4 = _ from arg4_at1 m ρ c,
      show V1 m ρ c main_arg5 = _ from arg5_at1 m ρ c, show V1 m ρ c main_arg6 = _ from arg6_at1 m ρ c, show V1 m ρ c main_arg7 = _ from arg7_at1 m ρ c]))
theorem h1_at3 : W3 m ρ c (Proc.devRef .tc main_v14) = sH1 m c := (StableHlo.after_of_forall_not_mem (b := Proc.devRef .tc main_v14) _ _ (List.forall_iff_forall_mem.mp (by untouched_by hostOps1))).trans (h1_at2 m ρ c H)
theorem h1_at4 : W4 m ρ c (Proc.devRef .tc main_v14) = sH1 m c := ((W4_arr m ρ c 0).trans (((dat1 (V3 m ρ) c).arrAt_in 0 rfl _).trans (A_eq1 (V3 m ρ) c 0))).trans (h1_at3 m ρ c H)
theorem h1_at5 : W5 m ρ c (Proc.devRef .tc main_v14) = sH1 m c := (StableHlo.after_of_forall_not_mem (b := Proc.devRef .tc main_v14) _ _ (List.forall_iff_forall_mem.mp (by untouched_by hostOps2))).trans (h1_at4 m ρ c H)
theorem h1_at6 : W6 m ρ c (Proc.devRef .tc main_v14) = sH1 m c := (W6_of_ne m ρ c main_v14 (by decide)).trans (h1_at5 m ρ c H)
theorem h1_at7 : W7 m ρ c (Proc.devRef .tc main_v14) = sH1 m c := (StableHlo.after_of_forall_not_mem (b := Proc.devRef .tc main_v14) _ _ (List.forall_iff_forall_mem.mp (by untouched_by hostOps3))).trans (h1_at6 m ρ c H)

theorem agg2_at3 : W3 m ρ c (Proc.devRef .tc main_v24) = sA2 m c :=
  (HostValue.stretch1_agg (W2 m ρ c) (m ((c : Thread nD τ).loc main_arg1)) (src_at2 m ρ c) (dst_at2 m ρ c)).trans (by rw [h1_at2 m ρ c H])

theorem h2_at4 : W4 m ρ c (Proc.devRef .tc main_v25) = sH2 m c :=
  (W4_arr m ρ c 6).trans ((H.layer2 (V3 m ρ) c).trans (by
    rw [show V3 m ρ c main_v14 = _ from h1_at3 m ρ c H, show V3 m ρ c main_v24 = _ from agg2_at3 m ρ c H, show V3 m ρ c main_arg8 = _ from arg8_at3 m ρ c,
      show V3 m ρ c main_arg9 = _ from arg9_at3 m ρ c, show V3 m ρ c main_arg10 = _ from arg10_at3 m ρ c, show V3 m ρ c main_arg11 = _ from arg11_at3 m ρ c]))
theorem h2_at5 : W5 m ρ c (Proc.devRef .tc main_v25) = sH2 m c := (StableHlo.after_of_forall_not_mem (b := Proc.devRef .tc main_v25) _ _ (List.forall_iff_forall_mem.mp (by untouched_by hostOps2))).trans (h2_at4 m ρ c H)
theorem h2_at6 : W6 m ρ c (Proc.devRef .tc main_v25) = sH2 m c := ((W6_arr m ρ c 0).trans (((dat2 (V5 m ρ) c).arrAt_in 0 rfl _).trans (A_eq2 (V5 m ρ) c 0))).trans (h2_at5 m ρ c H)
theorem h2_at7 : W7 m ρ c (Proc.devRef .tc main_v25) = sH2 m c := (StableHlo.after_of_forall_not_mem (b := Proc.devRef .tc main_v25) _ _ (List.forall_iff_forall_mem.mp (by untouched_by hostOps3))).trans (h2_at6 m ρ c H)

theorem agg3_at5 : W5 m ρ c (Proc.devRef .tc main_v35) = sA3 m c :=
  (HostValue.stretch2_agg (W4 m ρ c) (m ((c : Thread nD τ).loc main_arg1)) (src_at4 m ρ c) (dst_at4 m ρ c)).trans (by rw [h2_at4 m ρ c H])

theorem h3_at6 : W6 m ρ c (Proc.devRef .tc main_v36) = sH3 m c :=
  (W6_arr m ρ c 6).trans ((H.layer3 (V5 m ρ) c).trans (by
    rw [show V5 m ρ c main_v25 = _ from h2_at5 m ρ c H, show V5 m ρ c main_v35 = _ from agg3_at5 m ρ c H, show V5 m ρ c main_arg12 = _ from arg12_at5 m ρ c,
      show V5 m ρ c main_arg13 = _ from arg13_at5 m ρ c, show V5 m ρ c main_arg14 = _ from arg14_at5 m ρ c, show V5 m ρ c main_arg15 = _ from arg15_at5 m ρ c]))
theorem h3_at7 : W7 m ρ c (Proc.devRef .tc main_v36) = sH3 m c := (StableHlo.after_of_forall_not_mem (b := Proc.devRef .tc main_v36) _ _ (List.forall_iff_forall_mem.mp (by untouched_by hostOps3))).trans (h3_at6 m ρ c H)

omit H in
theorem block0_at7 : W7 m ρ c (Proc.devRef .tc main_v37) = extractStridedSlice S128x128 ![0, 0] (m ((c : Thread nD τ).loc main_arg16)) Facts₀.slices_S384x128_S128x128_0_0 :=
  (HostValue.stretch3_block0 (W6 m ρ c)).trans (by rw [arg16_at6 m ρ c])
omit H in
theorem block1_at7 : W7 m ρ c (Proc.devRef .tc main_v38) = extractStridedSlice S128x128 ![128, 0] (m ((c : Thread nD τ).loc main_arg16)) Facts₀.slices_S384x128_S128x128_128_0 :=
  (HostValue.stretch3_block1 (W6 m ρ c)).trans (by rw [arg16_at6 m ρ c])
omit H in
theorem block2_at7 : W7 m ρ c (Proc.devRef .tc main_v39) = extractStridedSlice S128x128 ![256, 0] (m ((c : Thread nD τ).loc main_arg16)) Facts₀.slices_S384x128_S128x128_256_0 :=
  (HostValue.stretch3_block2 (W6 m ρ c)).trans (by rw [arg16_at6 m ρ c])

theorem proj_at8 : W8 m ρ c (Proc.devRef .tc main_v40) = sProj m c :=
  (W8_arr m ρ c 7).trans ((H.proj (V7 m ρ) c (m ((c : Thread nD τ).loc main_arg16)) (block0_at7 m ρ c) (block1_at7 m ρ c) (block2_at7 m ρ c)).trans (by
    rw [show V7 m ρ c main_v14 = _ from h1_at7 m ρ c H, show V7 m ρ c main_v25 = _ from h2_at7 m ρ c H,
      show V7 m ρ c main_v36 = _ from h3_at7 m ρ c H, show V7 m ρ c main_arg17 = _ from arg17_at7 m ρ c]))

theorem pool_at9 : W9 m ρ c (Proc.devRef .tc main_v43) = sPool m c :=
  (HostValue.stretch4_pool (W8 m ρ c)).trans (by rw [proj_at8 m ρ c H, arg3_at8 m ρ c])

theorem out_at10 : W10 m ρ c (Proc.devRef .tc main_v44) = sOut m c :=
  (W10_arr m ρ c 7).trans ((H.classifier (V9 m ρ) c).trans (by
    rw [show V9 m ρ c main_v43 = _ from pool_at9 m ρ c H, show V9 m ρ c main_arg18 = _ from arg18_at9 m ρ c, show V9 m ρ c main_arg19 = _ from arg19_at9 m ρ c,
      show V9 m ρ c main_arg20 = _ from arg20_at9 m ρ c, show V9 m ρ c main_arg21 = _ from arg21_at9 m ρ c, show V9 m ρ c main_arg22 = _ from arg22_at9 m ρ c, show V9 m ρ c main_arg23 = _ from arg23_at9 m ρ c]))

/-- The result buffer at the last boundary is the network function of the arguments' launch contents. -/
theorem value : W10 m ρ c (Proc.devRef .tc main_v44)
    = Cert.Gnn.net (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) :=
  out_at10 m ρ c H

end Cert.KernelIdeal.Fold

end
-- ==== Proof.RefRunOps.lean ====
/-
  The reference program's run as a straight line of host operations.

  The program's text is two windows of statements; four rectifications, one variance and, inside it, one guarded
  selection are outlined functions, each called on buffers of its own.  Written out at their call sites the whole
  program is one list of 152 host operations, cut here where the network's stages end: three graph layers (the third
  with its index computation in the first window and the rest in the second), the projection with the per-graph sums,
  and the classifier.  Every weakly fair execution terminates with each buffer at the fold of the operations' results
  over the launch contents.
-/
import proofs.«149011_j79517024518682_1_alg».proof.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The two rows of the edge list as vectors, the neighbour sums of the input features, and the first graph layer (its two rectifications inline). -/
abbrev opsLayer1 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 100000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S100000x7_S600000x1_S600000x7_1_0_n_n_0_1_17 x i) : (⟨S100000x7, .f32⟩ : BufTy).Contents (Elt F) → (⟨S600000x1, .i32⟩ : BufTy).Contents (Elt F) → (⟨S600000x7, .f32⟩ : BufTy).Contents (Elt F)),
    StableHlo.nullary main_cst (constant S_ .f32 0x00000000#32),
    StableHlo.unary main_cst main_v11 (broadcastInDim S100000x7 ![] bcast_S_S100000x7 : (⟨S_, .f32⟩ : BufTy).Contents (Elt F) → (⟨S100000x7, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S100000x7_S600000x1_S600000x7_1_0_0_1 x i u) : (⟨S100000x7, .f32⟩ : BufTy).Contents (Elt F) → (⟨S600000x1, .i32⟩ : BufTy).Contents (Elt F) → (⟨S600000x7, .f32⟩ : BufTy).Contents (Elt F) → (⟨S100000x7, .f32⟩ : BufTy).Contents (Elt F)),
    StableHlo.binary main_arg0 main_v13 main_v14 (addf : (⟨S100000x7, .f32⟩ : BufTy).Contents (Elt F) → (⟨S100000x7, .f32⟩ : BufTy).Contents (Elt F) → (⟨S100000x7, .f32⟩ : BufTy).Contents (Elt F)),
    StableHlo.binary main_v14 main_arg4 main_v15 ((fun l r => Host.dotGeneral dot_S100000x7_S7x128_S100000x128_1_0_0_1_n_n none l r) : (⟨S100000x7, .f32⟩ : BufTy).Contents (Elt F) → (⟨S7x128, .f32⟩ : BufTy).Contents (Elt F) → (⟨S100000x128, .f32⟩ : BufTy).Contents (Elt F)),
    StableHlo.unary main_arg5 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v18) main_call0.v0 main_call0.v1 maximumf,
    StableHlo.binary main_v19 main_arg6 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v22 main_v23 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v23) main_call1.v0 main_call1.v1 maximumf ]

/-- The neighbour sums of the first layer's features and the second graph layer. -/
abbrev opsLayer2 : List (HloOp τ sig (Elt F)) :=
  [ StableHlo.nullary main_c_1 (constantI S_ 32 0#32),
    StableHlo.unary main_c_1 main_v25 (broadcastInDim S600000 ![] bcast_S_S600000 : (⟨S_, .i32⟩ : BufTy).Contents (Elt F) → (⟨S600000, .i32⟩ : BufTy).Contents (Elt F)),
    StableHlo.binary main_v1 main_v25 main_v26 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 100000#32),
    StableHlo.unary main_c_2 main_v27 (broadcastInDim S600000 ![] bcast_S_S600000 : (⟨S_, .i32⟩ : BufTy).Contents (Elt F) → (⟨S600000, .i32⟩ : BufTy).Contents (Elt F)),
    StableHlo.binary main_v1 main_v27 main_v28 (addi : (⟨S600000, .i32⟩ : BufTy).Contents (Elt F) → (⟨S600000, .i32⟩ : BufTy).Contents (Elt F) → (⟨S600000, .i32⟩ : BufTy).Contents (Elt F)),
    StableHlo.ternary main_v26 main_v28 main_v1 main_v29 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v29 main_v30 (broadcastInDim S600000x1 ![0] bcast_S600000_S600000x1_0 : (⟨S600000, .i32⟩ : BufTy).Contents (Elt F) → (⟨S600000x1, .i32⟩ : BufTy).Contents (Elt F)),
    StableHlo.binary main_v24 main_v30 main_v31 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_3 (constant S_ .f32 0x00000000#32),
    StableHlo.unary main_cst_3 main_v32 (broadcastInDim S100000x128 ![] bcast_S_S100000x128 : (⟨S_, .f32⟩ : BufTy).Contents (Elt F) → (⟨S100000x128, .f32⟩ : BufTy).Contents (Elt F)),
    StableHlo.unary main_v3 main_v33 (broadcastInDim S600000x1 ![0] bcast_S600000_S600000x1_0 : (⟨S600000, .i32⟩ : BufTy).Contents (Elt F) → (⟨S600000x1, .i32⟩ : BufTy).Contents (Elt F)),
    StableHlo.ternary main_v32 main_v33 main_v31 main_v34 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.binary main_v24 main_v34 main_v35 (addf : (⟨S100000x128, .f32⟩ : BufTy).Contents (Elt F) → (⟨S100000x128, .f32⟩ : BufTy).Contents (Elt F) → (⟨S100000x128, .f32⟩ : BufTy).Contents (Elt F)),
    StableHlo.binary main_v35 main_arg8 main_v36 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v38 main_v39 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v39) main_call2.v0 main_call2.v1 maximumf,
    StableHlo.binary main_v40 main_arg10 main_v41 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v41 main_v43 main_v44 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v44) main_call3.v0 main_call3.v1 maximumf ]

/-- The wrapped source indices as a column, computed a third time for the third layer. -/
abbrev opsLayer3Idx : List (HloOp τ sig (Elt F)) :=
  [ StableHlo.nullary main_c_4 (constantI S_ 32 0#32),
    StableHlo.unary main_c_4 main_v46 (broadcastInDim S600000 ![] bcast_S_S600000 : (⟨S_, .i32⟩ : BufTy).Contents (Elt F) → (⟨S600000, .i32⟩ : BufTy).Contents (Elt F)),
    StableHlo.binary main_v1 main_v46 main_v47 (cmpi .slt : (⟨S600000, .i32⟩ : BufTy).Contents (Elt F) → (⟨S600000, .i32⟩ : BufTy).Contents (Elt F) → (⟨S600000, .i1⟩ : BufTy).Contents (Elt F)),
    StableHlo.nullary main_c_5 (constantI S_ 32 100000#32),
    StableHlo.unary main_c_5 main_v48 (broadcastInDim S600000 ![] bcast_S_S600000 : (⟨S_, .i32⟩ : BufTy).Contents (Elt F) → (⟨S600000, .i32⟩ : BufTy).Contents (Elt F)),
    StableHlo.binary main_v1 main_v48 main_v49 (addi : (⟨S600000, .i32⟩ : BufTy).Contents (Elt F) → (⟨S600000, .i32⟩ : BufTy).Contents (Elt F) → (⟨S600000, .i32⟩ : BufTy).Contents (Elt F)),
    StableHlo.ternary main_v47 main_v49 main_v1 main_v50 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v50 main_v51 (broadcastInDim S600000x1 ![0] bcast_S600000_S600000x1_0 : (⟨S600000, .i32⟩ : BufTy).Contents (Elt F) → (⟨S600000x1, .i32⟩ : BufTy).Contents (Elt F)) ]

/-- The neighbour sums of the second layer's features and the third graph layer. -/
abbrev opsLayer3 : List (HloOp τ sig (Elt F)) :=
  [ StableHlo.binary main_v45 main_v51 main_v52 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_6 (constant S_ .f32 0x00000000#32),
    StableHlo.unary main_cst_6 main_v53 (broadcastInDim S100000x128 ![] bcast_S_S100000x128 : (⟨S_, .f32⟩ : BufTy).Contents (Elt F) → (⟨S100000x128, .f32⟩ : BufTy).Contents (Elt F)),
    StableHlo.unary main_v3 main_v54 (broadcastInDim S600000x1 ![0] bcast_S600000_S600000x1_0 : (⟨S600000, .i32⟩ : BufTy).Contents (Elt F) → (⟨S600000x1, .i32⟩ : BufTy).Contents (Elt F)),
    StableHlo.ternary main_v53 main_v54 main_v52 main_v55 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.binary main_v45 main_v55 main_v56 (addf : (⟨S100000x128, .f32⟩ : BufTy).Contents (Elt F) → (⟨S100000x128, .f32⟩ : BufTy).Contents (Elt F) → (⟨S100000x128, .f32⟩ : BufTy).Contents (Elt F)),
    StableHlo.binary main_v56 main_arg12 main_v57 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v59 main_v60 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v60) main_call4.v0 main_call4.v1 maximumf,
    StableHlo.binary main_v61 main_arg14 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg15 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v64 main_v65 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v65) main_call5.v0 main_call5.v1 maximumf ]

/-- The three layers' features side by side, their projection, the per-graph sums, and the classifier's hidden layer before normalisation. -/
abbrev opsPool : List (HloOp τ sig (Elt F)) :=
  [ StableHlo.nary ![main_v24, main_v45, main_v66] main_v67 (fun u => concatenate S100000x384 1 [⟨S100000x128, u 0⟩, ⟨S100000x128, u 1⟩, ⟨S100000x128, u 2⟩] concatenates_S100000x128_S100000x128_S100000x128_S100000x384_d1),
    StableHlo.binary main_v67 main_arg16 main_v68 ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F)),
    StableHlo.unary main_arg17 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v68 main_v70 main_v71 (addf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x00000000#32),
    StableHlo.unary main_cst_7 main_v72 (broadcastInDim S2048x128 ![] bcast_S_S2048x128 : (⟨S_, .f32⟩ : BufTy).Contents (Elt F) → (⟨S2048x128, .f32⟩ : BufTy).Contents (Elt F)),
    StableHlo.unary main_arg3 main_v73 (broadcastInDim S100000x1 ![0] bcast_S100000_S100000x1_0 : (⟨S100000, .i32⟩ : BufTy).Contents (Elt F) → (⟨S100000x1, .i32⟩ : BufTy).Contents (Elt F)),
    StableHlo.ternary main_v72 main_v73 main_v71 main_v74 ((fun x i u => Host.scatterAdd scatter_S2048x128_S100000x1_S100000x128_1_0_0_1 x i u) : (⟨S2048x128, .f32⟩ : BufTy).Contents (Elt F) → (⟨S100000x1, .i32⟩ : BufTy).Contents (Elt F) → (⟨S100000x128, .f32⟩ : BufTy).Contents (Elt F) → (⟨S2048x128, .f32⟩ : BufTy).Contents (Elt F)),
    StableHlo.binary main_v74 main_arg18 main_v75 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    StableHlo.unary main_arg19 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S2048x128 ![0, 1] bcast_S1x128_S2048x128_0_1 : (⟨S1x128, .f32⟩ : BufTy).Contents (Elt F) → (⟨S2048x128, .f32⟩ : BufTy).Contents (Elt F)),
    StableHlo.binary main_v75 main_v77 main_v78 (addf : (⟨S2048x128, .f32⟩ : BufTy).Contents (Elt F) → (⟨S2048x128, .f32⟩ : BufTy).Contents (Elt F) → (⟨S2048x128, .f32⟩ : BufTy).Contents (Elt F)) ]

/-- The column means, the column variances (the outlined variance with its guarded division inline), the normalisation, scale, shift and rectification, and the projection to two classes. -/
abbrev opsClassifier : List (HloOp τ sig (Elt F)) :=
  [ StableHlo.nullary main_cst_8 (constant S_ .f32 0x00000000#32),
    StableHlo.binary main_v78 main_cst_8 main_v79 ((fun x v => Host.reduceAdd x v reducesTo_S2048x128_S128_d0 h_S_) : (⟨S2048x128, .f32⟩ : BufTy).Contents (Elt F) → (⟨S_, .f32⟩ : BufTy).Contents (Elt F) → (⟨S128, .f32⟩ : BufTy).Contents (Elt F)),
    StableHlo.nullary main_cst_9 (constant S_ .f32 0x45000000#32),
    StableHlo.unary main_cst_9 main_v80 (broadcastInDim S128 ![] bcast_S_S128 : (⟨S_, .f32⟩ : BufTy).Contents (Elt F) → (⟨S128, .f32⟩ : BufTy).Contents (Elt F)),
    StableHlo.binary main_v79 main_v80 main_v81 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call6.cst (constant S_ .f32 0x00000000#32),
    StableHlo.TRef.binary (.of main_v78) main_call6.cst main_call6.v0 (fun x v => Host.reduceAdd x v reducesTo_S2048x128_S128_d0 h_S_),
    StableHlo.TRef.unary main_call6.v0 main_call6.v1 (broadcastInDim S1x128 ![1] bcast_S128_S1x128_1),
    StableHlo.TRef.nullary main_call6.cst_0 (constant S_ .f32 0x45000000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S2048x128 ![0, 1] bcast_S1x128_S2048x128_0_1),
    StableHlo.TRef.binary (.of main_v78) main_call6.v4 main_call6.v5 subf,
    StableHlo.TRef.binary main_call6.v5 main_call6.v5 main_call6.v6 mulf,
    StableHlo.TRef.unary (.of main_c_10) main_call6.v7 (sitofp .f32),
    StableHlo.TRef.nullary main_call6.cst_1 (constant S_ .f32 0x45000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S2048x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v81 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S2048x128 ![0, 1] bcast_S1x128_S2048x128_0_1 : (⟨S1x128, .f32⟩ : BufTy).Contents (Elt F) → (⟨S2048x128, .f32⟩ : BufTy).Contents (Elt F)),
    StableHlo.binary main_v78 main_v84 main_v85 (subf : (⟨S2048x128, .f32⟩ : BufTy).Contents (Elt F) → (⟨S2048x128, .f32⟩ : BufTy).Contents (Elt F) → (⟨S2048x128, .f32⟩ : BufTy).Contents (Elt F)),
    StableHlo.nullary main_cst_11 (constant S_ .f32 0x3727C5AC#32),
    StableHlo.unary main_cst_11 main_v86 (broadcastInDim S128 ![] bcast_S_S128 : (⟨S_, .f32⟩ : BufTy).Contents (Elt F) → (⟨S128, .f32⟩ : BufTy).Contents (Elt F)),
    StableHlo.binary main_v82 main_v86 main_v87 (addf : (⟨S128, .f32⟩ : BufTy).Contents (Elt F) → (⟨S128, .f32⟩ : BufTy).Contents (Elt F) → (⟨S128, .f32⟩ : BufTy).Contents (Elt F)),
    StableHlo.unary main_v87 main_v88 (Host.rsqrt : (⟨S128, .f32⟩ : BufTy).Contents (Elt F) → (⟨S128, .f32⟩ : BufTy).Contents (Elt F)),
    StableHlo.unary main_v88 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S2048x128 ![0, 1] bcast_S1x128_S2048x128_0_1 : (⟨S1x128, .f32⟩ : BufTy).Contents (Elt F) → (⟨S2048x128, .f32⟩ : BufTy).Contents (Elt F)),
    StableHlo.binary main_v85 main_v90 main_v91 (mulf : (⟨S2048x128, .f32⟩ : BufTy).Contents (Elt F) → (⟨S2048x128, .f32⟩ : BufTy).Contents (Elt F) → (⟨S2048x128, .f32⟩ : BufTy).Contents (Elt F)),
    StableHlo.unary main_arg20 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S2048x128 ![0, 1] bcast_S1x128_S2048x128_0_1 : (⟨S1x128, .f32⟩ : BufTy).Contents (Elt F) → (⟨S2048x128, .f32⟩ : BufTy).Contents (Elt F)),
    StableHlo.binary main_v91 main_v93 main_v94 (mulf : (⟨S2048x128, .f32⟩ : BufTy).Contents (Elt F) → (⟨S2048x128, .f32⟩ : BufTy).Contents (Elt F) → (⟨S2048x128, .f32⟩ : BufTy).Contents (Elt F)),
    StableHlo.unary main_arg21 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S2048x128 ![0, 1] bcast_S1x128_S2048x128_0_1 : (⟨S1x128, .f32⟩ : BufTy).Contents (Elt F) → (⟨S2048x128, .f32⟩ : BufTy).Contents (Elt F)),
    StableHlo.binary main_v94 main_v96 main_v97 (addf : (⟨S2048x128, .f32⟩ : BufTy).Contents (Elt F) → (⟨S2048x128, .f32⟩ : BufTy).Contents (Elt F) → (⟨S2048x128, .f32⟩ : BufTy).Contents (Elt F)),
    StableHlo.TRef.nullary main_call7.cst (constant S_ .f32 0x00000000#32),
    StableHlo.TRef.unary main_call7.cst main_call7.v0 (broadcastInDim S2048x128 ![] bcast_S_S2048x128),
    StableHlo.TRef.binary (.of main_v97) main_call7.v0 main_call7.v1 maximumf,
    StableHlo.binary main_v98 main_arg22 main_v99 ((fun l r => Host.dotGeneral dot_S2048x128_S128x2_S2048x2_1_0_0_1_n_n none l r) : (⟨S2048x128, .f32⟩ : BufTy).Contents (Elt F) → (⟨S128x2, .f32⟩ : BufTy).Contents (Elt F) → (⟨S2048x2, .f32⟩ : BufTy).Contents (Elt F)),
    StableHlo.unary main_arg23 main_v100 (broadcastInDim S1x2 ![1] bcast_S2_S1x2_1 : (⟨S2, .f32⟩ : BufTy).Contents (Elt F) → (⟨S1x2, .f32⟩ : BufTy).Contents (Elt F)),
    StableHlo.unary main_v100 main_v101 (broadcastInDim S2048x2 ![0, 1] bcast_S1x2_S2048x2_0_1 : (⟨S1x2, .f32⟩ : BufTy).Contents (Elt F) → (⟨S2048x2, .f32⟩ : BufTy).Contents (Elt F)),
    StableHlo.binary main_v99 main_v101 main_v102 (addf : (⟨S2048x2, .f32⟩ : BufTy).Contents (Elt F) → (⟨S2048x2, .f32⟩ : BufTy).Contents (Elt F) → (⟨S2048x2, .f32⟩ : BufTy).Contents (Elt F)) ]

/-- The first window's operations. -/
abbrev ops0 : List (HloOp τ sig (Elt F)) := opsLayer1 ++ (opsLayer2 ++ opsLayer3Idx)
/-- The second window's operations. -/
abbrev ops1 : List (HloOp τ sig (Elt F)) := opsLayer3 ++ (opsPool ++ opsClassifier)
/-- The whole program's operations, in order. -/
abbrev ops : List (HloOp τ sig (Elt F)) := ops0 ++ ops1

set_option maxRecDepth 8192 in
/-- The first window is its operations in a line: the calls unfold to their bodies' steps. -/
theorem part0_eq (c : Dev nD) : main_part0 (F := F) c = seq ops0 := rfl

set_option maxRecDepth 8192 in
/-- The second window likewise. -/
theorem part1_eq (c : Dev nD) : main_part1 (F := F) c = seq ops1 := rfl

/-- The program is the two windows one after the other. -/
theorem main_eq (c : Dev nD) : main (F := F) c = seq ops := by
  simp only [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsLayer1_sub : (opsLayer1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem opsLayer2_sub : (opsLayer2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem opsLayer3Idx_sub : (opsLayer3Idx : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩

theorem opsLayer3_sub : (opsLayer3 : List (HloOp τ sig (Elt F))).Forall fun op => op.bufs ⊆ tcRefs τ sig :=
  ⟨binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

theorem opsPool_sub : (opsPool : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub ..⟩

theorem opsClassifier_sub : (opsClassifier : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- Every operation touches TensorCore buffers only. -/
theorem ops_sub : (ops : List (HloOp τ sig (Elt F))).Forall fun op => op.bufs ⊆ tcRefs τ sig :=
  List.forall_iff_forall_mem.mpr fun op h => by
    simp only [ops, ops0, ops1, List.mem_append] at h
    rcases h with (h | h | h) | h | h | h
    exacts [List.forall_iff_forall_mem.mp opsLayer1_sub op h, List.forall_iff_forall_mem.mp opsLayer2_sub op h,
      List.forall_iff_forall_mem.mp opsLayer3Idx_sub op h, List.forall_iff_forall_mem.mp opsLayer3_sub op h,
      List.forall_iff_forall_mem.mp opsPool_sub op h, List.forall_iff_forall_mem.mp opsClassifier_sub op h]

/-- No operation of a stage allocates a fresh buffer. -/
theorem ops_fresh : ∀ op ∈ (ops : List (HloOp τ sig (Elt F))), op.fresh = ∅ := by
  intro op h
  simp only [ops, ops0, ops1, List.mem_append] at h
  rcases h with (h | h | h) | h | h | h
  · revert op; intro _ h; (repeat (cases h with | head => rfl | tail _ h => ?_)); exact nomatch h
  · revert op; intro _ h; (repeat (cases h with | head => rfl | tail _ h => ?_)); exact nomatch h
  · revert op; intro _ h; (repeat (cases h with | head => rfl | tail _ h => ?_)); exact nomatch h
  · revert op; intro _ h; (repeat (cases h with | head => rfl | tail _ h => ?_)); exact nomatch h
  · revert op; intro _ h; (repeat (cases h with | head => rfl | tail _ h => ?_)); exact nomatch h
  · revert op; intro _ h; (repeat (cases h with | head => rfl | tail _ h => ?_)); exact nomatch h

/-- On every device, for any float values, from any memory with zero counters: every weakly fair execution of the
    program on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRunStages.lean ====
/-
  The reference program's line read stage by stage.

  Each stretch of the line is read from contents one does not look inside: its result is the network's stage
  function of the contents it reads.  The stage functions are the program's own host operations composed, so each
  reading is the operations' results unfolded.
-/
import proofs.«149011_j79517024518682_1_alg».proof.Proof.RefRunOps
import proofs.«149011_j79517024518682_1_alg».proof.Proof.Spec

noncomputable section

namespace Cert.ReferenceIdeal.RefRun

open Cert.ReferenceIdeal Cert.ReferenceIdeal.Facts₀ Idealize.ShloMosaic Idealize.ShloMosaic.TcCoe Idealize.SL.Sem Idealize.ShloMosaic.StableHlo
open Cert.Gnn

variable {F : FTy → Type} [FloatOps F] [Cert.ReferenceIdeal.Facts]

/-! ## What each stretch computes -/

/-- The first stretch leaves row 0 of the edge list as a vector. -/
theorem layer1_row0 (W : Valuation τ sig (Elt F)) : after opsLayer1 W (main_v1 : DevRef τ sig) = edgeRow0 (W (main_arg1 : DevRef τ sig)) := by
  after_results_simp
  rfl

/-- … and row 1. -/
theorem layer1_row1 (W : Valuation τ sig (Elt F)) : after opsLayer1 W (main_v3 : DevRef τ sig) = edgeRow1 (W (main_arg1 : DevRef τ sig)) := by
  after_results_simp
  rfl

/-- The first graph layer on the neighbour sums of the input features. -/
theorem layer1_out (W : Valuation τ sig (Elt F)) :
    after opsLayer1 W (main_v24 : DevRef τ sig)
      = ginIn (W (main_arg0 : DevRef τ sig)) (aggIn (W (main_arg0 : DevRef τ sig)) (W (main_arg1 : DevRef τ sig))) (W (main_arg4 : DevRef τ sig)) (W (main_arg5 : DevRef τ sig)) (W (main_arg6 : DevRef τ sig)) (W (main_arg7 : DevRef τ sig)) := by
  after_results_simp
  rfl

/-- The second graph layer, from contents that hold the edge list's rows and the first layer's features. -/
theorem layer2_out (W : Valuation τ sig (Elt F)) (ei : (⟨S2x600000, .i32⟩ : BufTy).Contents (Elt F))
    (h0 : W (main_v1 : DevRef τ sig) = edgeRow0 ei) (h1 : W (main_v3 : DevRef τ sig) = edgeRow1 ei) :
    after opsLayer2 W (main_v45 : DevRef τ sig)
      = ginHid (W (main_v24 : DevRef τ sig)) (aggHid (W (main_v24 : DevRef τ sig)) ei) (W (main_arg8 : DevRef τ sig)) (W (main_arg9 : DevRef τ sig)) (W (main_arg10 : DevRef τ sig)) (W (main_arg11 : DevRef τ sig)) := by
  after_results_simp
  rw [h0, h1]
  rfl

/-- The wrapped source indices as a column, from contents that hold row 0 of the edge list. -/
theorem layer3Idx_out (W : Valuation τ sig (Elt F)) : after opsLayer3Idx W (main_v51 : DevRef τ sig) = wrapRows (W (main_v1 : DevRef τ sig)) := by
  after_results_simp
  rfl

/-- The third graph layer, from contents that hold the wrapped source column, row 1 and the second layer's features. -/
theorem layer3_out (W : Valuation τ sig (Elt F)) (ei : (⟨S2x600000, .i32⟩ : BufTy).Contents (Elt F))
    (h0 : W (main_v51 : DevRef τ sig) = wrapRows (edgeRow0 ei)) (h1 : W (main_v3 : DevRef τ sig) = edgeRow1 ei) :
    after opsLayer3 W (main_v66 : DevRef τ sig)
      = ginHid (W (main_v45 : DevRef τ sig)) (aggHid (W (main_v45 : DevRef τ sig)) ei) (W (main_arg12 : DevRef τ sig)) (W (main_arg13 : DevRef τ sig)) (W (main_arg14 : DevRef τ sig)) (W (main_arg15 : DevRef τ sig)) := by
  after_results_simp
  rw [h0, h1]
  rfl

/-- The projection of the three layers side by side, summed per graph, through the classifier's first affine map. -/
theorem pool_out (W : Valuation τ sig (Elt F)) :
    after opsPool W (main_v78 : DevRef τ sig)
      = preNorm (pool (jkProj (W (main_v24 : DevRef τ sig)) (W (main_v45 : DevRef τ sig)) (W (main_v66 : DevRef τ sig)) (W (main_arg16 : DevRef τ sig)) (W (main_arg17 : DevRef τ sig))) (W (main_arg3 : DevRef τ sig))) (W (main_arg18 : DevRef τ sig)) (W (main_arg19 : DevRef τ sig)) := by
  after_results_simp
  rfl

/-- The classifier from its hidden layer before normalisation. -/
theorem classifier_out (W : Valuation τ sig (Elt F)) (g : (⟨S2048x128, .f32⟩ : BufTy).Contents (Elt F))
    (C : (⟨S128x128, .f32⟩ : BufTy).Contents (Elt F)) (c : (⟨S128, .f32⟩ : BufTy).Contents (Elt F))
    (hz : W (main_v78 : DevRef τ sig) = preNorm g C c) :
    after opsClassifier W (main_v102 : DevRef τ sig) = classify g C c (W (main_arg20 : DevRef τ sig)) (W (main_arg21 : DevRef τ sig)) (W (main_arg22 : DevRef τ sig)) (W (main_arg23 : DevRef τ sig)) := by
  after_results_simp
  rw [hz]
  rfl

end Cert.ReferenceIdeal.RefRun

end
-- ==== Proof.RefRunKeepsFirst.lean ====
/-
  What the stretches of the reference program's first window leave untouched.

  No stretch writes an argument, and the values a later stretch reads (the two rows of the edge list, the first and the
  second layer's features) are written by none of the stretches in between: read from any contents, each such buffer
  keeps what it held.  Each statement is the fold unrolled, every operation's result buffer being another one.
-/
import proofs.«149011_j79517024518682_1_alg».proof.Proof.RefRunOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

theorem opsLayer1_keeps_arg0 (W : Valuation τ sig (Elt F)) : after opsLayer1 W (main_arg0 : DevRef τ sig) = W (main_arg0 : DevRef τ sig) := by after_results_simp
theorem opsLayer1_keeps_arg1 (W : Valuation τ sig (Elt F)) : after opsLayer1 W (main_arg1 : DevRef τ sig) = W (main_arg1 : DevRef τ sig) := by after_results_simp
theorem opsLayer1_keeps_arg2 (W : Valuation τ sig (Elt F)) : after opsLayer1 W (main_arg2 : DevRef τ sig) = W (main_arg2 : DevRef τ sig) := by after_results_simp
theorem opsLayer1_keeps_arg3 (W : Valuation τ sig (Elt F)) : after opsLayer1 W (main_arg3 : DevRef τ sig) = W (main_arg3 : DevRef τ sig) := by after_results_simp
theorem opsLayer1_keeps_arg4 (W : Valuation τ sig (Elt F)) : after opsLayer1 W (main_arg4 : DevRef τ sig) = W (main_arg4 : DevRef τ sig) := by after_results_simp
theorem opsLayer1_keeps_arg5 (W : Valuation τ sig (Elt F)) : after opsLayer1 W (main_arg5 : DevRef τ sig) = W (main_arg5 : DevRef τ sig) := by after_results_simp
theorem opsLayer1_keeps_arg6 (W : Valuation τ sig (Elt F)) : after opsLayer1 W (main_arg6 : DevRef τ sig) = W (main_arg6 : DevRef τ sig) := by after_results_simp
theorem opsLayer1_keeps_arg7 (W : Valuation τ sig (Elt F)) : after opsLayer1 W (main_arg7 : DevRef τ sig) = W (main_arg7 : DevRef τ sig) := by after_results_simp
theorem opsLayer1_keeps_arg8 (W : Valuation τ sig (Elt F)) : after opsLayer1 W (main_arg8 : DevRef τ sig) = W (main_arg8 : DevRef τ sig) := by after_results_simp
theorem opsLayer1_keeps_arg9 (W : Valuation τ sig (Elt F)) : after opsLayer1 W (main_arg9 : DevRef τ sig) = W (main_arg9 : DevRef τ sig) := by after_results_simp
theorem opsLayer1_keeps_arg10 (W : Valuation τ sig (Elt F)) : after opsLayer1 W (main_arg10 : DevRef τ sig) = W (main_arg10 : DevRef τ sig) := by after_results_simp
theorem opsLayer1_keeps_arg11 (W : Valuation τ sig (Elt F)) : after opsLayer1 W (main_arg11 : DevRef τ sig) = W (main_arg11 : DevRef τ sig) := by after_results_simp
theorem opsLayer1_keeps_arg12 (W : Valuation τ sig (Elt F)) : after opsLayer1 W (main_arg12 : DevRef τ sig) = W (main_arg12 : DevRef τ sig) := by after_results_simp
theorem opsLayer1_keeps_arg13 (W : Valuation τ sig (Elt F)) : after opsLayer1 W (main_arg13 : DevRef τ sig) = W (main_arg13 : DevRef τ sig) := by after_results_simp
theorem opsLayer1_keeps_arg14 (W : Valuation τ sig (Elt F)) : after opsLayer1 W (main_arg14 : DevRef τ sig) = W (main_arg14 : DevRef τ sig) := by after_results_simp
theorem opsLayer1_keeps_arg15 (W : Valuation τ sig (Elt F)) : after opsLayer1 W (main_arg15 : DevRef τ sig) = W (main_arg15 : DevRef τ sig) := by after_results_simp
theorem opsLayer1_keeps_arg16 (W : Valuation τ sig (Elt F)) : after opsLayer1 W (main_arg16 : DevRef τ sig) = W (main_arg16 : DevRef τ sig) := by after_results_simp
theorem opsLayer1_keeps_arg17 (W : Valuation τ sig (Elt F)) : after opsLayer1 W (main_arg17 : DevRef τ sig) = W (main_arg17 : DevRef τ sig) := by after_results_simp
theorem opsLayer1_keeps_arg18 (W : Valuation τ sig (Elt F)) : after opsLayer1 W (main_arg18 : DevRef τ sig) = W (main_arg18 : DevRef τ sig) := by after_results_simp
theorem opsLayer1_keeps_arg19 (W : Valuation τ sig (Elt F)) : after opsLayer1 W (main_arg19 : DevRef τ sig) = W (main_arg19 : DevRef τ sig) := by after_results_simp
theorem opsLayer1_keeps_arg20 (W : Valuation τ sig (Elt F)) : after opsLayer1 W (main_arg20 : DevRef τ sig) = W (main_arg20 : DevRef τ sig) := by after_results_simp
theorem opsLayer1_keeps_arg21 (W : Valuation τ sig (Elt F)) : after opsLayer1 W (main_arg21 : DevRef τ sig) = W (main_arg21 : DevRef τ sig) := by after_results_simp
theorem opsLayer1_keeps_arg22 (W : Valuation τ sig (Elt F)) : after opsLayer1 W (main_arg22 : DevRef τ sig) = W (main_arg22 : DevRef τ sig) := by after_results_simp
theorem opsLayer1_keeps_arg23 (W : Valuation τ sig (Elt F)) : after opsLayer1 W (main_arg23 : DevRef τ sig) = W (main_arg23 : DevRef τ sig) := by after_results_simp

theorem opsLayer2_keeps_arg0 (W : Valuation τ sig (Elt F)) : after opsLayer2 W (main_arg0 : DevRef τ sig) = W (main_arg0 : DevRef τ sig) := by after_results_simp
theorem opsLayer2_keeps_arg1 (W : Valuation τ sig (Elt F)) : after opsLayer2 W (main_arg1 : DevRef τ sig) = W (main_arg1 : DevRef τ sig) := by after_results_simp
theorem opsLayer2_keeps_arg2 (W : Valuation τ sig (Elt F)) : after opsLayer2 W (main_arg2 : DevRef τ sig) = W (main_arg2 : DevRef τ sig) := by after_results_simp
theorem opsLayer2_keeps_arg3 (W : Valuation τ sig (Elt F)) : after opsLayer2 W (main_arg3 : DevRef τ sig) = W (main_arg3 : DevRef τ sig) := by after_results_simp
theorem opsLayer2_keeps_arg4 (W : Valuation τ sig (Elt F)) : after opsLayer2 W (main_arg4 : DevRef τ sig) = W (main_arg4 : DevRef τ sig) := by after_results_simp
theorem opsLayer2_keeps_arg5 (W : Valuation τ sig (Elt F)) : after opsLayer2 W (main_arg5 : DevRef τ sig) = W (main_arg5 : DevRef τ sig) := by after_results_simp
theorem opsLayer2_keeps_arg6 (W : Valuation τ sig (Elt F)) : after opsLayer2 W (main_arg6 : DevRef τ sig) = W (main_arg6 : DevRef τ sig) := by after_results_simp
theorem opsLayer2_keeps_arg7 (W : Valuation τ sig (Elt F)) : after opsLayer2 W (main_arg7 : DevRef τ sig) = W (main_arg7 : DevRef τ sig) := by after_results_simp
theorem opsLayer2_keeps_arg8 (W : Valuation τ sig (Elt F)) : after opsLayer2 W (main_arg8 : DevRef τ sig) = W (main_arg8 : DevRef τ sig) := by after_results_simp
theorem opsLayer2_keeps_arg9 (W : Valuation τ sig (Elt F)) : after opsLayer2 W (main_arg9 : DevRef τ sig) = W (main_arg9 : DevRef τ sig) := by after_results_simp
theorem opsLayer2_keeps_arg10 (W : Valuation τ sig (Elt F)) : after opsLayer2 W (main_arg10 : DevRef τ sig) = W (main_arg10 : DevRef τ sig) := by after_results_simp
theorem opsLayer2_keeps_arg11 (W : Valuation τ sig (Elt F)) : after opsLayer2 W (main_arg11 : DevRef τ sig) = W (main_arg11 : DevRef τ sig) := by after_results_simp
theorem opsLayer2_keeps_arg12 (W : Valuation τ sig (Elt F)) : after opsLayer2 W (main_arg12 : DevRef τ sig) = W (main_arg12 : DevRef τ sig) := by after_results_simp
theorem opsLayer2_keeps_arg13 (W : Valuation τ sig (Elt F)) : after opsLayer2 W (main_arg13 : DevRef τ sig) = W (main_arg13 : DevRef τ sig) := by after_results_simp
theorem opsLayer2_keeps_arg14 (W : Valuation τ sig (Elt F)) : after opsLayer2 W (main_arg14 : DevRef τ sig) = W (main_arg14 : DevRef τ sig) := by after_results_simp
theorem opsLayer2_keeps_arg15 (W : Valuation τ sig (Elt F)) : after opsLayer2 W (main_arg15 : DevRef τ sig) = W (main_arg15 : DevRef τ sig) := by after_results_simp
theorem opsLayer2_keeps_arg16 (W : Valuation τ sig (Elt F)) : after opsLayer2 W (main_arg16 : DevRef τ sig) = W (main_arg16 : DevRef τ sig) := by after_results_simp
theorem opsLayer2_keeps_arg17 (W : Valuation τ sig (Elt F)) : after opsLayer2 W (main_arg17 : DevRef τ sig) = W (main_arg17 : DevRef τ sig) := by after_results_simp
theorem opsLayer2_keeps_arg18 (W : Valuation τ sig (Elt F)) : after opsLayer2 W (main_arg18 : DevRef τ sig) = W (main_arg18 : DevRef τ sig) := by after_results_simp
theorem opsLayer2_keeps_arg19 (W : Valuation τ sig (Elt F)) : after opsLayer2 W (main_arg19 : DevRef τ sig) = W (main_arg19 : DevRef τ sig) := by after_results_simp
theorem opsLayer2_keeps_arg20 (W : Valuation τ sig (Elt F)) : after opsLayer2 W (main_arg20 : DevRef τ sig) = W (main_arg20 : DevRef τ sig) := by after_results_simp
theorem opsLayer2_keeps_arg21 (W : Valuation τ sig (Elt F)) : after opsLayer2 W (main_arg21 : DevRef τ sig) = W (main_arg21 : DevRef τ sig) := by after_results_simp
theorem opsLayer2_keeps_arg22 (W : Valuation τ sig (Elt F)) : after opsLayer2 W (main_arg22 : DevRef τ sig) = W (main_arg22 : DevRef τ sig) := by after_results_simp
theorem opsLayer2_keeps_arg23 (W : Valuation τ sig (Elt F)) : after opsLayer2 W (main_arg23 : DevRef τ sig) = W (main_arg23 : DevRef τ sig) := by after_results_simp
theorem opsLayer2_keeps_v1 (W : Valuation τ sig (Elt F)) : after opsLayer2 W (main_v1 : DevRef τ sig) = W (main_v1 : DevRef τ sig) := by after_results_simp
theorem opsLayer2_keeps_v3 (W : Valuation τ sig (Elt F)) : after opsLayer2 W (main_v3 : DevRef τ sig) = W (main_v3 : DevRef τ sig) := by after_results_simp
theorem opsLayer2_keeps_v24 (W : Valuation τ sig (Elt F)) : after opsLayer2 W (main_v24 : DevRef τ sig) = W (main_v24 : DevRef τ sig) := by after_results_simp

theorem opsLayer3Idx_keeps_arg0 (W : Valuation τ sig (Elt F)) : after opsLayer3Idx W (main_arg0 : DevRef τ sig) = W (main_arg0 : DevRef τ sig) := by after_results_simp
theorem opsLayer3Idx_keeps_arg1 (W : Valuation τ sig (Elt F)) : after opsLayer3Idx W (main_arg1 : DevRef τ sig) = W (main_arg1 : DevRef τ sig) := by after_results_simp
theorem opsLayer3Idx_keeps_arg2 (W : Valuation τ sig (Elt F)) : after opsLayer3Idx W (main_arg2 : DevRef τ sig) = W (main_arg2 : DevRef τ sig) := by after_results_simp
theorem opsLayer3Idx_keeps_arg3 (W : Valuation τ sig (Elt F)) : after opsLayer3Idx W (main_arg3 : DevRef τ sig) = W (main_arg3 : DevRef τ sig) := by after_results_simp
theorem opsLayer3Idx_keeps_arg4 (W : Valuation τ sig (Elt F)) : after opsLayer3Idx W (main_arg4 : DevRef τ sig) = W (main_arg4 : DevRef τ sig) := by after_results_simp
theorem opsLayer3Idx_keeps_arg5 (W : Valuation τ sig (Elt F)) : after opsLayer3Idx W (main_arg5 : DevRef τ sig) = W (main_arg5 : DevRef τ sig) := by after_results_simp
theorem opsLayer3Idx_keeps_arg6 (W : Valuation τ sig (Elt F)) : after opsLayer3Idx W (main_arg6 : DevRef τ sig) = W (main_arg6 : DevRef τ sig) := by after_results_simp
theorem opsLayer3Idx_keeps_arg7 (W : Valuation τ sig (Elt F)) : after opsLayer3Idx W (main_arg7 : DevRef τ sig) = W (main_arg7 : DevRef τ sig) := by after_results_simp
theorem opsLayer3Idx_keeps_arg8 (W : Valuation τ sig (Elt F)) : after opsLayer3Idx W (main_arg8 : DevRef τ sig) = W (main_arg8 : DevRef τ sig) := by after_results_simp
theorem opsLayer3Idx_keeps_arg9 (W : Valuation τ sig (Elt F)) : after opsLayer3Idx W (main_arg9 : DevRef τ sig) = W (main_arg9 : DevRef τ sig) := by after_results_simp
theorem opsLayer3Idx_keeps_arg10 (W : Valuation τ sig (Elt F)) : after opsLayer3Idx W (main_arg10 : DevRef τ sig) = W (main_arg10 : DevRef τ sig) := by after_results_simp
theorem opsLayer3Idx_keeps_arg11 (W : Valuation τ sig (Elt F)) : after opsLayer3Idx W (main_arg11 : DevRef τ sig) = W (main_arg11 : DevRef τ sig) := by after_results_simp
theorem opsLayer3Idx_keeps_arg12 (W : Valuation τ sig (Elt F)) : after opsLayer3Idx W (main_arg12 : DevRef τ sig) = W (main_arg12 : DevRef τ sig) := by after_results_simp
theorem opsLayer3Idx_keeps_arg13 (W : Valuation τ sig (Elt F)) : after opsLayer3Idx W (main_arg13 : DevRef τ sig) = W (main_arg13 : DevRef τ sig) := by after_results_simp
theorem opsLayer3Idx_keeps_arg14 (W : Valuation τ sig (Elt F)) : after opsLayer3Idx W (main_arg14 : DevRef τ sig) = W (main_arg14 : DevRef τ sig) := by after_results_simp
theorem opsLayer3Idx_keeps_arg15 (W : Valuation τ sig (Elt F)) : after opsLayer3Idx W (main_arg15 : DevRef τ sig) = W (main_arg15 : DevRef τ sig) := by after_results_simp
theorem opsLayer3Idx_keeps_arg16 (W : Valuation τ sig (Elt F)) : after opsLayer3Idx W (main_arg16 : DevRef τ sig) = W (main_arg16 : DevRef τ sig) := by after_results_simp
theorem opsLayer3Idx_keeps_arg17 (W : Valuation τ sig (Elt F)) : after opsLayer3Idx W (main_arg17 : DevRef τ sig) = W (main_arg17 : DevRef τ sig) := by after_results_simp
theorem opsLayer3Idx_keeps_arg18 (W : Valuation τ sig (Elt F)) : after opsLayer3Idx W (main_arg18 : DevRef τ sig) = W (main_arg18 : DevRef τ sig) := by after_results_simp
theorem opsLayer3Idx_keeps_arg19 (W : Valuation τ sig (Elt F)) : after opsLayer3Idx W (main_arg19 : DevRef τ sig) = W (main_arg19 : DevRef τ sig) := by after_results_simp
theorem opsLayer3Idx_keeps_arg20 (W : Valuation τ sig (Elt F)) : after opsLayer3Idx W (main_arg20 : DevRef τ sig) = W (main_arg20 : DevRef τ sig) := by after_results_simp
theorem opsLayer3Idx_keeps_arg21 (W : Valuation τ sig (Elt F)) : after opsLayer3Idx W (main_arg21 : DevRef τ sig) = W (main_arg21 : DevRef τ sig) := by after_results_simp
theorem opsLayer3Idx_keeps_arg22 (W : Valuation τ sig (Elt F)) : after opsLayer3Idx W (main_arg22 : DevRef τ sig) = W (main_arg22 : DevRef τ sig) := by after_results_simp
theorem opsLayer3Idx_keeps_arg23 (W : Valuation τ sig (Elt F)) : after opsLayer3Idx W (main_arg23 : DevRef τ sig) = W (main_arg23 : DevRef τ sig) := by after_results_simp
theorem opsLayer3Idx_keeps_v3 (W : Valuation τ sig (Elt F)) : after opsLayer3Idx W (main_v3 : DevRef τ sig) = W (main_v3 : DevRef τ sig) := by after_results_simp
theorem opsLayer3Idx_keeps_v24 (W : Valuation τ sig (Elt F)) : after opsLayer3Idx W (main_v24 : DevRef τ sig) = W (main_v24 : DevRef τ sig) := by after_results_simp
theorem opsLayer3Idx_keeps_v45 (W : Valuation τ sig (Elt F)) : after opsLayer3Idx W (main_v45 : DevRef τ sig) = W (main_v45 : DevRef τ sig) := by after_results_simp

end Cert.ReferenceIdeal.RefRun

end
-- ==== Proof.RefRunKeepsSecond.lean ====
/-
  What the stretches of the reference program's second window leave untouched.

  No stretch writes an argument, and the values a later stretch reads (the two rows of the edge list, the first and the
  second layer's features) are written by none of the stretches in between: read from any contents, each such buffer
  keeps what it held.  Each statement is the fold unrolled, every operation's result buffer being another one.
-/
import proofs.«149011_j79517024518682_1_alg».proof.Proof.RefRunOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

theorem opsLayer3_keeps_arg0 (W : Valuation τ sig (Elt F)) : after opsLayer3 W (main_arg0 : DevRef τ sig) = W (main_arg0 : DevRef τ sig) := by after_results_simp
theorem opsLayer3_keeps_arg1 (W : Valuation τ sig (Elt F)) : after opsLayer3 W (main_arg1 : DevRef τ sig) = W (main_arg1 : DevRef τ sig) := by after_results_simp
theorem opsLayer3_keeps_arg2 (W : Valuation τ sig (Elt F)) : after opsLayer3 W (main_arg2 : DevRef τ sig) = W (main_arg2 : DevRef τ sig) := by after_results_simp
theorem opsLayer3_keeps_arg3 (W : Valuation τ sig (Elt F)) : after opsLayer3 W (main_arg3 : DevRef τ sig) = W (main_arg3 : DevRef τ sig) := by after_results_simp
theorem opsLayer3_keeps_arg4 (W : Valuation τ sig (Elt F)) : after opsLayer3 W (main_arg4 : DevRef τ sig) = W (main_arg4 : DevRef τ sig) := by after_results_simp
theorem opsLayer3_keeps_arg5 (W : Valuation τ sig (Elt F)) : after opsLayer3 W (main_arg5 : DevRef τ sig) = W (main_arg5 : DevRef τ sig) := by after_results_simp
theorem opsLayer3_keeps_arg6 (W : Valuation τ sig (Elt F)) : after opsLayer3 W (main_arg6 : DevRef τ sig) = W (main_arg6 : DevRef τ sig) := by after_results_simp
theorem opsLayer3_keeps_arg7 (W : Valuation τ sig (Elt F)) : after opsLayer3 W (main_arg7 : DevRef τ sig) = W (main_arg7 : DevRef τ sig) := by after_results_simp
theorem opsLayer3_keeps_arg8 (W : Valuation τ sig (Elt F)) : after opsLayer3 W (main_arg8 : DevRef τ sig) = W (main_arg8 : DevRef τ sig) := by after_results_simp
theorem opsLayer3_keeps_arg9 (W : Valuation τ sig (Elt F)) : after opsLayer3 W (main_arg9 : DevRef τ sig) = W (main_arg9 : DevRef τ sig) := by after_results_simp
theorem opsLayer3_keeps_arg10 (W : Valuation τ sig (Elt F)) : after opsLayer3 W (main_arg10 : DevRef τ sig) = W (main_arg10 : DevRef τ sig) := by after_results_simp
theorem opsLayer3_keeps_arg11 (W : Valuation τ sig (Elt F)) : after opsLayer3 W (main_arg11 : DevRef τ sig) = W (main_arg11 : DevRef τ sig) := by after_results_simp
theorem opsLayer3_keeps_arg12 (W : Valuation τ sig (Elt F)) : after opsLayer3 W (main_arg12 : DevRef τ sig) = W (main_arg12 : DevRef τ sig) := by after_results_simp
theorem opsLayer3_keeps_arg13 (W : Valuation τ sig (Elt F)) : after opsLayer3 W (main_arg13 : DevRef τ sig) = W (main_arg13 : DevRef τ sig) := by after_results_simp
theorem opsLayer3_keeps_arg14 (W : Valuation τ sig (Elt F)) : after opsLayer3 W (main_arg14 : DevRef τ sig) = W (main_arg14 : DevRef τ sig) := by after_results_simp
theorem opsLayer3_keeps_arg15 (W : Valuation τ sig (Elt F)) : after opsLayer3 W (main_arg15 : DevRef τ sig) = W (main_arg15 : DevRef τ sig) := by after_results_simp
theorem opsLayer3_keeps_arg16 (W : Valuation τ sig (Elt F)) : after opsLayer3 W (main_arg16 : DevRef τ sig) = W (main_arg16 : DevRef τ sig) := by after_results_simp
theorem opsLayer3_keeps_arg17 (W : Valuation τ sig (Elt F)) : after opsLayer3 W (main_arg17 : DevRef τ sig) = W (main_arg17 : DevRef τ sig) := by after_results_simp
theorem opsLayer3_keeps_arg18 (W : Valuation τ sig (Elt F)) : after opsLayer3 W (main_arg18 : DevRef τ sig) = W (main_arg18 : DevRef τ sig) := by after_results_simp
theorem opsLayer3_keeps_arg19 (W : Valuation τ sig (Elt F)) : after opsLayer3 W (main_arg19 : DevRef τ sig) = W (main_arg19 : DevRef τ sig) := by after_results_simp
theorem opsLayer3_keeps_arg20 (W : Valuation τ sig (Elt F)) : after opsLayer3 W (main_arg20 : DevRef τ sig) = W (main_arg20 : DevRef τ sig) := by after_results_simp
theorem opsLayer3_keeps_arg21 (W : Valuation τ sig (Elt F)) : after opsLayer3 W (main_arg21 : DevRef τ sig) = W (main_arg21 : DevRef τ sig) := by after_results_simp
theorem opsLayer3_keeps_arg22 (W : Valuation τ sig (Elt F)) : after opsLayer3 W (main_arg22 : DevRef τ sig) = W (main_arg22 : DevRef τ sig) := by after_results_simp
theorem opsLayer3_keeps_arg23 (W : Valuation τ sig (Elt F)) : after opsLayer3 W (main_arg23 : DevRef τ sig) = W (main_arg23 : DevRef τ sig) := by after_results_simp
theorem opsLayer3_keeps_v24 (W : Valuation τ sig (Elt F)) : after opsLayer3 W (main_v24 : DevRef τ sig) = W (main_v24 : DevRef τ sig) := by after_results_simp
theorem opsLayer3_keeps_v45 (W : Valuation τ sig (Elt F)) : after opsLayer3 W (main_v45 : DevRef τ sig) = W (main_v45 : DevRef τ sig) := by after_results_simp

theorem opsPool_keeps_arg0 (W : Valuation τ sig (Elt F)) : after opsPool W (main_arg0 : DevRef τ sig) = W (main_arg0 : DevRef τ sig) := by after_results_simp
theorem opsPool_keeps_arg1 (W : Valuation τ sig (Elt F)) : after opsPool W (main_arg1 : DevRef τ sig) = W (main_arg1 : DevRef τ sig) := by after_results_simp
theorem opsPool_keeps_arg2 (W : Valuation τ sig (Elt F)) : after opsPool W (main_arg2 : DevRef τ sig) = W (main_arg2 : DevRef τ sig) := by after_results_simp
theorem opsPool_keeps_arg3 (W : Valuation τ sig (Elt F)) : after opsPool W (main_arg3 : DevRef τ sig) = W (main_arg3 : DevRef τ sig) := by after_results_simp
theorem opsPool_keeps_arg4 (W : Valuation τ sig (Elt F)) : after opsPool W (main_arg4 : DevRef τ sig) = W (main_arg4 : DevRef τ sig) := by after_results_simp
theorem opsPool_keeps_arg5 (W : Valuation τ sig (Elt F)) : after opsPool W (main_arg5 : DevRef τ sig) = W (main_arg5 : DevRef τ sig) := by after_results_simp
theorem opsPool_keeps_arg6 (W : Valuation τ sig (Elt F)) : after opsPool W (main_arg6 : DevRef τ sig) = W (main_arg6 : DevRef τ sig) := by after_results_simp
theorem opsPool_keeps_arg7 (W : Valuation τ sig (Elt F)) : after opsPool W (main_arg7 : DevRef τ sig) = W (main_arg7 : DevRef τ sig) := by after_results_simp
theorem opsPool_keeps_arg8 (W : Valuation τ sig (Elt F)) : after opsPool W (main_arg8 : DevRef τ sig) = W (main_arg8 : DevRef τ sig) := by after_results_simp
theorem opsPool_keeps_arg9 (W : Valuation τ sig (Elt F)) : after opsPool W (main_arg9 : DevRef τ sig) = W (main_arg9 : DevRef τ sig) := by after_results_simp
theorem opsPool_keeps_arg10 (W : Valuation τ sig (Elt F)) : after opsPool W (main_arg10 : DevRef τ sig) = W (main_arg10 : DevRef τ sig) := by after_results_simp
theorem opsPool_keeps_arg11 (W : Valuation τ sig (Elt F)) : after opsPool W (main_arg11 : DevRef τ sig) = W (main_arg11 : DevRef τ sig) := by after_results_simp
theorem opsPool_keeps_arg12 (W : Valuation τ sig (Elt F)) : after opsPool W (main_arg12 : DevRef τ sig) = W (main_arg12 : DevRef τ sig) := by after_results_simp
theorem opsPool_keeps_arg13 (W : Valuation τ sig (Elt F)) : after opsPool W (main_arg13 : DevRef τ sig) = W (main_arg13 : DevRef τ sig) := by after_results_simp
theorem opsPool_keeps_arg14 (W : Valuation τ sig (Elt F)) : after opsPool W (main_arg14 : DevRef τ sig) = W (main_arg14 : DevRef τ sig) := by after_results_simp
theorem opsPool_keeps_arg15 (W : Valuation τ sig (Elt F)) : after opsPool W (main_arg15 : DevRef τ sig) = W (main_arg15 : DevRef τ sig) := by after_results_simp
theorem opsPool_keeps_arg16 (W : Valuation τ sig (Elt F)) : after opsPool W (main_arg16 : DevRef τ sig) = W (main_arg16 : DevRef τ sig) := by after_results_simp
theorem opsPool_keeps_arg17 (W : Valuation τ sig (Elt F)) : after opsPool W (main_arg17 : DevRef τ sig) = W (main_arg17 : DevRef τ sig) := by after_results_simp
theorem opsPool_keeps_arg18 (W : Valuation τ sig (Elt F)) : after opsPool W (main_arg18 : DevRef τ sig) = W (main_arg18 : DevRef τ sig) := by after_results_simp
theorem opsPool_keeps_arg19 (W : Valuation τ sig (Elt F)) : after opsPool W (main_arg19 : DevRef τ sig) = W (main_arg19 : DevRef τ sig) := by after_results_simp
theorem opsPool_keeps_arg20 (W : Valuation τ sig (Elt F)) : after opsPool W (main_arg20 : DevRef τ sig) = W (main_arg20 : DevRef τ sig) := by after_results_simp
theorem opsPool_keeps_arg21 (W : Valuation τ sig (Elt F)) : after opsPool W (main_arg21 : DevRef τ sig) = W (main_arg21 : DevRef τ sig) := by after_results_simp
theorem opsPool_keeps_arg22 (W : Valuation τ sig (Elt F)) : after opsPool W (main_arg22 : DevRef τ sig) = W (main_arg22 : DevRef τ sig) := by after_results_simp
theorem opsPool_keeps_arg23 (W : Valuation τ sig (Elt F)) : after opsPool W (main_arg23 : DevRef τ sig) = W (main_arg23 : DevRef τ sig) := by after_results_simp

theorem opsClassifier_keeps_arg0 (W : Valuation τ sig (Elt F)) : after opsClassifier W (main_arg0 : DevRef τ sig) = W (main_arg0 : DevRef τ sig) := by after_results_simp
theorem opsClassifier_keeps_arg1 (W : Valuation τ sig (Elt F)) : after opsClassifier W (main_arg1 : DevRef τ sig) = W (main_arg1 : DevRef τ sig) := by after_results_simp
theorem opsClassifier_keeps_arg2 (W : Valuation τ sig (Elt F)) : after opsClassifier W (main_arg2 : DevRef τ sig) = W (main_arg2 : DevRef τ sig) := by after_results_simp
theorem opsClassifier_keeps_arg3 (W : Valuation τ sig (Elt F)) : after opsClassifier W (main_arg3 : DevRef τ sig) = W (main_arg3 : DevRef τ sig) := by after_results_simp
theorem opsClassifier_keeps_arg4 (W : Valuation τ sig (Elt F)) : after opsClassifier W (main_arg4 : DevRef τ sig) = W (main_arg4 : DevRef τ sig) := by after_results_simp
theorem opsClassifier_keeps_arg5 (W : Valuation τ sig (Elt F)) : after opsClassifier W (main_arg5 : DevRef τ sig) = W (main_arg5 : DevRef τ sig) := by after_results_simp
theorem opsClassifier_keeps_arg6 (W : Valuation τ sig (Elt F)) : after opsClassifier W (main_arg6 : DevRef τ sig) = W (main_arg6 : DevRef τ sig) := by after_results_simp
theorem opsClassifier_keeps_arg7 (W : Valuation τ sig (Elt F)) : after opsClassifier W (main_arg7 : DevRef τ sig) = W (main_arg7 : DevRef τ sig) := by after_results_simp
theorem opsClassifier_keeps_arg8 (W : Valuation τ sig (Elt F)) : after opsClassifier W (main_arg8 : DevRef τ sig) = W (main_arg8 : DevRef τ sig) := by after_results_simp
theorem opsClassifier_keeps_arg9 (W : Valuation τ sig (Elt F)) : after opsClassifier W (main_arg9 : DevRef τ sig) = W (main_arg9 : DevRef τ sig) := by after_results_simp
theorem opsClassifier_keeps_arg10 (W : Valuation τ sig (Elt F)) : after opsClassifier W (main_arg10 : DevRef τ sig) = W (main_arg10 : DevRef τ sig) := by after_results_simp
theorem opsClassifier_keeps_arg11 (W : Valuation τ sig (Elt F)) : after opsClassifier W (main_arg11 : DevRef τ sig) = W (main_arg11 : DevRef τ sig) := by after_results_simp
theorem opsClassifier_keeps_arg12 (W : Valuation τ sig (Elt F)) : after opsClassifier W (main_arg12 : DevRef τ sig) = W (main_arg12 : DevRef τ sig) := by after_results_simp
theorem opsClassifier_keeps_arg13 (W : Valuation τ sig (Elt F)) : after opsClassifier W (main_arg13 : DevRef τ sig) = W (main_arg13 : DevRef τ sig) := by after_results_simp
theorem opsClassifier_keeps_arg14 (W : Valuation τ sig (Elt F)) : after opsClassifier W (main_arg14 : DevRef τ sig) = W (main_arg14 : DevRef τ sig) := by after_results_simp
theorem opsClassifier_keeps_arg15 (W : Valuation τ sig (Elt F)) : after opsClassifier W (main_arg15 : DevRef τ sig) = W (main_arg15 : DevRef τ sig) := by after_results_simp
theorem opsClassifier_keeps_arg16 (W : Valuation τ sig (Elt F)) : after opsClassifier W (main_arg16 : DevRef τ sig) = W (main_arg16 : DevRef τ sig) := by after_results_simp
theorem opsClassifier_keeps_arg17 (W : Valuation τ sig (Elt F)) : after opsClassifier W (main_arg17 : DevRef τ sig) = W (main_arg17 : DevRef τ sig) := by after_results_simp
theorem opsClassifier_keeps_arg18 (W : Valuation τ sig (Elt F)) : after opsClassifier W (main_arg18 : DevRef τ sig) = W (main_arg18 : DevRef τ sig) := by after_results_simp
theorem opsClassifier_keeps_arg19 (W : Valuation τ sig (Elt F)) : after opsClassifier W (main_arg19 : DevRef τ sig) = W (main_arg19 : DevRef τ sig) := by after_results_simp
theorem opsClassifier_keeps_arg20 (W : Valuation τ sig (Elt F)) : after opsClassifier W (main_arg20 : DevRef τ sig) = W (main_arg20 : DevRef τ sig) := by after_results_simp
theorem opsClassifier_keeps_arg21 (W : Valuation τ sig (Elt F)) : after opsClassifier W (main_arg21 : DevRef τ sig) = W (main_arg21 : DevRef τ sig) := by after_results_simp
theorem opsClassifier_keeps_arg22 (W : Valuation τ sig (Elt F)) : after opsClassifier W (main_arg22 : DevRef τ sig) = W (main_arg22 : DevRef τ sig) := by after_results_simp
theorem opsClassifier_keeps_arg23 (W : Valuation τ sig (Elt F)) : after opsClassifier W (main_arg23 : DevRef τ sig) = W (main_arg23 : DevRef τ sig) := by after_results_simp

end Cert.ReferenceIdeal.RefRun

end
-- ==== Proof.LibHostLine.lean ====
/-
  Two facts about straight lines of host operations.

  Running two stretches of operations one after the other is running the second from where the first ends; so a long line can
  be read in parts, each from contents one does not look inside. And a dynamic slice of a rank-1 array has one start: whatever
  function of the one axis supplies it, only its value on that axis matters. (The second is what lets a start that a program
  looks up through a one-entry list of operands, under a binder, be replaced by the operand itself.) Library imports only.
-/
import Idealize.ShloMosaic.Lib.StableHlo.Run

noncomputable section

namespace Cert.LibHostLine

open Idealize.ShloMosaic

/-- The fold of the operations' results over an appended list is the fold over the second part from the first part's end. -/
theorem after_append {τ : Topo} {sig : RefSig} {Val : EltTy → Type} (l1 l2 : List (HloOp τ sig Val)) (V : Valuation τ sig Val) :
    StableHlo.after (l1 ++ l2) V = StableHlo.after l2 (StableHlo.after l1 V) := by
  induction l1 generalizing V with
  | nil => rfl
  | cons op l ih => simp only [List.cons_append, StableHlo.after_cons, ih]

/-- A slice of a rank-1 array takes one start: a start function on the one axis is its value there. -/
theorem dynSlice_one {α : Type} {d : Fin 1 → Nat} (t : Shape) (x : (⟨1, d⟩ : Shape).Idx → α)
    (start : Fin 1 → Int) (h : (⟨1, d⟩ : Shape).Slices (fun _ => 0) t) :
    Host.dynamicSlice t x start h = Host.dynamicSlice t x (fun _ => start 0) h :=
  congrArg (fun st => Host.dynamicSlice t x st h) (funext fun k => by rw [Subsingleton.elim k (0 : Fin 1)])

end Cert.LibHostLine

end
-- ==== Proof.RefRun.lean ====
/-
  The reference program's run, with its result read back as the network function of the arguments.

  The fold over the whole line is the stretches' folds composed, each from where the one before ends; the stage readings
  chain: the first layer's features and the two rows of the edge list survive the second stretch, the second layer's the
  third, and so on, and no stretch writes an argument.  The result buffer therefore holds the network function of the
  arguments' launch contents, and every argument is unchanged.
-/
import proofs.«149011_j79517024518682_1_alg».proof.Proof.RefRunStages
import proofs.«149011_j79517024518682_1_alg».proof.Proof.RefRunKeepsFirst
import proofs.«149011_j79517024518682_1_alg».proof.Proof.RefRunKeepsSecond
import proofs.«149011_j79517024518682_1_alg».proof.Proof.LibHostLine

noncomputable section

namespace Cert.ReferenceIdeal.RefRun

open Cert.ReferenceIdeal Cert.ReferenceIdeal.Facts₀ Idealize.ShloMosaic Idealize.ShloMosaic.TcCoe Idealize.SL.Sem Idealize.ShloMosaic.StableHlo
open Cert.Gnn Cert.LibHostLine

variable {F : FTy → Type} [FloatOps F] [Cert.ReferenceIdeal.Facts]

/-- The fold over the whole line is the six stretches' folds composed. -/
theorem after_ops (V : Valuation τ sig (Elt F)) :
    after ops V = after opsClassifier (after opsPool (after opsLayer3 (after opsLayer3Idx (after opsLayer2 (after opsLayer1 V))))) := by
  simp only [ops, ops0, ops1, after_append]

/-- The result buffer after the whole line: the network function of the contents the line starts from. -/
theorem out_eq (V : Valuation τ sig (Elt F)) :
    after ops V (main_v102 : DevRef τ sig)
      = net (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) := by
  have r0 := layer1_row0 V
  have r1 := layer1_row1 V
  have hIdx : after opsLayer3Idx (after opsLayer2 (after opsLayer1 V)) (main_v51 : DevRef τ sig) = wrapRows (edgeRow0 (V (main_arg1 : DevRef τ sig))) := by
    rw [layer3Idx_out, opsLayer2_keeps_v1, r0]
  have hRow1 : after opsLayer3Idx (after opsLayer2 (after opsLayer1 V)) (main_v3 : DevRef τ sig) = edgeRow1 (V (main_arg1 : DevRef τ sig)) := by
    rw [opsLayer3Idx_keeps_v3, opsLayer2_keeps_v3, r1]
  rw [after_ops, classifier_out _ _ _ _ (pool_out _), layer3_out _ (V (main_arg1 : DevRef τ sig)) hIdx hRow1]
  -- the arguments and the earlier layers' features, carried back stretch by stretch to where they were written
  rw [opsPool_keeps_arg20,
    opsPool_keeps_arg21,
    opsPool_keeps_arg22,
    opsPool_keeps_arg23]
  rw [opsLayer3_keeps_v24,
    opsLayer3_keeps_v45,
    opsLayer3_keeps_arg16,
    opsLayer3_keeps_arg17,
    opsLayer3_keeps_arg3,
    opsLayer3_keeps_arg18,
    opsLayer3_keeps_arg19,
    opsLayer3_keeps_arg20,
    opsLayer3_keeps_arg21,
    opsLayer3_keeps_arg22,
    opsLayer3_keeps_arg23]
  rw [opsLayer3Idx_keeps_v24,
    opsLayer3Idx_keeps_v45,
    opsLayer3Idx_keeps_arg12,
    opsLayer3Idx_keeps_arg13,
    opsLayer3Idx_keeps_arg14,
    opsLayer3Idx_keeps_arg15,
    opsLayer3Idx_keeps_arg16,
    opsLayer3Idx_keeps_arg17,
    opsLayer3Idx_keeps_arg3,
    opsLayer3Idx_keeps_arg18,
    opsLayer3Idx_keeps_arg19,
    opsLayer3Idx_keeps_arg20,
    opsLayer3Idx_keeps_arg21,
    opsLayer3Idx_keeps_arg22,
    opsLayer3Idx_keeps_arg23]
  rw [layer2_out _ (V (main_arg1 : DevRef τ sig)) r0 r1]
  rw [opsLayer2_keeps_v24,
    opsLayer2_keeps_arg12,
    opsLayer2_keeps_arg13,
    opsLayer2_keeps_arg14,
    opsLayer2_keeps_arg15,
    opsLayer2_keeps_arg16,
    opsLayer2_keeps_arg17,
    opsLayer2_keeps_arg3,
    opsLayer2_keeps_arg18,
    opsLayer2_keeps_arg19,
    opsLayer2_keeps_arg20,
    opsLayer2_keeps_arg21,
    opsLayer2_keeps_arg22,
    opsLayer2_keeps_arg23]
  rw [layer1_out]
  rw [opsLayer1_keeps_arg8,
    opsLayer1_keeps_arg9,
    opsLayer1_keeps_arg10,
    opsLayer1_keeps_arg11,
    opsLayer1_keeps_arg12,
    opsLayer1_keeps_arg13,
    opsLayer1_keeps_arg14,
    opsLayer1_keeps_arg15,
    opsLayer1_keeps_arg16,
    opsLayer1_keeps_arg17,
    opsLayer1_keeps_arg3,
    opsLayer1_keeps_arg18,
    opsLayer1_keeps_arg19,
    opsLayer1_keeps_arg20,
    opsLayer1_keeps_arg21,
    opsLayer1_keeps_arg22,
    opsLayer1_keeps_arg23]
  rfl

theorem arg0_eq (V : Valuation τ sig (Elt F)) : after ops V (main_arg0 : DevRef τ sig) = V (main_arg0 : DevRef τ sig) := by
  rw [after_ops, opsClassifier_keeps_arg0, opsPool_keeps_arg0, opsLayer3_keeps_arg0, opsLayer3Idx_keeps_arg0, opsLayer2_keeps_arg0, opsLayer1_keeps_arg0]
theorem arg1_eq (V : Valuation τ sig (Elt F)) : after ops V (main_arg1 : DevRef τ sig) = V (main_arg1 : DevRef τ sig) := by
  rw [after_ops, opsClassifier_keeps_arg1, opsPool_keeps_arg1, opsLayer3_keeps_arg1, opsLayer3Idx_keeps_arg1, opsLayer2_keeps_arg1, opsLayer1_keeps_arg1]
theorem arg2_eq (V : Valuation τ sig (Elt F)) : after ops V (main_arg2 : DevRef τ sig) = V (main_arg2 : DevRef τ sig) := by
  rw [after_ops, opsClassifier_keeps_arg2, opsPool_keeps_arg2, opsLayer3_keeps_arg2, opsLayer3Idx_keeps_arg2, opsLayer2_keeps_arg2, opsLayer1_keeps_arg2]
theorem arg3_eq (V : Valuation τ sig (Elt F)) : after ops V (main_arg3 : DevRef τ sig) = V (main_arg3 : DevRef τ sig) := by
  rw [after_ops, opsClassifier_keeps_arg3, opsPool_keeps_arg3, opsLayer3_keeps_arg3, opsLayer3Idx_keeps_arg3, opsLayer2_keeps_arg3, opsLayer1_keeps_arg3]
theorem arg4_eq (V : Valuation τ sig (Elt F)) : after ops V (main_arg4 : DevRef τ sig) = V (main_arg4 : DevRef τ sig) := by
  rw [after_ops, opsClassifier_keeps_arg4, opsPool_keeps_arg4, opsLayer3_keeps_arg4, opsLayer3Idx_keeps_arg4, opsLayer2_keeps_arg4, opsLayer1_keeps_arg4]
theorem arg5_eq (V : Valuation τ sig (Elt F)) : after ops V (main_arg5 : DevRef τ sig) = V (main_arg5 : DevRef τ sig) := by
  rw [after_ops, opsClassifier_keeps_arg5, opsPool_keeps_arg5, opsLayer3_keeps_arg5, opsLayer3Idx_keeps_arg5, opsLayer2_keeps_arg5, opsLayer1_keeps_arg5]
theorem arg6_eq (V : Valuation τ sig (Elt F)) : after ops V (main_arg6 : DevRef τ sig) = V (main_arg6 : DevRef τ sig) := by
  rw [after_ops, opsClassifier_keeps_arg6, opsPool_keeps_arg6, opsLayer3_keeps_arg6, opsLayer3Idx_keeps_arg6, opsLayer2_keeps_arg6, opsLayer1_keeps_arg6]
theorem arg7_eq (V : Valuation τ sig (Elt F)) : after ops V (main_arg7 : DevRef τ sig) = V (main_arg7 : DevRef τ sig) := by
  rw [after_ops, opsClassifier_keeps_arg7, opsPool_keeps_arg7, opsLayer3_keeps_arg7, opsLayer3Idx_keeps_arg7, opsLayer2_keeps_arg7, opsLayer1_keeps_arg7]
theorem arg8_eq (V : Valuation τ sig (Elt F)) : after ops V (main_arg8 : DevRef τ sig) = V (main_arg8 : DevRef τ sig) := by
  rw [after_ops, opsClassifier_keeps_arg8, opsPool_keeps_arg8, opsLayer3_keeps_arg8, opsLayer3Idx_keeps_arg8, opsLayer2_keeps_arg8, opsLayer1_keeps_arg8]
theorem arg9_eq (V : Valuation τ sig (Elt F)) : after ops V (main_arg9 : DevRef τ sig) = V (main_arg9 : DevRef τ sig) := by
  rw [after_ops, opsClassifier_keeps_arg9, opsPool_keeps_arg9, opsLayer3_keeps_arg9, opsLayer3Idx_keeps_arg9, opsLayer2_keeps_arg9, opsLayer1_keeps_arg9]
theorem arg10_eq (V : Valuation τ sig (Elt F)) : after ops V (main_arg10 : DevRef τ sig) = V (main_arg10 : DevRef τ sig) := by
  rw [after_ops, opsClassifier_keeps_arg10, opsPool_keeps_arg10, opsLayer3_keeps_arg10, opsLayer3Idx_keeps_arg10, opsLayer2_keeps_arg10, opsLayer1_keeps_arg10]
theorem arg11_eq (V : Valuation τ sig (Elt F)) : after ops V (main_arg11 : DevRef τ sig) = V (main_arg11 : DevRef τ sig) := by
  rw [after_ops, opsClassifier_keeps_arg11, opsPool_keeps_arg11, opsLayer3_keeps_arg11, opsLayer3Idx_keeps_arg11, opsLayer2_keeps_arg11, opsLayer1_keeps_arg11]
theorem arg12_eq (V : Valuation τ sig (Elt F)) : after ops V (main_arg12 : DevRef τ sig) = V (main_arg12 : DevRef τ sig) := by
  rw [after_ops, opsClassifier_keeps_arg12, opsPool_keeps_arg12, opsLayer3_keeps_arg12, opsLayer3Idx_keeps_arg12, opsLayer2_keeps_arg12, opsLayer1_keeps_arg12]
theorem arg13_eq (V : Valuation τ sig (Elt F)) : after ops V (main_arg13 : DevRef τ sig) = V (main_arg13 : DevRef τ sig) := by
  rw [after_ops, opsClassifier_keeps_arg13, opsPool_keeps_arg13, opsLayer3_keeps_arg13, opsLayer3Idx_keeps_arg13, opsLayer2_keeps_arg13, opsLayer1_keeps_arg13]
theorem arg14_eq (V : Valuation τ sig (Elt F)) : after ops V (main_arg14 : DevRef τ sig) = V (main_arg14 : DevRef τ sig) := by
  rw [after_ops, opsClassifier_keeps_arg14, opsPool_keeps_arg14, opsLayer3_keeps_arg14, opsLayer3Idx_keeps_arg14, opsLayer2_keeps_arg14, opsLayer1_keeps_arg14]
theorem arg15_eq (V : Valuation τ sig (Elt F)) : after ops V (main_arg15 : DevRef τ sig) = V (main_arg15 : DevRef τ sig) := by
  rw [after_ops, opsClassifier_keeps_arg15, opsPool_keeps_arg15, opsLayer3_keeps_arg15, opsLayer3Idx_keeps_arg15, opsLayer2_keeps_arg15, opsLayer1_keeps_arg15]
theorem arg16_eq (V : Valuation τ sig (Elt F)) : after ops V (main_arg16 : DevRef τ sig) = V (main_arg16 : DevRef τ sig) := by
  rw [after_ops, opsClassifier_keeps_arg16, opsPool_keeps_arg16, opsLayer3_keeps_arg16, opsLayer3Idx_keeps_arg16, opsLayer2_keeps_arg16, opsLayer1_keeps_arg16]
theorem arg17_eq (V : Valuation τ sig (Elt F)) : after ops V (main_arg17 : DevRef τ sig) = V (main_arg17 : DevRef τ sig) := by
  rw [after_ops, opsClassifier_keeps_arg17, opsPool_keeps_arg17, opsLayer3_keeps_arg17, opsLayer3Idx_keeps_arg17, opsLayer2_keeps_arg17, opsLayer1_keeps_arg17]
theorem arg18_eq (V : Valuation τ sig (Elt F)) : after ops V (main_arg18 : DevRef τ sig) = V (main_arg18 : DevRef τ sig) := by
  rw [after_ops, opsClassifier_keeps_arg18, opsPool_keeps_arg18, opsLayer3_keeps_arg18, opsLayer3Idx_keeps_arg18, opsLayer2_keeps_arg18, opsLayer1_keeps_arg18]
theorem arg19_eq (V : Valuation τ sig (Elt F)) : after ops V (main_arg19 : DevRef τ sig) = V (main_arg19 : DevRef τ sig) := by
  rw [after_ops, opsClassifier_keeps_arg19, opsPool_keeps_arg19, opsLayer3_keeps_arg19, opsLayer3Idx_keeps_arg19, opsLayer2_keeps_arg19, opsLayer1_keeps_arg19]
theorem arg20_eq (V : Valuation τ sig (Elt F)) : after ops V (main_arg20 : DevRef τ sig) = V (main_arg20 : DevRef τ sig) := by
  rw [after_ops, opsClassifier_keeps_arg20, opsPool_keeps_arg20, opsLayer3_keeps_arg20, opsLayer3Idx_keeps_arg20, opsLayer2_keeps_arg20, opsLayer1_keeps_arg20]
theorem arg21_eq (V : Valuation τ sig (Elt F)) : after ops V (main_arg21 : DevRef τ sig) = V (main_arg21 : DevRef τ sig) := by
  rw [after_ops, opsClassifier_keeps_arg21, opsPool_keeps_arg21, opsLayer3_keeps_arg21, opsLayer3Idx_keeps_arg21, opsLayer2_keeps_arg21, opsLayer1_keeps_arg21]
theorem arg22_eq (V : Valuation τ sig (Elt F)) : after ops V (main_arg22 : DevRef τ sig) = V (main_arg22 : DevRef τ sig) := by
  rw [after_ops, opsClassifier_keeps_arg22, opsPool_keeps_arg22, opsLayer3_keeps_arg22, opsLayer3Idx_keeps_arg22, opsLayer2_keeps_arg22, opsLayer1_keeps_arg22]
theorem arg23_eq (V : Valuation τ sig (Elt F)) : after ops V (main_arg23 : DevRef τ sig) = V (main_arg23 : DevRef τ sig) := by
  rw [after_ops, opsClassifier_keeps_arg23, opsPool_keeps_arg23, opsLayer3_keeps_arg23, opsLayer3Idx_keeps_arg23, opsLayer2_keeps_arg23, opsLayer1_keeps_arg23]

/-- On every device, for any float values, from any memory with zero counters: every weakly fair execution of the program
    terminates with the result buffer at the network function of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v102) = net (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v102).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _),
      (h c main_arg20).trans (arg20_eq _),
      (h c main_arg21).trans (arg21_eq _),
      (h c main_arg22).trans (arg22_eq _),
      (h c main_arg23).trans (arg23_eq _)⟩)
    (run_main m ρ)

end Cert.ReferenceIdeal.RefRun

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibRowwise.lean ====
/-
  Row-wise readings of a matrix `[n, c]`, at an entry given by its two coordinates.

  A row vector `[c]` laid under every row of an `[n, c]` matrix (cast to `[1, c]`, then broadcast down the rows) reads, at
  `(p, j)`, its entry `j`; a column `[n]` laid beside every column (cast to `[n, 1]`, then broadcast along the rows) reads,
  at `(p, j)`, its entry `p`; column `o` of an `[n, b]` matrix cut out as `[n, 1]` and broadcast along the rows reads, at
  `(p, j)`, the entry `(p, o)`. The host's reduce of an `[a, b]` matrix over its second axis by a commutative,
  associative body is, at row `r`, the fold of the body from the initial value over the entries `(r, k)`; its float sum
  is the initial value plus the row's sum.
  Library imports only.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowwise

open Idealize.ShloMosaic Idealize.ShloMosaic.ValueIdx
open scoped BigOperators

variable {α : Type}

/-- A `[c]` array cast to `[1, c]` and broadcast down `n` rows reads, at `(p, j)`, the operand at `j`. -/
theorem rowUnder_apply {n c : ℕ} (b : (⟨1, ![c]⟩ : Shape).Idx → α) (hc : (⟨1, ![c]⟩ : Shape).ShapeCasts ⟨2, ![1, c]⟩)
    (hb : (⟨2, ![1, c]⟩ : Shape).Broadcasts ⟨2, ![n, c]⟩) (p : Fin n) (j : Fin c) :
    broadcastTo ⟨2, ![n, c]⟩ (shapeCast ⟨2, ![1, c]⟩ b hc) hb (ix2 p j) = b (ix1 j) := by
  refine (broadcastTo_apply (shapeCast ⟨2, ![1, c]⟩ b hc) hb (ix2 p j) (ix2 (0 : Fin 1) j) fun ax => ?_).trans ?_
  · match ax with
    | ⟨0, _⟩ => rfl
    | ⟨1, _⟩ =>
      show j.val = if c = 1 then 0 else j.val
      split
      · have := j.isLt; omega
      · rfl
  · exact shapeCast_apply b hc _ _ (by
      rw [Shape.rowMajor_val_two, Shape.rowMajor_val_one]
      show j.val = 0 * c + j.val
      omega)

/-- An `[n]` array cast to `[n, 1]` and broadcast along `c` columns reads, at `(p, j)`, the operand at `p`. -/
theorem columnBeside_apply {n c : ℕ} (v : (⟨1, ![n]⟩ : Shape).Idx → α) (hc : (⟨1, ![n]⟩ : Shape).ShapeCasts ⟨2, ![n, 1]⟩)
    (hb : (⟨2, ![n, 1]⟩ : Shape).Broadcasts ⟨2, ![n, c]⟩) (p : Fin n) (j : Fin c) :
    broadcastTo ⟨2, ![n, c]⟩ (shapeCast ⟨2, ![n, 1]⟩ v hc) hb (ix2 p j) = v (ix1 p) := by
  refine (broadcastTo_apply (shapeCast ⟨2, ![n, 1]⟩ v hc) hb (ix2 p j) (ix2 p (0 : Fin 1)) fun ax => ?_).trans ?_
  · match ax with
    | ⟨0, _⟩ =>
      show p.val = if n = 1 then 0 else p.val
      split
      · have := p.isLt; omega
      · rfl
    | ⟨1, _⟩ => rfl
  · exact shapeCast_apply v hc _ _ (by
      rw [Shape.rowMajor_val_two, Shape.rowMajor_val_one]
      show p.val = p.val * 1 + 0
      omega)

/-- Column `o` of an `[n, b]` matrix, cut out as `[n, 1]` and broadcast along `c` columns, reads at `(p, j)` the entry
    `(p, o)`. -/
theorem columnOf_apply {n b c : ℕ} (g : (⟨2, ![n, b]⟩ : Shape).Idx → α) (o : ℕ) (ho : o < b)
    (hs : (⟨2, ![n, b]⟩ : Shape).Slices ![0, o] ⟨2, ![n, 1]⟩)
    (hb : (⟨2, ![n, 1]⟩ : Shape).Broadcasts ⟨2, ![n, c]⟩) (p : Fin n) (j : Fin c) :
    broadcastTo ⟨2, ![n, c]⟩ (extractStridedSlice ⟨2, ![n, 1]⟩ ![0, o] g hs) hb (ix2 p j) = g (ix2 p (⟨o, ho⟩ : Fin b)) := by
  refine (broadcastTo_apply (extractStridedSlice ⟨2, ![n, 1]⟩ ![0, o] g hs) hb (ix2 p j) (ix2 p (0 : Fin 1)) fun ax => ?_).trans ?_
  · match ax with
    | ⟨0, _⟩ =>
      show p.val = if n = 1 then 0 else p.val
      split
      · have := p.isLt; omega
      · rfl
    | ⟨1, _⟩ => rfl
  · exact extractStridedSlice_apply ![0, o] g hs (ix2 p (0 : Fin 1)) (ix2 p (⟨o, ho⟩ : Fin b)) fun ax => by
      match ax with
      | ⟨0, _⟩ => show p.val = 0 + p.val; omega
      | ⟨1, _⟩ => show o = o + 0; omega

/-- Row `r` with the second coordinate `k` put back is the entry `(r, k)`. -/
theorem lift_second {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- The host's reduce of a matrix over its second axis by a commutative, associative body, at row `r`: the fold from the
    initial value over the row's entries. -/
theorem hostReduce_row {a b : ℕ} {u : Shape} (f : α → α → α) [Std.Commutative f] [Std.Associative f]
    (x : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce f x init h' hu (ix1 r)
      = (Finset.univ : Finset (Fin b)).fold f (init (Shape.Idx.first hu)) fun k => x (ix2 r k) :=
  (Host.reduce_eq_fold_single f x init h' h hu (ix1 r)).trans
    (congrArg (fun g => Finset.fold f (init (Shape.Idx.first hu)) g (Finset.univ : Finset (Fin b)))
      (funext fun k => congrArg x (lift_second h r k)))

end Cert.LibRowwise

end
-- ==== Proof.LibAffineLayer.lean ====
/-
  A dense layer of a feature matrix, read at an entry.

  For a feature matrix h of shape [n, d] and a weight matrix w of shape [d, e], entry (p, q) of the product h · w is
  Σ_k h (p, k) · w (k, q).  The affine layer h · w + b adds the bias row's entry q; the rectified two-branch layer
  max ((a · wl + b) + x · wr, z) — a node's aggregated neighbourhood a through wl, its own features x through wr —
  adds the second product and takes the maximum with a constant z.  These are stated once as arrays over any row
  count n, so that a block of rows and the whole matrix are read by the same formula.

  On a block of rows the matrix unit computes exactly these entries: a product into a zero accumulator is the
  textbook sum, a change of float format is the identity on extended reals, and the bias row cast to [1, e] and laid
  under every row reads its entry q.  All sums are finite sums on the extended reals; no finiteness of the data is
  used, since nothing is rearranged.
  Library imports and the two sibling lemma files LibDot, LibRowwise only.
-/
import Idealize.ShloMosaic.PureOps.Ideal.Laws
import Idealize.ShloMosaic.Lib.ValueIdx
import Idealize.ShloMosaic.Lib.ValueLayout
import Idealize.ShloMosaic.Lib.Pipeline.Value
import proofs.«149011_j79517024518682_1_alg».proof.Proof.LibDot
import proofs.«149011_j79517024518682_1_alg».proof.Proof.LibRowwise

noncomputable section

namespace Cert.LibAffineLayer

open Idealize.ShloMosaic Idealize.ShloMosaic.ValueIdx
open scoped BigOperators

variable {n d e : ℕ}

/-- Entry (p, q) of the product h · w: the sum over k of h (p, k) · w (k, q). -/
def prodAt (h : (⟨2, ![n, d]⟩ : Shape).Idx → EReal) (w : (⟨2, ![d, e]⟩ : Shape).Idx → EReal) (p : Fin n) (q : Fin e) : EReal :=
  ∑ k : Fin d, h (ix2 p k) * w (ix2 k q)

/-- The affine layer h · w + b, as an array of shape [n, e]. -/
def affine (h : (⟨2, ![n, d]⟩ : Shape).Idx → EReal) (w : (⟨2, ![d, e]⟩ : Shape).Idx → EReal)
    (b : (⟨1, ![e]⟩ : Shape).Idx → EReal) : (⟨2, ![n, e]⟩ : Shape).Idx → EReal :=
  fun i => prodAt h w (i 0) (i 1) + b (ix1 (i 1))

/-- The rectified two-branch layer max ((a · wl + b) + x · wr, z), as an array of shape [n, e]. -/
def twoBranch (z : EReal) (a x : (⟨2, ![n, d]⟩ : Shape).Idx → EReal) (wl wr : (⟨2, ![d, e]⟩ : Shape).Idx → EReal)
    (b : (⟨1, ![e]⟩ : Shape).Idx → EReal) : (⟨2, ![n, e]⟩ : Shape).Idx → EReal :=
  fun i => max ((prodAt a wl (i 0) (i 1) + b (ix1 (i 1))) + prodAt x wr (i 0) (i 1)) z

theorem affine_ix2 (h : (⟨2, ![n, d]⟩ : Shape).Idx → EReal) (w : (⟨2, ![d, e]⟩ : Shape).Idx → EReal)
    (b : (⟨1, ![e]⟩ : Shape).Idx → EReal) (p : Fin n) (q : Fin e) :
    affine h w b (ix2 p q) = prodAt h w p q + b (ix1 q) := rfl

theorem twoBranch_ix2 (z : EReal) (a x : (⟨2, ![n, d]⟩ : Shape).Idx → EReal) (wl wr : (⟨2, ![d, e]⟩ : Shape).Idx → EReal)
    (b : (⟨1, ![e]⟩ : Shape).Idx → EReal) (p : Fin n) (q : Fin e) :
    twoBranch z a x wl wr b (ix2 p q) = max ((prodAt a wl p q + b (ix1 q)) + prodAt x wr p q) z := rfl

/-- A change of float format is the identity on extended reals. -/
theorem truncf_eq {s : Shape} {φ ψ : FTy} (v : FVec Ideal s φ) (h : ψ.bits < φ.bits) :
    (truncf ψ v h : FVec Ideal s ψ) = v := rfl

section Unit

variable (D : DotDims ⟨2, ![n, d]⟩ ⟨2, ![d, e]⟩ ⟨2, ![n, e]⟩) (hr : D.contr.rank = 1)
  (hs : D.contr.size ⟨0, by omega⟩ = d)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The matrix unit's h · w into a zero accumulator plus the bias row laid under every row, at (p, q). -/
theorem unit_affine_apply {φ₁ φ₂ : FTy} (h : FVec Ideal ⟨2, ![n, d]⟩ φ₁) (w : FVec Ideal ⟨2, ![d, e]⟩ φ₂)
    (b : (⟨1, ![e]⟩ : Shape).Idx → EReal) (hc : (⟨1, ![e]⟩ : Shape).ShapeCasts ⟨2, ![1, e]⟩)
    (hb : (⟨2, ![1, e]⟩ : Shape).Broadcasts ⟨2, ![n, e]⟩) (p : Fin n) (q : Fin e) :
    FloatOps.matmul D none h w (constant ⟨2, ![n, e]⟩ .f32 0x00000000#32) (ix2 p q)
        + broadcastTo ⟨2, ![n, e]⟩ (shapeCast ⟨2, ![1, e]⟩ b hc) hb (ix2 p q)
      = prodAt h w p q + b (ix1 q) := by
  rw [LibDot.matmul_zero_apply D hr hs hl0 hl1 hr0 hr1, LibRowwise.rowUnder_apply]
  rfl

/-- The rectified two-branch layer as the matrix unit computes it on a block, at (p, q). -/
theorem unit_twoBranch_apply {φ₁ φ₂ : FTy} (z : EReal) (a x : FVec Ideal ⟨2, ![n, d]⟩ φ₁) (wl wr : FVec Ideal ⟨2, ![d, e]⟩ φ₂)
    (b : (⟨1, ![e]⟩ : Shape).Idx → EReal) (hc : (⟨1, ![e]⟩ : Shape).ShapeCasts ⟨2, ![1, e]⟩)
    (hb : (⟨2, ![1, e]⟩ : Shape).Broadcasts ⟨2, ![n, e]⟩) (p : Fin n) (q : Fin e) :
    max ((FloatOps.matmul D none a wl (constant ⟨2, ![n, e]⟩ .f32 0x00000000#32) (ix2 p q)
          + broadcastTo ⟨2, ![n, e]⟩ (shapeCast ⟨2, ![1, e]⟩ b hc) hb (ix2 p q))
        + FloatOps.matmul D none x wr (constant ⟨2, ![n, e]⟩ .f32 0x00000000#32) (ix2 p q)) z
      = max ((prodAt a wl p q + b (ix1 q)) + prodAt x wr p q) z := by
  rw [unit_affine_apply D hr hs hl0 hl1 hr0 hr1, LibDot.matmul_zero_apply D hr hs hl0 hl1 hr0 hr1]
  rfl

end Unit

end Cert.LibAffineLayer

end
-- ==== Proof.GinLayerEntry.lean ====
/-
  One entry of a rectified two-matrix layer, and the two ways the programs compute it.

  For a node whose row of d input features is `row`, a first weight matrix w1 of shape [d, c] with bias b1, and a second
  weight matrix w2 of shape [c, e] with bias b2, entry q of the node's output row is

      max (Σ_k max (Σ_j row j · w1 (j, k) + b1 k, 0) · w2 (k, q) + b2 q, 0).

  The matrix unit computes exactly this on a block of n rows: each product is accumulated into a zero splat, which adds
  nothing; each bias is cast to one row and laid under every row; a change of float format is the identity on the extended
  reals. The host computes exactly this on the whole matrix: each dot_general is the same finite sum, each bias is
  broadcast to one row and then down the rows, the zero is a broadcast scalar. Nothing is rearranged, so no finiteness
  of the data is used: both readings are the same expression in the row, the weights and the biases.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import proofs.«149011_j79517024518682_1_alg».proof.Proof.LibDot
import proofs.«149011_j79517024518682_1_alg».proof.Proof.LibRowwise
import proofs.«149011_j79517024518682_1_alg».proof.Proof.LibAffineLayer

noncomputable section

namespace Cert.GinLayer

open Idealize.ShloMosaic Idealize.ShloMosaic.ValueIdx
open scoped BigOperators

/-- The value both programs rectify against: the extended real of the f32 zero word. -/
abbrev zero : EReal := Ideal.ofBits .f32 0x00000000#32

/-- Entry q of the output row of a node with input row `row`. -/
def entry {d c e : ℕ} (row : Fin d → EReal) (w1 : (⟨2, ![d, c]⟩ : Shape).Idx → EReal) (b1 : (⟨1, ![c]⟩ : Shape).Idx → EReal)
    (w2 : (⟨2, ![c, e]⟩ : Shape).Idx → EReal) (b2 : (⟨1, ![e]⟩ : Shape).Idx → EReal) (q : Fin e) : EReal :=
  max ((∑ k : Fin c, max ((∑ j : Fin d, row j * w1 (ix2 j k)) + b1 (ix1 k)) zero * w2 (ix2 k q)) + b2 (ix1 q)) zero

/-- The entry depends on the row only through its values. -/
theorem entry_congr {d c e : ℕ} {row row' : Fin d → EReal} (h : ∀ j, row j = row' j) (w1 : (⟨2, ![d, c]⟩ : Shape).Idx → EReal)
    (b1 : (⟨1, ![c]⟩ : Shape).Idx → EReal) (w2 : (⟨2, ![c, e]⟩ : Shape).Idx → EReal) (b2 : (⟨1, ![e]⟩ : Shape).Idx → EReal) (q : Fin e) :
    entry row w1 b1 w2 b2 q = entry row' w1 b1 w2 b2 q := by
  rw [show row = row' from funext h]

/-- The entry read at two places that hold the same row, weights and biases. -/
theorem entry_congr_all {d c e : ℕ} {row row' : Fin d → EReal} {w1 w1' : (⟨2, ![d, c]⟩ : Shape).Idx → EReal}
    {b1 b1' : (⟨1, ![c]⟩ : Shape).Idx → EReal} {w2 w2' : (⟨2, ![c, e]⟩ : Shape).Idx → EReal} {b2 b2' : (⟨1, ![e]⟩ : Shape).Idx → EReal}
    (h : ∀ j, row j = row' j) (hw1 : w1 = w1') (hb1 : b1 = b1') (hw2 : w2 = w2') (hb2 : b2 = b2') (q : Fin e) :
    entry row w1 b1 w2 b2 q = entry row' w1' b1' w2' b2' q := by
  subst hw1 hb1 hw2 hb2
  exact entry_congr h w1 b1 w2 b2 q

section Unit

variable {n d c e : ℕ}
  (D1 : DotDims ⟨2, ![n, d]⟩ ⟨2, ![d, c]⟩ ⟨2, ![n, c]⟩) (hr1 : D1.contr.rank = 1) (hs1 : D1.contr.size ⟨0, by omega⟩ = d)
  (hl01 : ∀ j q, (D1.lhsIdx j q 0).val = (j 0).val) (hl11 : ∀ j q, (D1.lhsIdx j q 1).val = (q ⟨0, by omega⟩).val)
  (hr01 : ∀ j q, (D1.rhsIdx j q 0).val = (q ⟨0, by omega⟩).val) (hr11 : ∀ j q, (D1.rhsIdx j q 1).val = (j 1).val)
  (D2 : DotDims ⟨2, ![n, c]⟩ ⟨2, ![c, e]⟩ ⟨2, ![n, e]⟩) (hr2 : D2.contr.rank = 1) (hs2 : D2.contr.size ⟨0, by omega⟩ = c)
  (hl02 : ∀ j q, (D2.lhsIdx j q 0).val = (j 0).val) (hl12 : ∀ j q, (D2.lhsIdx j q 1).val = (q ⟨0, by omega⟩).val)
  (hr02 : ∀ j q, (D2.rhsIdx j q 0).val = (q ⟨0, by omega⟩).val) (hr12 : ∀ j q, (D2.rhsIdx j q 1).val = (j 1).val)

include hr1 hs1 hl01 hl11 hr01 hr11 hr2 hs2 hl02 hl12 hr02 hr12

/-- THE MATRIX UNIT ON A BLOCK OF ROWS. With the hidden matrix H the rectified first affine layer of the block X (`hH`),
    the rectified second affine layer of H at (p, q) is the entry of row p of X. -/
theorem unit_entry {φ₁ φ₂ φ₃ φ₄ : FTy} (X : FVec Ideal ⟨2, ![n, d]⟩ φ₁) (w1 : FVec Ideal ⟨2, ![d, c]⟩ φ₂)
    (b1 : (⟨1, ![c]⟩ : Shape).Idx → EReal) (H : FVec Ideal ⟨2, ![n, c]⟩ φ₃) (w2 : FVec Ideal ⟨2, ![c, e]⟩ φ₄)
    (b2 : (⟨1, ![e]⟩ : Shape).Idx → EReal)
    (hc1 : (⟨1, ![c]⟩ : Shape).ShapeCasts ⟨2, ![1, c]⟩) (hb1 : (⟨2, ![1, c]⟩ : Shape).Broadcasts ⟨2, ![n, c]⟩)
    (hc2 : (⟨1, ![e]⟩ : Shape).ShapeCasts ⟨2, ![1, e]⟩) (hb2 : (⟨2, ![1, e]⟩ : Shape).Broadcasts ⟨2, ![n, e]⟩)
    (hH : ∀ (p : Fin n) (k : Fin c), H (ix2 p k)
      = max (FloatOps.matmul D1 none X w1 (constant ⟨2, ![n, c]⟩ .f32 0x00000000#32) (ix2 p k)
          + broadcastTo ⟨2, ![n, c]⟩ (shapeCast ⟨2, ![1, c]⟩ b1 hc1) hb1 (ix2 p k)) zero)
    (p : Fin n) (q : Fin e) :
    max (FloatOps.matmul D2 none H w2 (constant ⟨2, ![n, e]⟩ .f32 0x00000000#32) (ix2 p q)
        + broadcastTo ⟨2, ![n, e]⟩ (shapeCast ⟨2, ![1, e]⟩ b2 hc2) hb2 (ix2 p q)) zero
      = entry (fun j => X (ix2 p j)) w1 b1 w2 b2 q := by
  rw [LibAffineLayer.unit_affine_apply D2 hr2 hs2 hl02 hl12 hr02 hr12]
  unfold entry LibAffineLayer.prodAt
  refine congrArg (fun s => max (s + b2 (ix1 q)) zero) (Finset.sum_congr rfl fun k _ => ?_)
  rw [hH p k, LibAffineLayer.unit_affine_apply D1 hr1 hs1 hl01 hl11 hr01 hr11]
  rfl

end Unit

section Host

variable {α : Type}

/-- A bias broadcast to one row and then down N rows reads, at (P, k), its entry k. -/
theorem biasRows_apply {N c : ℕ} (b : (⟨1, ![c]⟩ : Shape).Idx → α)
    (hr : (⟨1, ![c]⟩ : Shape).BroadcastsInDim ⟨2, ![1, c]⟩ ![1]) (hd : (⟨2, ![1, c]⟩ : Shape).BroadcastsInDim ⟨2, ![N, c]⟩ ![0, 1])
    (P : Fin N) (k : Fin c) :
    broadcastInDim ⟨2, ![N, c]⟩ ![0, 1] hd (broadcastInDim ⟨2, ![1, c]⟩ ![1] hr b) (ix2 P k) = b (ix1 k) := by
  refine (broadcastInDim_oneRow_apply hd _ P k).trans ?_
  refine broadcastInDim_apply ![1] hr b (ix2 (0 : Fin 1) k) (ix1 k) fun a => ?_
  match a with
  | ⟨0, _⟩ =>
    show k.val = if c = 1 then 0 else k.val
    split
    · have := k.isLt; omega
    · rfl

variable {N d c e : ℕ}
  (D1 : DotDims ⟨2, ![N, d]⟩ ⟨2, ![d, c]⟩ ⟨2, ![N, c]⟩) (hr1 : D1.contr.rank = 1) (hs1 : D1.contr.size ⟨0, by omega⟩ = d)
  (hl01 : ∀ j q, (D1.lhsIdx j q 0).val = (j 0).val) (hl11 : ∀ j q, (D1.lhsIdx j q 1).val = (q ⟨0, by omega⟩).val)
  (hr01 : ∀ j q, (D1.rhsIdx j q 0).val = (q ⟨0, by omega⟩).val) (hr11 : ∀ j q, (D1.rhsIdx j q 1).val = (j 1).val)
  (D2 : DotDims ⟨2, ![N, c]⟩ ⟨2, ![c, e]⟩ ⟨2, ![N, e]⟩) (hr2 : D2.contr.rank = 1) (hs2 : D2.contr.size ⟨0, by omega⟩ = c)
  (hl02 : ∀ j q, (D2.lhsIdx j q 0).val = (j 0).val) (hl12 : ∀ j q, (D2.lhsIdx j q 1).val = (q ⟨0, by omega⟩).val)
  (hr02 : ∀ j q, (D2.rhsIdx j q 0).val = (q ⟨0, by omega⟩).val) (hr12 : ∀ j q, (D2.rhsIdx j q 1).val = (j 1).val)

include hr1 hs1 hl01 hl11 hr01 hr11 hr2 hs2 hl02 hl12 hr02 hr12

/-- THE HOST ON THE WHOLE MATRIX: the rectified second affine layer of the rectified first affine layer of X, each product a
    dot_general, each bias broadcast to one row and down the rows, each zero a broadcast scalar, at (P, q), is the entry of
    row P of X. -/
theorem host_entry (X : FVec Ideal ⟨2, ![N, d]⟩ .f32) (w1 : FVec Ideal ⟨2, ![d, c]⟩ .f32) (b1 : FVec Ideal ⟨1, ![c]⟩ .f32)
    (w2 : FVec Ideal ⟨2, ![c, e]⟩ .f32) (b2 : FVec Ideal ⟨1, ![e]⟩ .f32)
    (h1r : (⟨1, ![c]⟩ : Shape).BroadcastsInDim ⟨2, ![1, c]⟩ ![1]) (h1d : (⟨2, ![1, c]⟩ : Shape).BroadcastsInDim ⟨2, ![N, c]⟩ ![0, 1])
    (h1z : (⟨0, ![]⟩ : Shape).BroadcastsInDim ⟨2, ![N, c]⟩ ![])
    (h2r : (⟨1, ![e]⟩ : Shape).BroadcastsInDim ⟨2, ![1, e]⟩ ![1]) (h2d : (⟨2, ![1, e]⟩ : Shape).BroadcastsInDim ⟨2, ![N, e]⟩ ![0, 1])
    (h2z : (⟨0, ![]⟩ : Shape).BroadcastsInDim ⟨2, ![N, e]⟩ ![])
    (P : Fin N) (q : Fin e) :
    (maximumf (addf (Host.dotGeneral D2 none
        (maximumf (addf (Host.dotGeneral D1 none X w1) (broadcastInDim ⟨2, ![N, c]⟩ ![0, 1] h1d (broadcastInDim ⟨2, ![1, c]⟩ ![1] h1r b1)))
          (broadcastInDim ⟨2, ![N, c]⟩ ![] h1z (constant (F := Ideal) ⟨0, ![]⟩ .f32 0x00000000#32))) w2)
        (broadcastInDim ⟨2, ![N, e]⟩ ![0, 1] h2d (broadcastInDim ⟨2, ![1, e]⟩ ![1] h2r b2)))
      (broadcastInDim ⟨2, ![N, e]⟩ ![] h2z (constant (F := Ideal) ⟨0, ![]⟩ .f32 0x00000000#32)) : FVec Ideal ⟨2, ![N, e]⟩ .f32) (ix2 P q)
      = entry (fun j => X (ix2 P j)) w1 b1 w2 b2 q := by
  have hid : ∀ k : Fin c, (maximumf (addf (Host.dotGeneral D1 none X w1) (broadcastInDim ⟨2, ![N, c]⟩ ![0, 1] h1d (broadcastInDim ⟨2, ![1, c]⟩ ![1] h1r b1)))
      (broadcastInDim ⟨2, ![N, c]⟩ ![] h1z (constant (F := Ideal) ⟨0, ![]⟩ .f32 0x00000000#32)) : FVec Ideal ⟨2, ![N, c]⟩ .f32) (ix2 P k)
      = max ((∑ j : Fin d, X (ix2 P j) * w1 (ix2 j k)) + b1 (ix1 k)) zero := fun k =>
    congrArg₂ (fun s t => max (s + t) zero) (LibDot.dotGeneral_apply D1 hr1 hs1 hl01 hl11 hr01 hr11 none .single X w1 P k)
      (biasRows_apply b1 h1r h1d P k)
  refine (congrArg₂ (fun s t => max (s + t) zero) (LibDot.dotGeneral_apply D2 hr2 hs2 hl02 hl12 hr02 hr12 none .single _ w2 P q)
      (biasRows_apply b2 h2r h2d P q)).trans ?_
  unfold entry
  refine congrArg (fun s => max (s + b2 (ix1 q)) zero) (Finset.sum_congr rfl fun k _ => ?_)
  rw [hid k]

end Host

end Cert.GinLayer

end
-- ==== Proof.GinLayerPayload.lean ====
/-
  The bodies of the three graph-layer kernels, read at an entry.

  Each body loads a block of 5000 rows of the node features and of the neighbour sums, adds them, and applies the two
  rectified affine layers on the matrix unit. At row r and column q of the block it therefore leaves the layer's entry of
  the row (features + neighbour sums)[r, ·]: the one expression of GinLayerEntry. The casts to bf16 on the way into
  the matrix unit are the identity on the extended reals, and the reshape of a block to its own shape is the identity.
  The second and third kernels have the same text, so their bodies are the same function.
-/
import proofs.«149011_j79517024518682_1_alg».proof.Proof.Gen.KernelIdeal.Skeleton
import proofs.«149011_j79517024518682_1_alg».proof.Proof.GinLayerEntry

noncomputable section

namespace Cert.KernelIdeal.LayerValue

open Idealize.ShloMosaic Idealize.ShloMosaic.ValueIdx Cert.KernelIdeal Cert.KernelIdeal.Gen

/-- The first kernel's body at (r, q): the layer's entry of row r of (features + neighbour sums), 7 input features. -/
theorem k0_pay1_apply (x0 x1 : Vec Ideal S5000x7 .f32) (w1 : Vec Ideal S7x128 .f32) (b1 : Vec Ideal S128 .f32)
    (w2 : Vec Ideal S128x128 .f32) (b2 : Vec Ideal S128 .f32) (r : Fin 5000) (q : Fin 128) :
    k0_pay1 (F := Ideal) x0 x1 w1 b1 w2 b2 (ix2 r q)
      = Cert.GinLayer.entry (fun j => x0 (ix2 r j) + x1 (ix2 r j)) w1 b1 w2 b2 q := by
  unfold k0_pay1
  refine (Cert.GinLayer.unit_entry
    dot_S5000x7_S7x128_S5000x128_1_0_0_1_n_n rfl rfl (fun _ _ => rfl) (fun _ _ => rfl) (fun _ _ => rfl) (fun _ _ => rfl)
    dot_S5000x128_S128x128_S5000x128_1_0_0_1_n_n rfl rfl (fun _ _ => rfl) (fun _ _ => rfl) (fun _ _ => rfl) (fun _ _ => rfl)
    (truncf .bf16 (addf x0 (shapeCast S5000x7 x1 shapeCasts_S5000x7_S5000x7)) bitsLt_bf16_f32)
    (truncf .bf16 w1 bitsLt_bf16_f32) b1
    (truncf .bf16 (maximumf (addf (matmul dot_S5000x7_S7x128_S5000x128_1_0_0_1_n_n none
        (truncf .bf16 (addf x0 (shapeCast S5000x7 x1 shapeCasts_S5000x7_S5000x7)) bitsLt_bf16_f32)
        (truncf .bf16 w1 bitsLt_bf16_f32) (constant S5000x128 .f32 0x00000000#32))
        (broadcastTo S5000x128 (shapeCast S1x128 b1 shapeCasts_S128_S1x128) broadcasts_S1x128_S5000x128))
        (broadcast S5000x128 (Scalar.ofBits .f32 0x00000000#32))) bitsLt_bf16_f32)
    (truncf .bf16 w2 bitsLt_bf16_f32) b2
    shapeCasts_S128_S1x128 broadcasts_S1x128_S5000x128 shapeCasts_S128_S1x128 broadcasts_S1x128_S5000x128
    (fun _ _ => rfl) r q).trans ?_
  refine Cert.GinLayer.entry_congr (fun j => ?_) w1 b1 w2 b2 q
  show x0 (ix2 r j) + shapeCast S5000x7 x1 shapeCasts_S5000x7_S5000x7 (ix2 r j) = _
  rw [shapeCast_self]

/-- The second kernel's body at (r, q): the layer's entry of row r of (features + neighbour sums), 128 input features. -/
theorem k1_pay1_apply (x0 x1 : Vec Ideal S5000x128 .f32) (w1 : Vec Ideal S128x128 .f32) (b1 : Vec Ideal S128 .f32)
    (w2 : Vec Ideal S128x128 .f32) (b2 : Vec Ideal S128 .f32) (r : Fin 5000) (q : Fin 128) :
    k1_pay1 (F := Ideal) x0 x1 w1 b1 w2 b2 (ix2 r q)
      = Cert.GinLayer.entry (fun j => x0 (ix2 r j) + x1 (ix2 r j)) w1 b1 w2 b2 q := by
  unfold k1_pay1
  refine (Cert.GinLayer.unit_entry
    dot_S5000x128_S128x128_S5000x128_1_0_0_1_n_n rfl rfl (fun _ _ => rfl) (fun _ _ => rfl) (fun _ _ => rfl) (fun _ _ => rfl)
    dot_S5000x128_S128x128_S5000x128_1_0_0_1_n_n rfl rfl (fun _ _ => rfl) (fun _ _ => rfl) (fun _ _ => rfl) (fun _ _ => rfl)
    (truncf .bf16 (addf (shapeCast S5000x128 x0 shapeCasts_S5000x128_S5000x128) (shapeCast S5000x128 x1 shapeCasts_S5000x128_S5000x128)) bitsLt_bf16_f32)
    (truncf .bf16 w1 bitsLt_bf16_f32) b1
    (truncf .bf16 (maximumf (addf (matmul dot_S5000x128_S128x128_S5000x128_1_0_0_1_n_n none
        (truncf .bf16 (addf (shapeCast S5000x128 x0 shapeCasts_S5000x128_S5000x128) (shapeCast S5000x128 x1 shapeCasts_S5000x128_S5000x128)) bitsLt_bf16_f32)
        (truncf .bf16 w1 bitsLt_bf16_f32) (constant S5000x128 .f32 0x00000000#32))
        (broadcastTo S5000x128 (shapeCast S1x128 b1 shapeCasts_S128_S1x128) broadcasts_S1x128_S5000x128))
        (broadcast S5000x128 (Scalar.ofBits .f32 0x00000000#32))) bitsLt_bf16_f32)
    (truncf .bf16 w2 bitsLt_bf16_f32) b2
    shapeCasts_S128_S1x128 broadcasts_S1x128_S5000x128 shapeCasts_S128_S1x128 broadcasts_S1x128_S5000x128
    (fun _ _ => rfl) r q).trans ?_
  refine Cert.GinLayer.entry_congr (fun j => ?_) w1 b1 w2 b2 q
  show shapeCast S5000x128 x0 shapeCasts_S5000x128_S5000x128 (ix2 r j) + shapeCast S5000x128 x1 shapeCasts_S5000x128_S5000x128 (ix2 r j) = _
  rw [shapeCast_self, shapeCast_self]

/-- The third kernel's body is the second's: the same text. -/
theorem k2_pay1_eq : @k2_pay1 Ideal _ = @k1_pay1 Ideal _ := rfl

end Cert.KernelIdeal.LayerValue

end
-- ==== Proof.GinLayerSpec.lean ====
/-
  The specification's two graph-layer functions, read at an entry.

  Row P, column q of the first layer of (x, a) and of a hidden layer of (h, a) is the layer's entry of the row
  (x + a)[P, ·], resp. (h + a)[P, ·]: the host's two dot_generals are the two finite sums, its biases are broadcast to one
  row and down the rows, its zeros are broadcast scalars (GinLayerEntry's reading of the host's text).
-/
import proofs.«149011_j79517024518682_1_alg».proof.Proof.Spec
import proofs.«149011_j79517024518682_1_alg».proof.Proof.GinLayerEntry

noncomputable section

namespace Cert.Gnn

open Idealize.ShloMosaic Idealize.ShloMosaic.ValueIdx Cert.ReferenceIdeal Cert.ReferenceIdeal.Facts₀

variable [Cert.ReferenceIdeal.Facts]

/-- The first graph layer at (P, q). -/
theorem ginIn_apply (x a : FVec Ideal S100000x7 .f32) (w1 : FVec Ideal S7x128 .f32) (b1 : FVec Ideal S128 .f32)
    (w2 : FVec Ideal S128x128 .f32) (b2 : FVec Ideal S128 .f32) (P : Fin 100000) (q : Fin 128) :
    ginIn (F := Ideal) x a w1 b1 w2 b2 (ix2 P q)
      = Cert.GinLayer.entry (fun j => x (ix2 P j) + a (ix2 P j)) w1 b1 w2 b2 q := by
  unfold ginIn reluHid biasHid
  exact Cert.GinLayer.host_entry
    dot_S100000x7_S7x128_S100000x128_1_0_0_1_n_n rfl rfl (fun _ _ => rfl) (fun _ _ => rfl) (fun _ _ => rfl) (fun _ _ => rfl)
    dot_S100000x128_S128x128_S100000x128_1_0_0_1_n_n rfl rfl (fun _ _ => rfl) (fun _ _ => rfl) (fun _ _ => rfl) (fun _ _ => rfl)
    (addf x a) w1 b1 w2 b2
    bcast_S128_S1x128_1 bcast_S1x128_S100000x128_0_1 bcast_S_S100000x128
    bcast_S128_S1x128_1 bcast_S1x128_S100000x128_0_1 bcast_S_S100000x128 P q

/-- A hidden graph layer at (P, q). -/
theorem ginHid_apply (h a : FVec Ideal S100000x128 .f32) (w1 : FVec Ideal S128x128 .f32) (b1 : FVec Ideal S128 .f32)
    (w2 : FVec Ideal S128x128 .f32) (b2 : FVec Ideal S128 .f32) (P : Fin 100000) (q : Fin 128) :
    ginHid (F := Ideal) h a w1 b1 w2 b2 (ix2 P q)
      = Cert.GinLayer.entry (fun j => h (ix2 P j) + a (ix2 P j)) w1 b1 w2 b2 q := by
  unfold ginHid reluHid biasHid
  exact Cert.GinLayer.host_entry
    dot_S100000x128_S128x128_S100000x128_1_0_0_1_n_n rfl rfl (fun _ _ => rfl) (fun _ _ => rfl) (fun _ _ => rfl) (fun _ _ => rfl)
    dot_S100000x128_S128x128_S100000x128_1_0_0_1_n_n rfl rfl (fun _ _ => rfl) (fun _ _ => rfl) (fun _ _ => rfl) (fun _ _ => rfl)
    (addf h a) w1 b1 w2 b2
    bcast_S128_S1x128_1 bcast_S1x128_S100000x128_0_1 bcast_S_S100000x128
    bcast_S128_S1x128_1 bcast_S1x128_S100000x128_0_1 bcast_S_S100000x128 P q

end Cert.Gnn

end
-- ==== Proof.GinLayerRegion0.lean ====
/-
  Graph-layer region 0: the output array after the region is the specification's layer of the arrays the region found.

  The region runs over 20 row tiles of 5000 nodes. At tile t the body is handed rows 5000 t … 5000 t + 4999 of the node
  features (7 columns) and of the neighbour sums, and the whole of the two weight matrices and the two biases (their one
  block, at block index 0 on every axis); it leaves, at row r and column q of its output block, the layer's entry of the
  row (features + neighbour sums)[5000 t + r, ·] — the same expression the specification's first layer (ginIn) has at row
  5000 t + r, column q. So what tile t writes back is its block of the specification's array; every row R is written by
  tile R / 5000; hence the whole array. An element of a block sits in its array, on each axis, at block index × block
  size + its coordinate inside the block; the block indices are decided once over the 20 grid points.
-/
import proofs.«149011_j79517024518682_1_alg».proof.Proof.Gen.KernelIdeal.Frame
import proofs.«149011_j79517024518682_1_alg».proof.Proof.GinLayerPayload
import proofs.«149011_j79517024518682_1_alg».proof.Proof.GinLayerSpec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.LayerValue

open Cert.KernelIdeal Cert.KernelIdeal.Gen

variable [Cert.ReferenceIdeal.Facts]
variable (V : (c : Dev nD) → (b : Ref sig .tc) → Buf (Elt Ideal) ((c : Thread nD τ).loc b))

/-- The zero offsets of a rank-2 and of a rank-1 whole-buffer access, as constant functions. -/
theorem offsets2_0 : (![0, 0] : Fin 2 → Nat) = fun _ => 0 := funext fun a => by fin_cases a <;> rfl
theorem offsets1_0 : (![0] : Fin 1 → Nat) = fun _ => 0 := funext fun a => by fin_cases a <;> rfl

/-- The index maps over the grid: at point t the two row-tiled inputs and the output are at row block t, column block 0;
    the weights and biases are at block 0. -/
theorem blockIndices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row r of the features' block at point t is row 5000 t + r of the features. -/
theorem featureBlock0_apply (c : Dev nD) (t : Fin cfg0.N) (r : Fin 5000) (j : Fin 7) (R : Fin 100000)
    (hR : R.val = 5000 * t.val + r.val) :
    (iblk0 V c 0 t : Vec Ideal S5000x7 .f32) (ix2 r j) = (V c main_arg0 : S100000x7.Idx → EReal) (ix2 R j) := by
  obtain ⟨e0, e1, -⟩ := blockIndices0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * r.val = R.val; rw [e0, hR]; omega
  | ⟨1, _⟩ => show win0_0.index t (1 : Fin 2) * 7 + 1 * j.val = j.val; rw [e1]; omega

/-- Row r of the neighbour sums' block at point t is row 5000 t + r of the neighbour sums. -/
theorem sumsBlock0_apply (c : Dev nD) (t : Fin cfg0.N) (r : Fin 5000) (j : Fin 7) (R : Fin 100000)
    (hR : R.val = 5000 * t.val + r.val) :
    (iblk0 V c 1 t : Vec Ideal S5000x7 .f32) (ix2 r j) = (V c main_v13 : S100000x7.Idx → EReal) (ix2 R j) := by
  obtain ⟨-, -, e0, e1, -⟩ := blockIndices0 t
  unfold iblk0
  rw [View.read_apply]
  show V c main_v13 _ = V c main_v13 _
  refine congrArg (V c main_v13) (funext fun a => Fin.ext ?_)
  match a with
  | ⟨0, _⟩ => show win0_1.index t (0 : Fin 2) * 5000 + 1 * r.val = R.val; rw [e0, hR]; omega
  | ⟨1, _⟩ => show win0_1.index t (1 : Fin 2) * 7 + 1 * j.val = j.val; rw [e1]; omega

/-- The first weight matrix's one block is the matrix. -/
theorem weight1Block0_eq (c : Dev nD) (t : Fin cfg0.N) :
    (iblk0 V c 2 t : Vec Ideal S7x128 .f32) = (V c main_arg4 : S7x128.Idx → EReal) := by
  obtain ⟨-, -, -, -, e0, e1, -⟩ := blockIndices0 t
  funext y
  unfold iblk0
  rw [View.read_apply]
  show V c main_arg4 _ = V c main_arg4 y
  refine congrArg (V c main_arg4) (funext fun a => Fin.ext ?_)
  match a with
  | ⟨0, _⟩ => show win0_2.index t (0 : Fin 2) * 7 + 1 * (y 0).val = (y 0).val; rw [e0]; omega
  | ⟨1, _⟩ => show win0_2.index t (1 : Fin 2) * 128 + 1 * (y 1).val = (y 1).val; rw [e1]; omega

/-- The first bias's one block is the bias. -/
theorem bias1Block0_eq (c : Dev nD) (t : Fin cfg0.N) :
    (iblk0 V c 3 t : Vec Ideal S128 .f32) = (V c main_arg5 : S128.Idx → EReal) := by
  obtain ⟨-, -, -, -, -, -, e0, -⟩ := blockIndices0 t
  funext y
  unfold iblk0
  rw [View.read_apply]
  show V c main_arg5 _ = V c main_arg5 y
  refine congrArg (V c main_arg5) (funext fun a => Fin.ext ?_)
  match a with
  | ⟨0, _⟩ => show win0_3.index t (0 : Fin 1) * 128 + 1 * (y 0).val = (y 0).val; rw [e0]; omega

/-- The second weight matrix's one block is the matrix. -/
theorem weight2Block0_eq (c : Dev nD) (t : Fin cfg0.N) :
    (iblk0 V c 4 t : Vec Ideal S128x128 .f32) = (V c main_arg6 : S128x128.Idx → EReal) := by
  obtain ⟨-, -, -, -, -, -, -, e0, e1, -⟩ := blockIndices0 t
  funext y
  unfold iblk0
  rw [View.read_apply]
  show V c main_arg6 _ = V c main_arg6 y
  refine congrArg (V c main_arg6) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The second bias's one block is the bias. -/
theorem bias2Block0_eq (c : Dev nD) (t : Fin cfg0.N) :
    (iblk0 V c 5 t : Vec Ideal S128 .f32) = (V c main_arg7 : S128.Idx → EReal) := by
  obtain ⟨-, -, -, -, -, -, -, -, -, e0, -⟩ := blockIndices0 t
  funext y
  unfold iblk0
  rw [View.read_apply]
  show V c main_arg7 _ = V c main_arg7 y
  refine congrArg (V c main_arg7) (funext fun a => Fin.ext ?_)
  match a with
  | ⟨0, _⟩ => show win0_5.index t (0 : Fin 1) * 128 + 1 * (y 0).val = (y 0).val; rw [e0]; omega

/-- WHAT POINT t WRITES BACK is rows 5000 t … 5000 t + 4999 of the layer of the arrays the region found. -/
theorem written0 (c : Dev nD) (t : Fin cfg0.N) :
    (dat0 (F := Ideal) V c).flushed 6 t = ((cfg0.win 6).blk t).view.read (Elt Ideal)
      (Cert.Gnn.ginIn (F := Ideal) (V c main_arg0) (V c main_v13) (V c main_arg4) (V c main_arg5) (V c main_arg6) (V c main_arg7)) := by
  show (cfg0.win 6).cut (grid0.coords t) ((dat0 V c).after 6 t) = _
  rw [after0_6]
  unfold out0_6
  rw [View.canon_unit_zero offsets2_0]
  simp only [View.ld_unit_zero (S := S5000x7) offsets2_0, View.ld_unit_zero (S := S7x128) offsets2_0,
    View.ld_unit_zero (S := S128x128) offsets2_0, View.ld_unit_zero (S := S128) offsets1_0]
  funext y
  obtain ⟨r, q, rfl⟩ : ∃ (r : Fin 5000) (q : Fin 128), y = ix2 r q := ⟨y 0, y 1, eq_ix2 y⟩
  obtain ⟨-, -, -, -, -, -, -, -, -, -, e0, e1⟩ := blockIndices0 t
  have hN : cfg0.N = 20 := N_0
  have ht : t.val < 20 := hN ▸ t.isLt
  have hr : r.val < 5000 := r.isLt
  obtain ⟨R, hR⟩ : ∃ R : Fin 100000, R.val = 5000 * t.val + r.val := ⟨⟨5000 * t.val + r.val, by omega⟩, rfl⟩
  have hemb : ((cfg0.win 6).blk t).view.emb (ix2 r q) = (ix2 R q : S100000x128.Idx) :=
    funext fun a => Fin.ext (by
      match a with
      | ⟨0, _⟩ => show win0_6.index t (0 : Fin 2) * 5000 + 1 * r.val = R.val; rw [e0, hR]; omega
      | ⟨1, _⟩ => show win0_6.index t (1 : Fin 2) * 128 + 1 * q.val = q.val; rw [e1]; omega)
  rw [View.read_apply, hemb]
  refine (k0_pay1_apply (iblk0 V c 0 t) (iblk0 V c 1 t) (iblk0 V c 2 t) (iblk0 V c 3 t) (iblk0 V c 4 t) (iblk0 V c 5 t) r q).trans ?_
  refine Eq.trans ?_ (Cert.Gnn.ginIn_apply _ _ _ _ _ _ _ q).symm
  exact Cert.GinLayer.entry_congr_all
    (fun j => by rw [featureBlock0_apply V c t r j R hR, sumsBlock0_apply V c t r j R hR])
    (weight1Block0_eq V c t) (bias1Block0_eq V c t) (weight2Block0_eq V c t) (bias2Block0_eq V c t) q

/-- An index of the layer's array is in point t's block iff its row is one of the block's 5000 rows. -/
theorem mem_block0 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v14).slice (win0_6.rect t)).set ↔ _
  rw [View.set_slice_whole, Rect.mem_set_unit]
  exact Iff.rfl

/-- Every entry of the layer's array is written: row R by the point R / 5000. -/
theorem covered0 (i : S100000x128.Idx) :
    ∃ t : Fin cfg0.N, (cfg0.win 6).flush t = true ∧ i ∈ ((cfg0.win 6).blk t).view.set := by
  have hN : cfg0.N = 20 := N_0
  have hi0 : (i 0).val < 100000 := (i 0).isLt
  have hi1 : (i 1).val < 128 := (i 1).isLt
  let t : Fin cfg0.N := ⟨(i 0).val / 5000, by rw [hN]; omega⟩
  obtain ⟨-, -, -, -, -, -, -, -, -, -, e0, e1⟩ := blockIndices0 t
  refine ⟨t, flush0_6 t, ?_⟩
  rw [mem_block0]
  intro a
  match a with
  | ⟨0, _⟩ =>
    show win0_6.index t (0 : Fin 2) * 5000 ≤ (i 0).val ∧ (i 0).val < win0_6.index t (0 : Fin 2) * 5000 + 5000
    rw [e0]; show (i 0).val / 5000 * 5000 ≤ (i 0).val ∧ (i 0).val < (i 0).val / 5000 * 5000 + 5000; omega
  | ⟨1, _⟩ =>
    show win0_6.index t (1 : Fin 2) * 128 ≤ (i 1).val ∧ (i 1).val < win0_6.index t (1 : Fin 2) * 128 + 128
    rw [e1]; omega

/-- REGION 0: the output array ends equal to the specification's layer of the arrays the region found. -/
theorem region0 (c : Dev nD) :
    (dat0 (F := Ideal) V c).arrAt 6 cfg0.N
      = Cert.Gnn.ginIn (F := Ideal) (V c main_arg0) (V c main_v13) (V c main_arg4) (V c main_arg5) (V c main_arg6) (V c main_arg7) :=
  (dat0 (F := Ideal) V c).arrAt_eq_of_cover 6 _ (fun t _ => written0 V c t) covered0

end Cert.KernelIdeal.LayerValue

end
-- ==== Proof.GinLayerRegion1.lean ====
/-
  Graph-layer region 1: the output array after the region is the specification's layer of the arrays the region found.

  The region runs over 20 row tiles of 5000 nodes. At tile t the body is handed rows 5000 t … 5000 t + 4999 of the node
  features (128 columns) and of the neighbour sums, and the whole of the two weight matrices and the two biases (their one
  block, at block index 0 on every axis); it leaves, at row r and column q of its output block, the layer's entry of the
  row (features + neighbour sums)[5000 t + r, ·] — the same expression the specification's hidden layer (ginHid) has at row
  5000 t + r, column q. So what tile t writes back is its block of the specification's array; every row R is written by
  tile R / 5000; hence the whole array. An element of a block sits in its array, on each axis, at block index × block
  size + its coordinate inside the block; the block indices are decided once over the 20 grid points.
-/
import proofs.«149011_j79517024518682_1_alg».proof.Proof.Gen.KernelIdeal.Frame
import proofs.«149011_j79517024518682_1_alg».proof.Proof.GinLayerPayload
import proofs.«149011_j79517024518682_1_alg».proof.Proof.GinLayerSpec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.LayerValue

open Cert.KernelIdeal Cert.KernelIdeal.Gen

variable [Cert.ReferenceIdeal.Facts]
variable (V : (c : Dev nD) → (b : Ref sig .tc) → Buf (Elt Ideal) ((c : Thread nD τ).loc b))

/-- The zero offsets of a rank-2 and of a rank-1 whole-buffer access, as constant functions. -/
theorem offsets2_1 : (![0, 0] : Fin 2 → Nat) = fun _ => 0 := funext fun a => by fin_cases a <;> rfl
theorem offsets1_1 : (![0] : Fin 1 → Nat) = fun _ => 0 := funext fun a => by fin_cases a <;> rfl

/-- The index maps over the grid: at point t the two row-tiled inputs and the output are at row block t, column block 0;
    the weights and biases are at block 0. -/
theorem blockIndices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row r of the features' block at point t is row 5000 t + r of the features. -/
theorem featureBlock1_apply (c : Dev nD) (t : Fin cfg1.N) (r : Fin 5000) (j : Fin 128) (R : Fin 100000)
    (hR : R.val = 5000 * t.val + r.val) :
    (iblk1 V c 0 t : Vec Ideal S5000x128 .f32) (ix2 r j) = (V c main_v14 : S100000x128.Idx → EReal) (ix2 R j) := by
  obtain ⟨e0, e1, -⟩ := blockIndices1 t
  unfold iblk1
  rw [View.read_apply]
  show V c main_v14 _ = V c main_v14 _
  refine congrArg (V c main_v14) (funext fun a => Fin.ext ?_)
  match a with
  | ⟨0, _⟩ => show win1_0.index t (0 : Fin 2) * 5000 + 1 * r.val = R.val; rw [e0, hR]; omega
  | ⟨1, _⟩ => show win1_0.index t (1 : Fin 2) * 128 + 1 * j.val = j.val; rw [e1]; omega

/-- Row r of the neighbour sums' block at point t is row 5000 t + r of the neighbour sums. -/
theorem sumsBlock1_apply (c : Dev nD) (t : Fin cfg1.N) (r : Fin 5000) (j : Fin 128) (R : Fin 100000)
    (hR : R.val = 5000 * t.val + r.val) :
    (iblk1 V c 1 t : Vec Ideal S5000x128 .f32) (ix2 r j) = (V c main_v24 : S100000x128.Idx → EReal) (ix2 R j) := by
  obtain ⟨-, -, e0, e1, -⟩ := blockIndices1 t
  unfold iblk1
  rw [View.read_apply]
  show V c main_v24 _ = V c main_v24 _
  refine congrArg (V c main_v24) (funext fun a => Fin.ext ?_)
  match a with
  | ⟨0, _⟩ => show win1_1.index t (0 : Fin 2) * 5000 + 1 * r.val = R.val; rw [e0, hR]; omega
  | ⟨1, _⟩ => show win1_1.index t (1 : Fin 2) * 128 + 1 * j.val = j.val; rw [e1]; omega

/-- The first weight matrix's one block is the matrix. -/
theorem weight1Block1_eq (c : Dev nD) (t : Fin cfg1.N) :
    (iblk1 V c 2 t : Vec Ideal S128x128 .f32) = (V c main_arg8 : S128x128.Idx → EReal) := by
  obtain ⟨-, -, -, -, e0, e1, -⟩ := blockIndices1 t
  funext y
  unfold iblk1
  rw [View.read_apply]
  show V c main_arg8 _ = V c main_arg8 y
  refine congrArg (V c main_arg8) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The first bias's one block is the bias. -/
theorem bias1Block1_eq (c : Dev nD) (t : Fin cfg1.N) :
    (iblk1 V c 3 t : Vec Ideal S128 .f32) = (V c main_arg9 : S128.Idx → EReal) := by
  obtain ⟨-, -, -, -, -, -, e0, -⟩ := blockIndices1 t
  funext y
  unfold iblk1
  rw [View.read_apply]
  show V c main_arg9 _ = V c main_arg9 y
  refine congrArg (V c main_arg9) (funext fun a => Fin.ext ?_)
  match a with
  | ⟨0, _⟩ => show win1_3.index t (0 : Fin 1) * 128 + 1 * (y 0).val = (y 0).val; rw [e0]; omega

/-- The second weight matrix's one block is the matrix. -/
theorem weight2Block1_eq (c : Dev nD) (t : Fin cfg1.N) :
    (iblk1 V c 4 t : Vec Ideal S128x128 .f32) = (V c main_arg10 : S128x128.Idx → EReal) := by
  obtain ⟨-, -, -, -, -, -, -, e0, e1, -⟩ := blockIndices1 t
  funext y
  unfold iblk1
  rw [View.read_apply]
  show V c main_arg10 _ = V c main_arg10 y
  refine congrArg (V c main_arg10) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The second bias's one block is the bias. -/
theorem bias2Block1_eq (c : Dev nD) (t : Fin cfg1.N) :
    (iblk1 V c 5 t : Vec Ideal S128 .f32) = (V c main_arg11 : S128.Idx → EReal) := by
  obtain ⟨-, -, -, -, -, -, -, -, -, e0, -⟩ := blockIndices1 t
  funext y
  unfold iblk1
  rw [View.read_apply]
  show V c main_arg11 _ = V c main_arg11 y
  refine congrArg (V c main_arg11) (funext fun a => Fin.ext ?_)
  match a with
  | ⟨0, _⟩ => show win1_5.index t (0 : Fin 1) * 128 + 1 * (y 0).val = (y 0).val; rw [e0]; omega

/-- WHAT POINT t WRITES BACK is rows 5000 t … 5000 t + 4999 of the layer of the arrays the region found. -/
theorem written1 (c : Dev nD) (t : Fin cfg1.N) :
    (dat1 (F := Ideal) V c).flushed 6 t = ((cfg1.win 6).blk t).view.read (Elt Ideal)
      (Cert.Gnn.ginHid (F := Ideal) (V c main_v14) (V c main_v24) (V c main_arg8) (V c main_arg9) (V c main_arg10) (V c main_arg11)) := by
  show (cfg1.win 6).cut (grid1.coords t) ((dat1 V c).after 6 t) = _
  rw [after1_6]
  unfold out1_6
  rw [View.canon_unit_zero offsets2_1]
  simp only [View.ld_unit_zero (S := S5000x128) offsets2_1, View.ld_unit_zero (S := S128x128) offsets2_1,
    View.ld_unit_zero (S := S128x128) offsets2_1, View.ld_unit_zero (S := S128) offsets1_1]
  funext y
  obtain ⟨r, q, rfl⟩ : ∃ (r : Fin 5000) (q : Fin 128), y = ix2 r q := ⟨y 0, y 1, eq_ix2 y⟩
  obtain ⟨-, -, -, -, -, -, -, -, -, -, e0, e1⟩ := blockIndices1 t
  have hN : cfg1.N = 20 := N_1
  have ht : t.val < 20 := hN ▸ t.isLt
  have hr : r.val < 5000 := r.isLt
  obtain ⟨R, hR⟩ : ∃ R : Fin 100000, R.val = 5000 * t.val + r.val := ⟨⟨5000 * t.val + r.val, by omega⟩, rfl⟩
  have hemb : ((cfg1.win 6).blk t).view.emb (ix2 r q) = (ix2 R q : S100000x128.Idx) :=
    funext fun a => Fin.ext (by
      match a with
      | ⟨0, _⟩ => show win1_6.index t (0 : Fin 2) * 5000 + 1 * r.val = R.val; rw [e0, hR]; omega
      | ⟨1, _⟩ => show win1_6.index t (1 : Fin 2) * 128 + 1 * q.val = q.val; rw [e1]; omega)
  rw [View.read_apply, hemb]
  refine (k1_pay1_apply (iblk1 V c 0 t) (iblk1 V c 1 t) (iblk1 V c 2 t) (iblk1 V c 3 t) (iblk1 V c 4 t) (iblk1 V c 5 t) r q).trans ?_
  refine Eq.trans ?_ (Cert.Gnn.ginHid_apply _ _ _ _ _ _ _ q).symm
  exact Cert.GinLayer.entry_congr_all
    (fun j => by rw [featureBlock1_apply V c t r j R hR, sumsBlock1_apply V c t r j R hR])
    (weight1Block1_eq V c t) (bias1Block1_eq V c t) (weight2Block1_eq V c t) (bias2Block1_eq V c t) q

/-- An index of the layer's array is in point t's block iff its row is one of the block's 5000 rows. -/
theorem mem_block1 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v25).slice (win1_6.rect t)).set ↔ _
  rw [View.set_slice_whole, Rect.mem_set_unit]
  exact Iff.rfl

/-- Every entry of the layer's array is written: row R by the point R / 5000. -/
theorem covered1 (i : S100000x128.Idx) :
    ∃ t : Fin cfg1.N, (cfg1.win 6).flush t = true ∧ i ∈ ((cfg1.win 6).blk t).view.set := by
  have hN : cfg1.N = 20 := N_1
  have hi0 : (i 0).val < 100000 := (i 0).isLt
  have hi1 : (i 1).val < 128 := (i 1).isLt
  let t : Fin cfg1.N := ⟨(i 0).val / 5000, by rw [hN]; omega⟩
  obtain ⟨-, -, -, -, -, -, -, -, -, -, e0, e1⟩ := blockIndices1 t
  refine ⟨t, flush1_6 t, ?_⟩
  rw [mem_block1]
  intro a
  match a with
  | ⟨0, _⟩ =>
    show win1_6.index t (0 : Fin 2) * 5000 ≤ (i 0).val ∧ (i 0).val < win1_6.index t (0 : Fin 2) * 5000 + 5000
    rw [e0]; show (i 0).val / 5000 * 5000 ≤ (i 0).val ∧ (i 0).val < (i 0).val / 5000 * 5000 + 5000; omega
  | ⟨1, _⟩ =>
    show win1_6.index t (1 : Fin 2) * 128 ≤ (i 1).val ∧ (i 1).val < win1_6.index t (1 : Fin 2) * 128 + 128
    rw [e1]; omega

/-- REGION 1: the output array ends equal to the specification's layer of the arrays the region found. -/
theorem region1 (c : Dev nD) :
    (dat1 (F := Ideal) V c).arrAt 6 cfg1.N
      = Cert.Gnn.ginHid (F := Ideal) (V c main_v14) (V c main_v24) (V c main_arg8) (V c main_arg9) (V c main_arg10) (V c main_arg11) :=
  (dat1 (F := Ideal) V c).arrAt_eq_of_cover 6 _ (fun t _ => written1 V c t) covered1

end Cert.KernelIdeal.LayerValue

end
-- ==== Proof.GinLayerRegion2.lean ====
/-
  Graph-layer region 2: the output array after the region is the specification's layer of the arrays the region found.

  The region runs over 20 row tiles of 5000 nodes. At tile t the body is handed rows 5000 t … 5000 t + 4999 of the node
  features (128 columns) and of the neighbour sums, and the whole of the two weight matrices and the two biases (their one
  block, at block index 0 on every axis); it leaves, at row r and column q of its output block, the layer's entry of the
  row (features + neighbour sums)[5000 t + r, ·] — the same expression the specification's hidden layer (ginHid) has at row
  5000 t + r, column q. So what tile t writes back is its block of the specification's array; every row R is written by
  tile R / 5000; hence the whole array. An element of a block sits in its array, on each axis, at block index × block
  size + its coordinate inside the block; the block indices are decided once over the 20 grid points.
-/
import proofs.«149011_j79517024518682_1_alg».proof.Proof.Gen.KernelIdeal.Frame
import proofs.«149011_j79517024518682_1_alg».proof.Proof.GinLayerPayload
import proofs.«149011_j79517024518682_1_alg».proof.Proof.GinLayerSpec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.LayerValue

open Cert.KernelIdeal Cert.KernelIdeal.Gen

variable [Cert.ReferenceIdeal.Facts]
variable (V : (c : Dev nD) → (b : Ref sig .tc) → Buf (Elt Ideal) ((c : Thread nD τ).loc b))

/-- The third kernel's body at (r, q): it is the second kernel's body, the same text. -/
theorem k2_pay1_apply (x0 x1 : Vec Ideal S5000x128 .f32) (w1 : Vec Ideal S128x128 .f32) (b1 : Vec Ideal S128 .f32)
    (w2 : Vec Ideal S128x128 .f32) (b2 : Vec Ideal S128 .f32) (r : Fin 5000) (q : Fin 128) :
    k2_pay1 (F := Ideal) x0 x1 w1 b1 w2 b2 (ix2 r q)
      = Cert.GinLayer.entry (fun j => x0 (ix2 r j) + x1 (ix2 r j)) w1 b1 w2 b2 q :=
  k1_pay1_apply x0 x1 w1 b1 w2 b2 r q

/-- The zero offsets of a rank-2 and of a rank-1 whole-buffer access, as constant functions. -/
theorem offsets2_2 : (![0, 0] : Fin 2 → Nat) = fun _ => 0 := funext fun a => by fin_cases a <;> rfl
theorem offsets1_2 : (![0] : Fin 1 → Nat) = fun _ => 0 := funext fun a => by fin_cases a <;> rfl

/-- The index maps over the grid: at point t the two row-tiled inputs and the output are at row block t, column block 0;
    the weights and biases are at block 0. -/
theorem blockIndices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row r of the features' block at point t is row 5000 t + r of the features. -/
theorem featureBlock2_apply (c : Dev nD) (t : Fin cfg2.N) (r : Fin 5000) (j : Fin 128) (R : Fin 100000)
    (hR : R.val = 5000 * t.val + r.val) :
    (iblk2 V c 0 t : Vec Ideal S5000x128 .f32) (ix2 r j) = (V c main_v25 : S100000x128.Idx → EReal) (ix2 R j) := by
  obtain ⟨e0, e1, -⟩ := blockIndices2 t
  unfold iblk2
  rw [View.read_apply]
  show V c main_v25 _ = V c main_v25 _
  refine congrArg (V c main_v25) (funext fun a => Fin.ext ?_)
  match a with
  | ⟨0, _⟩ => show win2_0.index t (0 : Fin 2) * 5000 + 1 * r.val = R.val; rw [e0, hR]; omega
  | ⟨1, _⟩ => show win2_0.index t (1 : Fin 2) * 128 + 1 * j.val = j.val; rw [e1]; omega

/-- Row r of the neighbour sums' block at point t is row 5000 t + r of the neighbour sums. -/
theorem sumsBlock2_apply (c : Dev nD) (t : Fin cfg2.N) (r : Fin 5000) (j : Fin 128) (R : Fin 100000)
    (hR : R.val = 5000 * t.val + r.val) :
    (iblk2 V c 1 t : Vec Ideal S5000x128 .f32) (ix2 r j) = (V c main_v35 : S100000x128.Idx → EReal) (ix2 R j) := by
  obtain ⟨-, -, e0, e1, -⟩ := blockIndices2 t
  unfold iblk2
  rw [View.read_apply]
  show V c main_v35 _ = V c main_v35 _
  refine congrArg (V c main_v35) (funext fun a => Fin.ext ?_)
  match a with
  | ⟨0, _⟩ => show win2_1.index t (0 : Fin 2) * 5000 + 1 * r.val = R.val; rw [e0, hR]; omega
  | ⟨1, _⟩ => show win2_1.index t (1 : Fin 2) * 128 + 1 * j.val = j.val; rw [e1]; omega

/-- The first weight matrix's one block is the matrix. -/
theorem weight1Block2_eq (c : Dev nD) (t : Fin cfg2.N) :
    (iblk2 V c 2 t : Vec Ideal S128x128 .f32) = (V c main_arg12 : S128x128.Idx → EReal) := by
  obtain ⟨-, -, -, -, e0, e1, -⟩ := blockIndices2 t
  funext y
  unfold iblk2
  rw [View.read_apply]
  show V c main_arg12 _ = V c main_arg12 y
  refine congrArg (V c main_arg12) (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The first bias's one block is the bias. -/
theorem bias1Block2_eq (c : Dev nD) (t : Fin cfg2.N) :
    (iblk2 V c 3 t : Vec Ideal S128 .f32) = (V c main_arg13 : S128.Idx → EReal) := by
  obtain ⟨-, -, -, -, -, -, e0, -⟩ := blockIndices2 t
  funext y
  unfold iblk2
  rw [View.read_apply]
  show V c main_arg13 _ = V c main_arg13 y
  refine congrArg (V c main_arg13) (funext fun a => Fin.ext ?_)
  match a with
  | ⟨0, _⟩ => show win2_3.index t (0 : Fin 1) * 128 + 1 * (y 0).val = (y 0).val; rw [e0]; omega

/-- The second weight matrix's one block is the matrix. -/
theorem weight2Block2_eq (c : Dev nD) (t : Fin cfg2.N) :
    (iblk2 V c 4 t : Vec Ideal S128x128 .f32) = (V c main_arg14 : S128x128.Idx → EReal) := by
  obtain ⟨-, -, -, -, -, -, -, e0, e1, -⟩ := blockIndices2 t
  funext y
  unfold iblk2
  rw [View.read_apply]
  show V c main_arg14 _ = V c main_arg14 y
  refine congrArg (V c main_arg14) (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- The second bias's one block is the bias. -/
theorem bias2Block2_eq (c : Dev nD) (t : Fin cfg2.N) :
    (iblk2 V c 5 t : Vec Ideal S128 .f32) = (V c main_arg15 : S128.Idx → EReal) := by
  obtain ⟨-, -, -, -, -, -, -, -, -, e0, -⟩ := blockIndices2 t
  funext y
  unfold iblk2
  rw [View.read_apply]
  show V c main_arg15 _ = V c main_arg15 y
  refine congrArg (V c main_arg15) (funext fun a => Fin.ext ?_)
  match a with
  | ⟨0, _⟩ => show win2_5.index t (0 : Fin 1) * 128 + 1 * (y 0).val = (y 0).val; rw [e0]; omega

/-- WHAT POINT t WRITES BACK is rows 5000 t … 5000 t + 4999 of the layer of the arrays the region found. -/
theorem written2 (c : Dev nD) (t : Fin cfg2.N) :
    (dat2 (F := Ideal) V c).flushed 6 t = ((cfg2.win 6).blk t).view.read (Elt Ideal)
      (Cert.Gnn.ginHid (F := Ideal) (V c main_v25) (V c main_v35) (V c main_arg12) (V c main_arg13) (V c main_arg14) (V c main_arg15)) := by
  show (cfg2.win 6).cut (grid2.coords t) ((dat2 V c).after 6 t) = _
  rw [after2_6]
  unfold out2_6
  rw [View.canon_unit_zero offsets2_2]
  simp only [View.ld_unit_zero (S := S5000x128) offsets2_2, View.ld_unit_zero (S := S128x128) offsets2_2,
    View.ld_unit_zero (S := S128x128) offsets2_2, View.ld_unit_zero (S := S128) offsets1_2]
  funext y
  obtain ⟨r, q, rfl⟩ : ∃ (r : Fin 5000) (q : Fin 128), y = ix2 r q := ⟨y 0, y 1, eq_ix2 y⟩
  obtain ⟨-, -, -, -, -, -, -, -, -, -, e0, e1⟩ := blockIndices2 t
  have hN : cfg2.N = 20 := N_2
  have ht : t.val < 20 := hN ▸ t.isLt
  have hr : r.val < 5000 := r.isLt
  obtain ⟨R, hR⟩ : ∃ R : Fin 100000, R.val = 5000 * t.val + r.val := ⟨⟨5000 * t.val + r.val, by omega⟩, rfl⟩
  have hemb : ((cfg2.win 6).blk t).view.emb (ix2 r q) = (ix2 R q : S100000x128.Idx) :=
    funext fun a => Fin.ext (by
      match a with
      | ⟨0, _⟩ => show win2_6.index t (0 : Fin 2) * 5000 + 1 * r.val = R.val; rw [e0, hR]; omega
      | ⟨1, _⟩ => show win2_6.index t (1 : Fin 2) * 128 + 1 * q.val = q.val; rw [e1]; omega)
  rw [View.read_apply, hemb]
  refine (k2_pay1_apply (iblk2 V c 0 t) (iblk2 V c 1 t) (iblk2 V c 2 t) (iblk2 V c 3 t) (iblk2 V c 4 t) (iblk2 V c 5 t) r q).trans ?_
  refine Eq.trans ?_ (Cert.Gnn.ginHid_apply _ _ _ _ _ _ _ q).symm
  exact Cert.GinLayer.entry_congr_all
    (fun j => by rw [featureBlock2_apply V c t r j R hR, sumsBlock2_apply V c t r j R hR])
    (weight1Block2_eq V c t) (bias1Block2_eq V c t) (weight2Block2_eq V c t) (bias2Block2_eq V c t) q

/-- An index of the layer's array is in point t's block iff its row is one of the block's 5000 rows. -/
theorem mem_block2 (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v36).slice (win2_6.rect t)).set ↔ _
  rw [View.set_slice_whole, Rect.mem_set_unit]
  exact Iff.rfl

/-- Every entry of the layer's array is written: row R by the point R / 5000. -/
theorem covered2 (i : S100000x128.Idx) :
    ∃ t : Fin cfg2.N, (cfg2.win 6).flush t = true ∧ i ∈ ((cfg2.win 6).blk t).view.set := by
  have hN : cfg2.N = 20 := N_2
  have hi0 : (i 0).val < 100000 := (i 0).isLt
  have hi1 : (i 1).val < 128 := (i 1).isLt
  let t : Fin cfg2.N := ⟨(i 0).val / 5000, by rw [hN]; omega⟩
  obtain ⟨-, -, -, -, -, -, -, -, -, -, e0, e1⟩ := blockIndices2 t
  refine ⟨t, flush2_6 t, ?_⟩
  rw [mem_block2]
  intro a
  match a with
  | ⟨0, _⟩ =>
    show win2_6.index t (0 : Fin 2) * 5000 ≤ (i 0).val ∧ (i 0).val < win2_6.index t (0 : Fin 2) * 5000 + 5000
    rw [e0]; show (i 0).val / 5000 * 5000 ≤ (i 0).val ∧ (i 0).val < (i 0).val / 5000 * 5000 + 5000; omega
  | ⟨1, _⟩ =>
    show win2_6.index t (1 : Fin 2) * 128 ≤ (i 1).val ∧ (i 1).val < win2_6.index t (1 : Fin 2) * 128 + 128
    rw [e1]; omega

/-- REGION 2: the output array ends equal to the specification's layer of the arrays the region found. -/
theorem region2 (c : Dev nD) :
    (dat2 (F := Ideal) V c).arrAt 6 cfg2.N
      = Cert.Gnn.ginHid (F := Ideal) (V c main_v25) (V c main_v35) (V c main_arg12) (V c main_arg13) (V c main_arg14) (V c main_arg15) :=
  (dat2 (F := Ideal) V c).arrAt_eq_of_cover 6 _ (fun t _ => written2 V c t) covered2

end Cert.KernelIdeal.LayerValue

end
-- ==== Proof.JkTile.lean ====
/-
  One tile of the projection, entry by entry.

  On a tile of 5000 rows the body multiplies each layer's tile with that layer's 128 x 128 block of the projection
  matrix (the matrix unit's product into a zero accumulator; rounding an operand to a narrower format is the identity
  at the ideal reading), adds the three products in order and adds the bias row under every row. At entry (p, q):
      ((Σ_i x0 (p, i) · A (i, q) + Σ_i x1 (p, i) · B (i, q)) + Σ_i x2 (p, i) · C (i, q)) + b (q).
-/
import proofs.«149011_j79517024518682_1_alg».proof.Proof.Gen.KernelIdeal.Skeleton
import proofs.«149011_j79517024518682_1_alg».proof.Proof.LibDot
import proofs.«149011_j79517024518682_1_alg».proof.Proof.LibRowwise
import Idealize.ShloMosaic.Lib.Pipeline.Value

noncomputable section

namespace Cert.KernelIdeal.JkTile

open Idealize.ShloMosaic Idealize.ShloMosaic.ValueIdx Cert.KernelIdeal Cert.KernelIdeal.Gen
open scoped BigOperators

/-- The product of a tile of 5000 rows with a 128 x 128 matrix, accumulated from zero, at entry (p, q):
    Σ_i x (p, i) · w (i, q). -/
theorem tileProduct_apply (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ i : Fin 128, x (ix2 p i) * w (ix2 i q) :=
  Cert.LibDot.matmul_zero_apply dot_S5000x128_S128x128_S5000x128_1_0_0_1_n_n rfl rfl (fun _ _ => rfl) (fun _ _ => rfl)
    (fun _ _ => rfl) (fun _ _ => rfl) none x w p q

/-- What the body stores, at entry (p, q) of the tile. -/
theorem tile_apply (x0 x1 x2 : FVec Ideal S5000x128 .f32) (A B C : FVec Ideal S128x128 .f32) (b : FVec Ideal S128 .f32)
    (p : Fin 5000) (q : Fin 128) :
    k3_pay1 x0 A x1 B x2 C b (ix2 p q)
      = ((∑ i : Fin 128, x0 (ix2 p i) * A (ix2 i q) + ∑ i : Fin 128, x1 (ix2 p i) * B (ix2 i q))
          + ∑ i : Fin 128, x2 (ix2 p i) * C (ix2 i q)) + b (ix1 q) := by
  unfold k3_pay1
  simp only [shapeCast_self]
  refine congrArg₂ (· + ·) (congrArg₂ (· + ·) (congrArg₂ (· + ·) ?_ ?_) ?_) ?_
  · exact tileProduct_apply _ _ p q
  · exact tileProduct_apply _ _ p q
  · exact tileProduct_apply _ _ p q
  · exact Cert.LibRowwise.rowUnder_apply b _ _ p q

end Cert.KernelIdeal.JkTile

end
-- ==== Proof.JkSum.lean ====
/-
  A sum over 384 consecutive indices is the sum of the three sums over its thirds of 128: the regrouping that turns one
  contraction over the three layers' features laid side by side into three contractions over one layer's features each.
  Only commutativity and associativity of the addition are used, so it holds in any commutative additive monoid, the
  extended reals among them. Library imports only.
-/
import Mathlib.Algebra.BigOperators.Fin

namespace Cert.JkSum

open scoped BigOperators

/-- A sum over a + b + c consecutive indices, cut after the first a and after the first a + b. -/
theorem sum_three {M : Type*} [AddCommMonoid M] (a b c : ℕ) (f : Fin (a + b + c) → M) :
    ∑ k : Fin (a + b + c), f k
      = (∑ i : Fin a, f ⟨i.val, by have := i.isLt; omega⟩ + ∑ i : Fin b, f ⟨a + i.val, by have := i.isLt; omega⟩)
        + ∑ i : Fin c, f ⟨a + b + i.val, by have := i.isLt; omega⟩ := by
  rw [Fin.sum_univ_add, Fin.sum_univ_add]
  rfl

/-- The three thirds of 384. -/
theorem sum_thirds {M : Type*} [AddCommMonoid M] (f : Fin 384 → M) :
    ∑ k : Fin 384, f k
      = (∑ i : Fin 128, f ⟨i.val, by have := i.isLt; omega⟩ + ∑ i : Fin 128, f ⟨128 + i.val, by have := i.isLt; omega⟩)
        + ∑ i : Fin 128, f ⟨256 + i.val, by have := i.isLt; omega⟩ :=
  sum_three 128 128 128 f

end Cert.JkSum
-- ==== Proof.JkProjAt.lean ====
/-
  The projection of the three layers' features laid side by side, entry by entry.

  The specification joins the three [100000, 128] feature matrices along their columns into one [100000, 384] matrix,
  contracts it once with the [384, 128] projection matrix and adds the bias row under every row. Column k of the joined
  matrix is column k of the first layer for k < 128, column k - 128 of the second for 128 ≤ k < 256 and column k - 256 of
  the third from there on, so the one sum over 384 is three sums over 128, each against one block of 128 rows of the
  projection matrix. At entry (r, q):
      ((Σ_i h1 (r, i) · J (i, q) + Σ_i h2 (r, i) · J (128 + i, q)) + Σ_i h3 (r, i) · J (256 + i, q)) + j (q).
  Regrouping a sum uses only that addition on the extended reals is commutative and associative: no entry need be finite.
-/
import proofs.«149011_j79517024518682_1_alg».proof.Proof.Spec
import proofs.«149011_j79517024518682_1_alg».proof.Proof.LibDot
import proofs.«149011_j79517024518682_1_alg».proof.Proof.JkSum
import Idealize.ShloMosaic.Lib.Pipeline.Value
import Idealize.ShloMosaic.Lib.ValueIdx
import Idealize.ShloMosaic.PureOps.Ideal.Laws

noncomputable section

namespace Cert.Gnn.JkProjAt

open Idealize.ShloMosaic Idealize.ShloMosaic.ValueIdx Cert.ReferenceIdeal Cert.ReferenceIdeal.Facts₀
open scoped BigOperators

variable [Cert.ReferenceIdeal.Facts]

section SideBySide

variable {α : Type} (h1 h2 h3 : S100000x128.Idx → α)

/-- Column k < 128 of the joined matrix is column k of the first layer. -/
theorem sideBySide_first (r : Fin 100000) (i : Fin 128) (k : Fin 384) (hk : k.val = i.val) :
    concatenate S100000x384 1 [⟨S100000x128, h1⟩, ⟨S100000x128, h2⟩, ⟨S100000x128, h3⟩]
      concatenates_S100000x128_S100000x128_S100000x128_S100000x384_d1 (ix2 r k) = h1 (ix2 r i) :=
  concatenate_apply_piece 1 _ _ (ix2 r k) 0 (by show 0 < 3; decide) S100000x128 h1 rfl rfl 0 rfl (ix2 r i)
    (fun b hb => by
      match b, hb with
      | ⟨0, _⟩, _ => rfl
      | ⟨1, _⟩, hb => exact (hb (Fin.ext rfl)).elim)
    (by show 0 + i.val = k.val; omega)

/-- Column 128 + i of the joined matrix is column i of the second layer. -/
theorem sideBySide_second (r : Fin 100000) (i : Fin 128) (k : Fin 384) (hk : k.val = 128 + i.val) :
    concatenate S100000x384 1 [⟨S100000x128, h1⟩, ⟨S100000x128, h2⟩, ⟨S100000x128, h3⟩]
      concatenates_S100000x128_S100000x128_S100000x128_S100000x384_d1 (ix2 r k) = h2 (ix2 r i) :=
  concatenate_apply_piece 1 _ _ (ix2 r k) 1 (by show 1 < 3; decide) S100000x128 h2 rfl rfl 128 rfl (ix2 r i)
    (fun b hb => by
      match b, hb with
      | ⟨0, _⟩, _ => rfl
      | ⟨1, _⟩, hb => exact (hb (Fin.ext rfl)).elim)
    (by show 128 + i.val = k.val; omega)

/-- Column 256 + i of the joined matrix is column i of the third layer. -/
theorem sideBySide_third (r : Fin 100000) (i : Fin 128) (k : Fin 384) (hk : k.val = 256 + i.val) :
    concatenate S100000x384 1 [⟨S100000x128, h1⟩, ⟨S100000x128, h2⟩, ⟨S100000x128, h3⟩]
      concatenates_S100000x128_S100000x128_S100000x128_S100000x384_d1 (ix2 r k) = h3 (ix2 r i) :=
  concatenate_apply_piece 1 _ _ (ix2 r k) 2 (by show 2 < 3; decide) S100000x128 h3 rfl rfl 256 rfl (ix2 r i)
    (fun b hb => by
      match b, hb with
      | ⟨0, _⟩, _ => rfl
      | ⟨1, _⟩, hb => exact (hb (Fin.ext rfl)).elim)
    (by show 256 + i.val = k.val; omega)

end SideBySide

/-- The bias row laid under every node's row: entry (r, q) is the row's entry q. -/
theorem biasHid_apply (b : FVec Ideal S128 .f32) (r : Fin 100000) (q : Fin 128) :
    biasHid (F := Ideal) b (ix2 r q) = b (ix1 q) := by
  unfold biasHid
  refine (broadcastInDim_apply _ _ _ (ix2 r q) (ix2 (0 : Fin 1) q) fun a => ?_).trans ?_
  · match a with
    | ⟨0, _⟩ => rfl
    | ⟨1, _⟩ => rfl
  · exact broadcastInDim_apply _ _ b (ix2 (0 : Fin 1) q) (ix1 q) fun a => by
      match a with
      | ⟨0, _⟩ => rfl

/-- The one contraction over the 384 joined columns, at entry (r, q). -/
theorem contract_apply (X : FVec Ideal S100000x384 .f32) (J : FVec Ideal S384x128 .f32) (r : Fin 100000) (q : Fin 128) :
    Host.dotGeneral dot_S100000x384_S384x128_S100000x128_1_0_0_1_n_n none X J (ix2 r q)
      = ∑ k : Fin 384, X (ix2 r k) * J (ix2 k q) :=
  Cert.LibDot.dotGeneral_apply dot_S100000x384_S384x128_S100000x128_1_0_0_1_n_n rfl rfl (fun _ _ => rfl) (fun _ _ => rfl)
    (fun _ _ => rfl) (fun _ _ => rfl) none .single X J r q

/-- The projection at entry (r, q): three sums over one layer's 128 features each, against the three blocks of 128
    rows of the projection matrix, plus the bias. -/
theorem jkProj_apply (h1 h2 h3 : FVec Ideal S100000x128 .f32) (J : FVec Ideal S384x128 .f32) (j : FVec Ideal S128 .f32)
    (r : Fin 100000) (q : Fin 128) :
    jkProj (F := Ideal) h1 h2 h3 J j (ix2 r q)
      = ((∑ i : Fin 128, h1 (ix2 r i) * J (ix2 (⟨i.val, by have := i.isLt; omega⟩ : Fin 384) q)
          + ∑ i : Fin 128, h2 (ix2 r i) * J (ix2 (⟨128 + i.val, by have := i.isLt; omega⟩ : Fin 384) q))
          + ∑ i : Fin 128, h3 (ix2 r i) * J (ix2 (⟨256 + i.val, by have := i.isLt; omega⟩ : Fin 384) q))
        + j (ix1 q) := by
  unfold jkProj
  refine congrArg₂ (· + ·) ?_ (biasHid_apply j r q)
  refine (contract_apply _ J r q).trans ?_
  refine (Cert.JkSum.sum_thirds _).trans ?_
  refine congrArg₂ (· + ·) (congrArg₂ (· + ·) ?_ ?_) ?_
  · refine Finset.sum_congr rfl fun i _ => ?_
    exact congrArg (· * J (ix2 (⟨i.val, by have := i.isLt; omega⟩ : Fin 384) q)) (sideBySide_first h1 h2 h3 r i _ rfl)
  · refine Finset.sum_congr rfl fun i _ => ?_
    exact congrArg (· * J (ix2 (⟨128 + i.val, by have := i.isLt; omega⟩ : Fin 384) q)) (sideBySide_second h1 h2 h3 r i _ rfl)
  · refine Finset.sum_congr rfl fun i _ => ?_
    exact congrArg (· * J (ix2 (⟨256 + i.val, by have := i.isLt; omega⟩ : Fin 384) q)) (sideBySide_third h1 h2 h3 r i _ rfl)

end Cert.Gnn.JkProjAt

end
-- ==== Proof.LibSliceRows.lean ====
/-
  A block of consecutive rows cut out of a taller matrix, read at an entry.

  For an [r, c] matrix A, the slice of b rows starting at row o (all c columns, unit strides) reads, at (i, j), the
  entry (o + i, j) of A.  What a host program's split of a stacked weight matrix into its row blocks needs: the product
  of a concatenated row with the stacked matrix is the sum of the products of the parts with these blocks.
  Library imports only.
-/
import Idealize.ShloMosaic.Lib.Pipeline.Value
import Idealize.ShloMosaic.Lib.ValueIdx

namespace Cert.LibSliceRows

open Idealize.ShloMosaic Idealize.ShloMosaic.ValueIdx

/-- Rows o … o + b - 1 of an [r, c] matrix, at (i, j): the matrix at (o + i, j). -/
theorem rows_apply {α : Type} {r b c : ℕ} (o : ℕ) (A : (⟨2, ![r, c]⟩ : Shape).Idx → α)
    (hs : (⟨2, ![r, c]⟩ : Shape).Slices ![o, 0] ⟨2, ![b, c]⟩) (i : Fin b) (j : Fin c) (ho : o + i.val < r) :
    extractStridedSlice ⟨2, ![b, c]⟩ ![o, 0] A hs (ix2 i j) = A (ix2 (⟨o + i.val, ho⟩ : Fin r) j) := by
  refine extractStridedSlice_apply ![o, 0] A hs (ix2 i j) (ix2 (⟨o + i.val, ho⟩ : Fin r) j) fun ax => ?_
  match ax with
  | ⟨0, _⟩ => rfl
  | ⟨1, _⟩ => show j.val = 0 + j.val; omega

end Cert.LibSliceRows
-- ==== Proof.JkEntry.lean ====
/-
  A tile's entry is the projection's entry.

  Row p of the tile at grid point t is row r = 5000 t + p of the arrays. If the three layer tiles hold those rows of the
  three layers, and the three weight windows hold the blocks of rows 0..127, 128..255 and 256..383 of the projection
  matrix J, then what the body stores at (p, q),
      ((Σ_i x0 (p, i) · A (i, q) + Σ_i x1 (p, i) · B (i, q)) + Σ_i x2 (p, i) · C (i, q)) + b (q),
  is term by term the projection of the three layers side by side at (r, q),
      ((Σ_i h1 (r, i) · J (i, q) + Σ_i h2 (r, i) · J (128 + i, q)) + Σ_i h3 (r, i) · J (256 + i, q)) + b (q).
-/
import proofs.«149011_j79517024518682_1_alg».proof.Proof.JkTile
import proofs.«149011_j79517024518682_1_alg».proof.Proof.JkProjAt
import proofs.«149011_j79517024518682_1_alg».proof.Proof.LibSliceRows

noncomputable section

namespace Cert.KernelIdeal.JkEntry

open Idealize.ShloMosaic Idealize.ShloMosaic.ValueIdx Cert.KernelIdeal Cert.KernelIdeal.Gen
open scoped BigOperators

variable [Cert.ReferenceIdeal.Facts]

/-- A block of 128 rows of the projection matrix starting at row o, read at (i, q): the matrix at (o + i, q). -/
theorem rowBlock_apply (J : FVec Ideal S384x128 .f32) (o : ℕ) (hs : S384x128.Slices ![o, 0] S128x128) (i : Fin 128) (q : Fin 128)
    (k : Fin 384) (hk : k.val = o + i.val) :
    extractStridedSlice S128x128 ![o, 0] J hs (ix2 i q) = J (ix2 k q) :=
  (Cert.LibSliceRows.rows_apply o J hs i q (by have := k.isLt; omega)).trans
    (congrArg (fun k' : Fin 384 => J (ix2 k' q)) (Fin.ext hk.symm))

theorem tile_eq_proj (x0 x1 x2 : FVec Ideal S5000x128 .f32) (A B C : FVec Ideal S128x128 .f32) (b : FVec Ideal S128 .f32)
    (h1 h2 h3 : FVec Ideal S100000x128 .f32) (J : FVec Ideal S384x128 .f32) (p : Fin 5000) (q : Fin 128) (r : Fin 100000)
    (e0 : ∀ i : Fin 128, x0 (ix2 p i) = h1 (ix2 r i)) (e1 : ∀ i : Fin 128, x1 (ix2 p i) = h2 (ix2 r i))
    (e2 : ∀ i : Fin 128, x2 (ix2 p i) = h3 (ix2 r i))
    (hA : A = extractStridedSlice S128x128 ![0, 0] J slices_S384x128_S128x128_0_0)
    (hB : B = extractStridedSlice S128x128 ![128, 0] J slices_S384x128_S128x128_128_0)
    (hC : C = extractStridedSlice S128x128 ![256, 0] J slices_S384x128_S128x128_256_0) :
    (k3_pay1 (F := Ideal) x0 A x1 B x2 C b (ix2 p q) : EReal) = Cert.Gnn.jkProj (F := Ideal) h1 h2 h3 J b (ix2 r q) := by
  subst hA hB hC
  refine (Cert.KernelIdeal.JkTile.tile_apply x0 x1 x2 _ _ _ b p q).trans ?_
  refine Eq.trans ?_ (Cert.Gnn.JkProjAt.jkProj_apply h1 h2 h3 J b r q).symm
  refine congrArg₂ (· + ·) (congrArg₂ (· + ·) (congrArg₂ (· + ·) ?_ ?_) ?_) rfl
  · exact Finset.sum_congr rfl fun i _ => congrArg₂ (· * ·) (e0 i) (rowBlock_apply J 0 _ i q _ (Nat.zero_add i.val).symm)
  · exact Finset.sum_congr rfl fun i _ => congrArg₂ (· * ·) (e1 i) (rowBlock_apply J 128 _ i q _ rfl)
  · exact Finset.sum_congr rfl fun i _ => congrArg₂ (· * ·) (e2 i) (rowBlock_apply J 256 _ i q _ rfl)

end Cert.KernelIdeal.JkEntry

end
-- ==== Proof.JkValue.lean ====
/-
  The jumping-knowledge region's output array.

  The region runs over 20 grid points; point t works on rows 5000 t .. 5000 t + 4999 of the three layers' feature arrays
  and of the output, with the three 128 x 128 weight windows and the bias window whole at every point. What point t
  writes back is therefore rows 5000 t .. 5000 t + 4999 of the projection of the three layers side by side, and row r of
  the output is covered by point r / 5000: after the last point the output array is that projection.
-/
import proofs.«149011_j79517024518682_1_alg».proof.Proof.Spec
import proofs.«149011_j79517024518682_1_alg».proof.Proof.Gen.KernelIdeal.Frame
import proofs.«149011_j79517024518682_1_alg».proof.Proof.JkEntry
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.ProjValue

open Cert.KernelIdeal Cert.KernelIdeal.Gen

variable [Cert.ReferenceIdeal.Facts]
variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The index maps over the grid: at point t the layer windows and the output window are at block (t, 0), the weight
    windows and the bias window at block 0. -/
theorem block_index : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ win3_6.index t (0 : Fin 1) = 0
    ∧ (win3_7.index t (0 : Fin 2) = t.val ∧ win3_7.index t (1 : Fin 2) = 0) :=
  (by decide +kernel : ∀ t : Fin grid3.N, _)

/-- Row p of the first layer's tile at point t is row 5000 t + p of the first layer. -/
theorem layer1_tile (c : Dev nD) (t : Fin cfg3.N) (p : Fin 5000) (i : Fin 128) (r : Fin 100000) (hr : r.val = t.val * 5000 + p.val) :
    (iblk3 V c 0 t : FVec Ideal S5000x128 .f32) (ix2 p i) = (V c main_v14 : FVec Ideal S100000x128 .f32) (ix2 r i) := by
  obtain ⟨⟨e0, e1⟩, -⟩ := block_index t
  unfold iblk3
  rw [View.read_apply]
  show V c main_v14 _ = V c main_v14 _
  refine congrArg (V c main_v14) (funext fun a => Fin.ext ?_)
  match a with
  | ⟨0, _⟩ => show win3_0.index t (0 : Fin 2) * 5000 + 1 * p.val = r.val; rw [e0, hr]; omega
  | ⟨1, _⟩ => show win3_0.index t (1 : Fin 2) * 128 + 1 * i.val = i.val; rw [e1]; omega

/-- Row p of the second layer's tile at point t is row 5000 t + p of the second layer. -/
theorem layer2_tile (c : Dev nD) (t : Fin cfg3.N) (p : Fin 5000) (i : Fin 128) (r : Fin 100000) (hr : r.val = t.val * 5000 + p.val) :
    (iblk3 V c 1 t : FVec Ideal S5000x128 .f32) (ix2 p i) = (V c main_v25 : FVec Ideal S100000x128 .f32) (ix2 r i) := by
  obtain ⟨-, ⟨e0, e1⟩, -⟩ := block_index t
  unfold iblk3
  rw [View.read_apply]
  show V c main_v25 _ = V c main_v25 _
  refine congrArg (V c main_v25) (funext fun a => Fin.ext ?_)
  match a with
  | ⟨0, _⟩ => show win3_1.index t (0 : Fin 2) * 5000 + 1 * p.val = r.val; rw [e0, hr]; omega
  | ⟨1, _⟩ => show win3_1.index t (1 : Fin 2) * 128 + 1 * i.val = i.val; rw [e1]; omega

/-- Row p of the third layer's tile at point t is row 5000 t + p of the third layer. -/
theorem layer3_tile (c : Dev nD) (t : Fin cfg3.N) (p : Fin 5000) (i : Fin 128) (r : Fin 100000) (hr : r.val = t.val * 5000 + p.val) :
    (iblk3 V c 2 t : FVec Ideal S5000x128 .f32) (ix2 p i) = (V c main_v36 : FVec Ideal S100000x128 .f32) (ix2 r i) := by
  obtain ⟨-, -, ⟨e0, e1⟩, -⟩ := block_index t
  unfold iblk3
  rw [View.read_apply]
  show V c main_v36 _ = V c main_v36 _
  refine congrArg (V c main_v36) (funext fun a => Fin.ext ?_)
  match a with
  | ⟨0, _⟩ => show win3_2.index t (0 : Fin 2) * 5000 + 1 * p.val = r.val; rw [e0, hr]; omega
  | ⟨1, _⟩ => show win3_2.index t (1 : Fin 2) * 128 + 1 * i.val = i.val; rw [e1]; omega

/-- The first weight window holds its whole array at every point. -/
theorem weight1_whole (c : Dev nD) (t : Fin cfg3.N) : (iblk3 V c 3 t : FVec Ideal S128x128 .f32) = V c main_v37 := by
  obtain ⟨-, -, -, ⟨e0, e1⟩, -⟩ := block_index t
  funext y
  unfold iblk3
  rw [View.read_apply]
  show V c main_v37 _ = V c main_v37 y
  refine congrArg (V c main_v37) (funext fun a => Fin.ext ?_)
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

/-- The second weight window holds its whole array at every point. -/
theorem weight2_whole (c : Dev nD) (t : Fin cfg3.N) : (iblk3 V c 4 t : FVec Ideal S128x128 .f32) = V c main_v38 := by
  obtain ⟨-, -, -, -, ⟨e0, e1⟩, -⟩ := block_index t
  funext y
  unfold iblk3
  rw [View.read_apply]
  show V c main_v38 _ = V c main_v38 y
  refine congrArg (V c main_v38) (funext fun a => Fin.ext ?_)
  match a with
  | ⟨0, _⟩ => show win3_4.index t (0 : Fin 2) * 128 + 1 * (y 0).val = (y 0).val; rw [e0]; omega
  | ⟨1, _⟩ => show win3_4.index t (1 : Fin 2) * 128 + 1 * (y 1).val = (y 1).val; rw [e1]; omega

/-- The third weight window holds its whole array at every point. -/
theorem weight3_whole (c : Dev nD) (t : Fin cfg3.N) : (iblk3 V c 5 t : FVec Ideal S128x128 .f32) = V c main_v39 := by
  obtain ⟨-, -, -, -, -, ⟨e0, e1⟩, -⟩ := block_index t
  funext y
  unfold iblk3
  rw [View.read_apply]
  show V c main_v39 _ = V c main_v39 y
  refine congrArg (V c main_v39) (funext fun a => Fin.ext ?_)
  match a with
  | ⟨0, _⟩ => show win3_5.index t (0 : Fin 2) * 128 + 1 * (y 0).val = (y 0).val; rw [e0]; omega
  | ⟨1, _⟩ => show win3_5.index t (1 : Fin 2) * 128 + 1 * (y 1).val = (y 1).val; rw [e1]; omega

/-- The bias window holds its whole array at every point. -/
theorem bias_whole (c : Dev nD) (t : Fin cfg3.N) : (iblk3 V c 6 t : FVec Ideal S128 .f32) = V c main_arg17 := by
  obtain ⟨-, -, -, -, -, -, e0, -⟩ := block_index t
  funext y
  unfold iblk3
  rw [View.read_apply]
  show V c main_arg17 _ = V c main_arg17 y
  refine congrArg (V c main_arg17) (funext fun a => Fin.ext ?_)
  match a with
  | ⟨0, _⟩ => show win3_6.index t (0 : Fin 1) * 128 + 1 * (y 0).val = (y 0).val; rw [e0]; omega

/-- What point t writes back is rows 5000 t .. 5000 t + 4999 of the projection of the three layers side by side. -/
theorem flushed_eq (c : Dev nD) (J : Vec Ideal S384x128 .f32)
    (h37 : V c main_v37 = extractStridedSlice S128x128 ![0, 0] J slices_S384x128_S128x128_0_0)
    (h38 : V c main_v38 = extractStridedSlice S128x128 ![128, 0] J slices_S384x128_S128x128_128_0)
    (h39 : V c main_v39 = extractStridedSlice S128x128 ![256, 0] J slices_S384x128_S128x128_256_0) (t : Fin cfg3.N) :
    (dat3 (F := Ideal) V c).flushed 7 t = ((cfg3.win 7).blk t).view.read (Elt Ideal)
      (Cert.Gnn.jkProj (F := Ideal) (V c main_v14) (V c main_v25) (V c main_v36) J (V c main_arg17)) := by
  show (cfg3.win 7).cut (grid3.coords t) ((dat3 (F := Ideal) V c).after 7 t) = _
  rw [after3_7]
  unfold out3_7
  rw [View.canon_unit_zero zero2]
  simp only [View.ld_unit_zero (S := S5000x128) zero2, View.ld_unit_zero (S := S128x128) zero2, View.ld_unit_zero (S := S128) zero1]
  funext y
  obtain ⟨p, q, rfl⟩ : ∃ (p : Fin 5000) (q : Fin 128), y = ix2 p q := ⟨y 0, y 1, eq_ix2 y⟩
  rw [View.read_apply]
  obtain ⟨-, -, -, -, -, -, -, ⟨e0, e1⟩⟩ := block_index t
  have hN : cfg3.N = 20 := N_3
  have hr : t.val * 5000 + p.val < 100000 := by have := t.isLt; have := p.isLt; omega
  have hemb : ((cfg3.win 7).blk t).view.emb (ix2 p q) = ix2 (⟨t.val * 5000 + p.val, hr⟩ : Fin 100000) q := by
    funext a; apply Fin.ext
    match a with
    | ⟨0, _⟩ => show win3_7.index t (0 : Fin 2) * 5000 + 1 * p.val = t.val * 5000 + p.val; rw [e0]; omega
    | ⟨1, _⟩ => show win3_7.index t (1 : Fin 2) * 128 + 1 * q.val = q.val; rw [e1]; omega
  rw [hemb]
  rw [bias_whole V c t]
  exact Cert.KernelIdeal.JkEntry.tile_eq_proj (iblk3 V c 0 t) (iblk3 V c 1 t) (iblk3 V c 2 t) (iblk3 V c 3 t) (iblk3 V c 4 t)
    (iblk3 V c 5 t) (V c main_arg17) (V c main_v14) (V c main_v25) (V c main_v36) J p q ⟨t.val * 5000 + p.val, hr⟩
    (fun i => layer1_tile V c t p i _ rfl) (fun i => layer2_tile V c t p i _ rfl) (fun i => layer3_tile V c t p i _ rfl)
    ((weight1_whole V c t).trans h37) ((weight2_whole V c t).trans h38) ((weight3_whole V c t).trans h39)

/-- An index of the output array is in point t's block iff each coordinate is in the block's range on its axis. -/
theorem mem_block (t : Fin cfg3.N) (i : S100000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole main_v40).slice (win3_7.rect t)).set ↔ _
  rw [View.set_slice_whole, Rect.mem_set_unit]
  exact Iff.rfl

/-- Row r of the output is in the block of point r / 5000, and every point writes back. -/
theorem covered (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨-, -, -, -, -, -, -, ⟨e0, e1⟩⟩ := block_index ⟨(i 0).val / 5000, ht⟩
  refine ⟨⟨(i 0).val / 5000, ht⟩, flush3_7 _, ?_⟩
  rw [mem_block]
  intro a
  match a with
  | ⟨0, _⟩ =>
    show win3_7.index ⟨(i 0).val / 5000, ht⟩ (0 : Fin 2) * 5000 ≤ (i 0).val
      ∧ (i 0).val < win3_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_7.index ⟨(i 0).val / 5000, ht⟩ (1 : Fin 2) * 128 ≤ (i 1).val
      ∧ (i 1).val < win3_7.index ⟨(i 0).val / 5000, ht⟩ (1 : Fin 2) * 128 + 128
    rw [e1]; omega

/-- THE REGION'S OUTPUT ARRAY: the projection of the three layers side by side, whatever the region found in its
    arrays, provided its three weight windows' arrays are the three blocks of 128 rows of the projection matrix J. -/
theorem region3 (c : Dev nD) (J : Vec Ideal S384x128 .f32)
    (h37 : V c main_v37 = extractStridedSlice S128x128 ![0, 0] J slices_S384x128_S128x128_0_0)
    (h38 : V c main_v38 = extractStridedSlice S128x128 ![128, 0] J slices_S384x128_S128x128_128_0)
    (h39 : V c main_v39 = extractStridedSlice S128x128 ![256, 0] J slices_S384x128_S128x128_256_0) :
    (dat3 (F := Ideal) V c).arrAt 7 cfg3.N
      = Cert.Gnn.jkProj (F := Ideal) (V c main_v14) (V c main_v25) (V c main_v36) J (V c main_arg17) :=
  (dat3 (F := Ideal) V c).arrAt_eq_of_cover 7 _ (fun t _ => flushed_eq V c J h37 h38 h39 t) covered

end Cert.KernelIdeal.ProjValue

end
-- ==== Proof.LibColReduce.lean ====
/-
  A reduction over the FIRST axis of a matrix, read at a coordinate.

  A matrix `[a, b]` summed over its row axis gives, at column `c`, the sum over `r : Fin a` of the entry `(r, c)`:
  the library states the sum over the reduced index with the coordinate re-inserted; here the re-inserted index is
  written by its coordinates. (The companion of the last-axis forms.) Library imports only.
-/
import Idealize.ShloMosaic.PureOps.Ideal.Laws
import Idealize.ShloMosaic.Lib.ValueIdx

noncomputable section

namespace Cert.LibColReduce

open Idealize.ShloMosaic Idealize.ShloMosaic.ValueIdx

variable {φ : FTy}

/-- Column `c` with row `r` put back is the entry `(r, c)`. -/
theorem lift_col {a b : ℕ} (h : (⟨2, ![a, b]⟩ : Shape).Reduces [0] ⟨1, ![b]⟩) (c : Fin b) (r : Fin a) :
    h.lift (ix1 c) r = ix2 r c := by
  funext d; apply Fin.ext
  fin_cases d <;> rfl

/-- A sum of a matrix down its rows, at column `c`: the sum of the column's entries. -/
theorem multiReduction_add_col {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (lift_col h c r))

end Cert.LibColReduce

end
-- ==== Proof.ClassifierStats.lean ====
/-
  The column statistics of the classifier's hidden layer, entry by entry.

  For a matrix z of 2048 rows (graphs) and 128 columns (features) over the extended reals:
    colTotal z q = Σ_r z (r, q)                       mean z q = colTotal z q / 2048
    dev z p q    = z (p, q) - mean z q                var z q  = (Σ_r dev z r q · dev z r q) / 2048
    scale z q    = (var z q + eps)^(-1/2)
    normAt z γ β p q = max (dev z p q · scale z q · γ q + β q, 0)
  (the division and the reciprocal square root are the ideal reading's; 2048 and eps are kept as the words the programs write).
  The specification's stages (column sum, column mean, squared deviations, column variance, reciprocal standard
  deviation, the normalised layer) read at an entry are these functions: its variance divides by 2048 - float(0) and keeps
  the quotient where that divisor is positive, and 2048 - 0 = 2048 > 0.  Nothing is cancelled or distributed, so no
  finiteness is used.  Also here, for any reader of a row laid under a matrix: the layout readings of a rank-0 splat,
  of a [c] row as [1, c], and of a [1, c] row under n rows, and the matrix unit's product into a zero accumulator as
  the host's product of the same operands.
-/
import proofs.«149011_j79517024518682_1_alg».proof.Proof.Spec
import proofs.«149011_j79517024518682_1_alg».proof.Proof.LibColReduce
import proofs.«149011_j79517024518682_1_alg».proof.Proof.LibRowwise
import Idealize.ShloMosaic.PureOps.Ideal.Laws
import Idealize.ShloMosaic.Lib.ValueIdx
import Idealize.ShloMosaic.Lib.Pipeline.Value

noncomputable section

namespace Cert.Gnn.ColumnStats

open Idealize.ShloMosaic Idealize.ShloMosaic.ValueIdx Cert.ReferenceIdeal Cert.ReferenceIdeal.Facts₀
open scoped BigOperators

/-! ## Layout readings, for any element type -/

/-- A rank-0 array broadcast anywhere reads its one entry. -/
theorem scalarSplat_apply {α : Type} {t : Shape} (dims : Fin S_.rank → Fin t.rank) (h : S_.BroadcastsInDim t dims)
    (x : S_.Idx → α) (j : t.Idx) : broadcastInDim t dims h x j = x ix0 :=
  broadcastInDim_apply dims h x j ix0 (fun a => a.elim0)

/-- A [c] row as a [1, c] array: entry (0, q) is the row's entry q. -/
theorem rowForm_apply {α : Type} {c : ℕ} (b : (⟨1, ![c]⟩ : Shape).Idx → α)
    (h : (⟨1, ![c]⟩ : Shape).BroadcastsInDim ⟨2, ![1, c]⟩ ![1]) (q : Fin c) :
    broadcastInDim ⟨2, ![1, c]⟩ ![1] h b (ix2 (0 : Fin 1) q) = b (ix1 q) :=
  broadcastInDim_apply _ h b (ix2 (0 : Fin 1) q) (ix1 q) fun a => by
    match a with
    | ⟨0, _⟩ =>
      show q.val = if c = 1 then 0 else q.val
      split
      · have := q.isLt; omega
      · rfl

/-- A [1, c] row laid under each of n rows: entry (p, q) is the row's entry (0, q). -/
theorem rowsUnder_apply {α : Type} {n c : ℕ} (R : (⟨2, ![1, c]⟩ : Shape).Idx → α)
    (h : (⟨2, ![1, c]⟩ : Shape).BroadcastsInDim ⟨2, ![n, c]⟩ ![0, 1]) (p : Fin n) (q : Fin c) :
    broadcastInDim ⟨2, ![n, c]⟩ ![0, 1] h R (ix2 p q) = R (ix2 (0 : Fin 1) q) :=
  broadcastInDim_apply _ h R (ix2 p q) (ix2 (0 : Fin 1) q) fun a => by
    match a with
    | ⟨0, _⟩ => rfl
    | ⟨1, _⟩ =>
      show q.val = if c = 1 then 0 else q.val
      split
      · have := q.isLt; omega
      · rfl

/-- The two together: a [c] row under n rows reads its entry q at (p, q). -/
theorem rowUnderRows_apply {α : Type} {n c : ℕ} (b : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![n, c]⟩ ![0, 1]) (p : Fin n) (q : Fin c) :
    broadcastInDim ⟨2, ![n, c]⟩ ![0, 1] h2 (broadcastInDim ⟨2, ![1, c]⟩ ![1] h1 b) (ix2 p q) = b (ix1 q) := by
  rw [rowsUnder_apply, rowForm_apply]

/-- A [c] row cast to [1, c]: entry (0, q) is the row's entry q. -/
theorem rowCast_apply {α : Type} {c : ℕ} (b : (⟨1, ![c]⟩ : Shape).Idx → α) (hc : (⟨1, ![c]⟩ : Shape).ShapeCasts ⟨2, ![1, c]⟩)
    (q : Fin c) : shapeCast ⟨2, ![1, c]⟩ b hc (ix2 (0 : Fin 1) q) = b (ix1 q) :=
  shapeCast_apply b hc _ _ (by
    rw [Shape.rowMajor_val_two, Shape.rowMajor_val_one]
    show q.val = 0 * c + q.val
    omega)

/-- A [1, c] row broadcast down n rows: entry (p, q) is the row's entry (0, q). -/
theorem rowsBroadcast_apply {α : Type} {n c : ℕ} (R : (⟨2, ![1, c]⟩ : Shape).Idx → α)
    (hb : (⟨2, ![1, c]⟩ : Shape).Broadcasts ⟨2, ![n, c]⟩) (p : Fin n) (q : Fin c) :
    broadcastTo ⟨2, ![n, c]⟩ R hb (ix2 p q) = R (ix2 (0 : Fin 1) q) :=
  broadcastTo_apply R hb (ix2 p q) (ix2 (0 : Fin 1) q) fun ax => by
    match ax with
    | ⟨0, _⟩ => rfl
    | ⟨1, _⟩ =>
      show q.val = if c = 1 then 0 else q.val
      split
      · have := q.isLt; omega
      · rfl

/-! ## The ideal reading of the host's quotient and reciprocal square root, and of the two products -/

theorem hostDivf_apply {s : Shape} {φ : FTy} (a b : FVec Ideal s φ) (i : s.Idx) : Host.divf a b i = Ideal.div (a i) (b i) := rfl
theorem hostRsqrt_apply {s : Shape} {φ : FTy} (a : FVec Ideal s φ) (i : s.Idx) : Host.rsqrt a i = Ideal.rsqrt (a i) := rfl
theorem rsqrt_apply {s : Shape} {φ : FTy} (a : FVec Ideal s φ) (i : s.Idx) : rsqrt a i = Ideal.rsqrt (a i) := rfl

/-- The matrix unit's product into a zero accumulator is the host's product of the same operands under the same
    dimension numbers: both are the sum of the operands' products over the contraction index, whatever the formats. -/
theorem matmul_zero_eq_hostDot {sl sr so : Shape} {φ₁ φ₂ ψ₁ ψ₂ : FTy} (d d' : DotDims sl sr so) (hd : d = d')
    (prec prec' : Option ContractPrecision) (l : sl.Idx → EReal) (r : sr.Idx → EReal) :
    matmul (F := Ideal) (φ₁ := φ₁) (φ₂ := φ₂) d prec l r (constant so .f32 0x00000000#32)
      = Host.dotGeneral (F := Ideal) (φ₁ := ψ₁) (φ₂ := ψ₂) d' prec' l r := by
  subst hd
  funext j
  exact (Ideal.matmul_constant_zero_apply (φ₁ := φ₁) (φ₂ := φ₂) d prec l r j).trans
    (Ideal.dotGeneral_apply (φ₁ := ψ₁) (φ₂ := ψ₂) d prec' .single l r j).symm

/-! ## The statistics -/

abbrev Mat : Type := (⟨2, ![2048, 128]⟩ : Shape).Idx → EReal
abbrev Row : Type := (⟨1, ![128]⟩ : Shape).Idx → EReal

/-- The number of rows, as the word both programs divide by. -/
def count : EReal := Ideal.ofBits .f32 0x45000000#32
/-- The variance's guard, as the word both programs add. -/
def eps : EReal := Ideal.ofBits .f32 0x3727C5AC#32
def colTotal (z : Mat) (q : Fin 128) : EReal := ∑ r : Fin 2048, z (ix2 r q)
def mean (z : Mat) (q : Fin 128) : EReal := Ideal.div (colTotal z q) count
def dev (z : Mat) (p : Fin 2048) (q : Fin 128) : EReal := z (ix2 p q) - mean z q
def var (z : Mat) (q : Fin 128) : EReal := Ideal.div (∑ r : Fin 2048, dev z r q * dev z r q) count
def scale (z : Mat) (q : Fin 128) : EReal := Ideal.rsqrt (var z q + eps)
def normAt (z : Mat) (γ β : Row) (p : Fin 2048) (q : Fin 128) : EReal :=
  max (dev z p q * scale z q * γ (ix1 q) + β (ix1 q)) (Ideal.ofBits .f32 0x00000000#32)

/-- The word 0x45000000 denotes 2048 = 2^11. -/
theorem count_eq : count = ((2048 : ℝ) : EReal) := by
  unfold count
  simp [Ideal.ofBits, Ideal.ieee, -EReal.coe_mul]
  norm_num

theorem count_pos : (0 : EReal) < count := by
  rw [count_eq]; exact_mod_cast (by norm_num : (0:ℝ) < 2048)

/-! ## The specification's stages at an entry -/

variable [Cert.ReferenceIdeal.Facts]

theorem underGraphs_apply (b : Row) (p : Fin 2048) (q : Fin 128) : underGraphs (F := Ideal) b (ix2 p q) = b (ix1 q) := by
  unfold underGraphs
  rw [rowsUnder_apply, rowForm_apply]

/-- The host's sum down the rows from a zero initial value is the column's total. -/
theorem colSum_apply (z : Mat) (q : Fin 128) : colSum (F := Ideal) z (ix1 q) = colTotal z q := by
  unfold colSum Host.reduceAdd colTotal
  rw [Ideal.hostReduceAdd_def]
  rw [Ideal.hostReduceAdd_single reducesTo_S2048x128_S128_d0 (by decide) z _ (ix1 q)]
  show Ideal.ofBits .f32 0x00000000#32 + _ = _
  rw [Ideal.ofBits_zero_f32, zero_add]
  exact Finset.sum_congr rfl fun r _ => congrArg z (Cert.LibColReduce.lift_col _ q r)

theorem colMean_apply (z : Mat) (q : Fin 128) : colMean (F := Ideal) z (ix1 q) = mean z q := by
  unfold colMean mean
  rw [hostDivf_apply, colSum_apply, scalarSplat_apply]
  rfl

/-- The squared deviations: the mean recomputed as a [1,128] row is the same mean. -/
theorem sqDev_apply (z : Mat) (p : Fin 2048) (q : Fin 128) : sqDev (F := Ideal) z (ix2 p q) = dev z p q * dev z p q := by
  unfold sqDev dev mean
  dsimp only
  rw [mulf_apply, subf_apply, rowsUnder_apply, hostDivf_apply, rowForm_apply, scalarSplat_apply, colSum_apply]
  rfl

/-- The variance's divisor 2048 - float(0) is 2048. -/
theorem varCount_eq : varCount (F := Ideal) ix0 = count := by
  unfold varCount count
  rw [subf_apply, sitofp_apply]
  show Ideal.ofBits .f32 0x45000000#32 - (((0#32 : BitVec 32).toInt : ℝ) : EReal) = _
  simp

/-- The variance: the divisor is positive, so the guarded selection keeps the quotient. -/
theorem colVar_apply (z : Mat) (q : Fin 128) : colVar (F := Ideal) z (ix1 q) = var z q := by
  unfold colVar var
  rw [select_apply, scalarSplat_apply, cmpf_apply, varCount_eq]
  have hc : FloatOps.cmpf (F := Ideal) (φ := .f32) .ogt count (constant (F := Ideal) S_ .f32 0x00000000#32 ix0) = 1#1 := by
    show Ideal.cmp .ogt count (Ideal.ofBits .f32 0x00000000#32) = 1#1
    rw [Ideal.ofBits_zero_f32]
    simp [Ideal.cmp, count_pos]
  rw [hc, select_one, hostDivf_apply, scalarSplat_apply, varCount_eq, colSum_apply]
  unfold colTotal
  simp only [sqDev_apply]

theorem invStd_apply (z : Mat) (q : Fin 128) : invStd (F := Ideal) z (ix1 q) = scale z q := by
  unfold invStd scale eps
  rw [hostRsqrt_apply, addf_apply, colVar_apply, scalarSplat_apply]
  rfl

/-- The normalised, scaled, shifted and rectified layer at an entry. -/
theorem normed_apply (z : Mat) (γ β : Row) (p : Fin 2048) (q : Fin 128) :
    normed (F := Ideal) z γ β (ix2 p q) = normAt z γ β p q := by
  unfold normed normAt dev
  rw [maximumf_apply, addf_apply, mulf_apply, mulf_apply, subf_apply, underGraphs_apply, underGraphs_apply, underGraphs_apply,
    underGraphs_apply, colMean_apply, invStd_apply, scalarSplat_apply]
  rfl

end Cert.Gnn.ColumnStats

end
-- ==== Proof.ClassifierBody.lean ====
/-
  The classifier body's arithmetic is the specification's classifier.

  The body computes, from the pooled rows g, the weights C, D and the rows c, γ, β, d:
    z = g·C + c (a product into a zero accumulator, the bias row cast to [1,128] and broadcast down the rows);
    the column mean as a [1,128] row, the column sum divided by 2048; the deviations z - mean; the column variance,
    the summed squared deviations divided by 2048; the deviations times (variance + eps)^(-1/2), times γ, plus β,
    rectified; that matrix times D, plus d.
  Entry by entry these are the column statistics' functions (mean, dev, var, scale, normAt), the same the
  specification's stages read as; a change of float format is the identity and a product into a zero accumulator is
  the host's product, so the whole arrays agree.  Nothing is cancelled or distributed: no finiteness is used.
-/
import proofs.«149011_j79517024518682_1_alg».proof.Proof.Gen.KernelIdeal.Skeleton
import proofs.«149011_j79517024518682_1_alg».proof.Proof.ClassifierStats

noncomputable section

namespace Cert.KernelIdeal.ClassifierValue

open Idealize.ShloMosaic Idealize.ShloMosaic.ValueIdx Cert.KernelIdeal Cert.KernelIdeal.Gen Cert.Gnn.ColumnStats
open scoped BigOperators

/-! ## The body's text, stage by stage -/

/-- The column means as a [1,128] row. -/
def kMeanRow (z : FVec Ideal S2048x128 .f32) : FVec Ideal S1x128 .f32 :=
  divf (shapeCast S1x128 (multiReduction .add [0] S128 z 0x00000000#32 reduces_S2048x128_S128 (.inl rfl) rfl) shapeCasts_S128_S1x128)
    (broadcast S1x128 (Scalar.ofBits .f32 0x45000000#32))

/-- The deviations from the column means. -/
def kDev (z : FVec Ideal S2048x128 .f32) : FVec Ideal S2048x128 .f32 :=
  subf z (broadcastTo S2048x128 (kMeanRow z) broadcasts_S1x128_S2048x128)

/-- The reciprocal standard deviations as a [1,128] row. -/
def kScaleRow (z : FVec Ideal S2048x128 .f32) : FVec Ideal S1x128 .f32 :=
  rsqrt (addf (divf (shapeCast S1x128 (multiReduction .add [0] S128 (mulf (kDev z) (kDev z)) 0x00000000#32 reduces_S2048x128_S128 (.inl rfl) rfl) shapeCasts_S128_S1x128)
      (broadcast S1x128 (Scalar.ofBits .f32 0x45000000#32))) (broadcast S1x128 (Scalar.ofBits .f32 0x3727C5AC#32)))

/-- The normalised, scaled, shifted, rectified layer. -/
def kNormed (z : FVec Ideal S2048x128 .f32) (γ β : Vec Ideal S128 .f32) : FVec Ideal S2048x128 .f32 :=
  maximumf (addf (mulf (mulf (kDev z) (broadcastTo S2048x128 (kScaleRow z) broadcasts_S1x128_S2048x128))
        (broadcastTo S2048x128 (shapeCast S1x128 γ shapeCasts_S128_S1x128) broadcasts_S1x128_S2048x128))
      (broadcastTo S2048x128 (shapeCast S1x128 β shapeCasts_S128_S1x128) broadcasts_S1x128_S2048x128))
    (broadcast S2048x128 (Scalar.ofBits .f32 0x00000000#32))

/-- The layer before normalisation, g·C + c. -/
def kPre (g : Vec Ideal S2048x128 .f32) (C : Vec Ideal S128x128 .f32) (c : Vec Ideal S128 .f32) : FVec Ideal S2048x128 .f32 :=
  addf (matmul dot_S2048x128_S128x128_S2048x128_1_0_0_1_n_n none
      (truncf .bf16 (shapeCast S2048x128 g shapeCasts_S2048x128_S2048x128) bitsLt_bf16_f32) (truncf .bf16 C bitsLt_bf16_f32)
      (constant S2048x128 .f32 0x00000000#32))
    (broadcastTo S2048x128 (shapeCast S1x128 c shapeCasts_S128_S1x128) broadcasts_S1x128_S2048x128)

/-- The body's first payload is these stages and the second product. -/
theorem pay2_text (g : Vec Ideal S2048x128 .f32) (C : Vec Ideal S128x128 .f32) (c γ β : Vec Ideal S128 .f32) (D : Vec Ideal S128x2 .f32) :
    k4_pay2 (F := Ideal) g C c γ β D = matmul dot_S2048x128_S128x2_S2048x2_1_0_0_1_n_n none
      (truncf .bf16 (kNormed (kPre g C c) γ β) bitsLt_bf16_f32) (truncf .bf16 D bitsLt_bf16_f32) (constant S2048x2 .f32 0x00000000#32) := rfl

/-! ## The stages at an entry -/

/-- The body's sum down the rows is the column's total. -/
theorem colTotal_of_reduction (z : Mat) (h : S2048x128.Reduces [0] S128) (hφ : FKind.Formats .f32)
    (hacc : (0x00000000#32 : BitVec 32) = 0x00000000#32) (q : Fin 128) :
    multiReduction (F := Ideal) (φ := .f32) .add [0] S128 z 0x00000000#32 h hφ hacc (ix1 q) = colTotal z q :=
  Cert.LibColReduce.multiReduction_add_col (a := 2048) (b := 128) z 0x00000000#32 h hφ hacc q

theorem kMeanRow_apply (z : Mat) (q : Fin 128) : kMeanRow z (ix2 (0 : Fin 1) q) = mean z q := by
  unfold kMeanRow mean
  rw [divf_apply, rowCast_apply, broadcast_apply, colTotal_of_reduction]
  rfl

theorem kDev_apply (z : Mat) (p : Fin 2048) (q : Fin 128) : kDev z (ix2 p q) = dev z p q := by
  unfold kDev dev
  rw [subf_apply, rowsBroadcast_apply, kMeanRow_apply]

theorem kScaleRow_apply (z : Mat) (q : Fin 128) : kScaleRow z (ix2 (0 : Fin 1) q) = scale z q := by
  unfold kScaleRow scale var
  rw [rsqrt_apply, addf_apply, divf_apply, rowCast_apply, broadcast_apply, broadcast_apply, colTotal_of_reduction]
  unfold colTotal
  simp only [mulf_apply, kDev_apply]
  rfl

theorem kNormed_apply (z : Mat) (γ β : Row) (p : Fin 2048) (q : Fin 128) : kNormed z γ β (ix2 p q) = normAt z γ β p q := by
  unfold kNormed normAt
  rw [maximumf_apply, addf_apply, mulf_apply, mulf_apply, kDev_apply, rowsBroadcast_apply, kScaleRow_apply,
    Cert.LibRowwise.rowUnder_apply, Cert.LibRowwise.rowUnder_apply, broadcast_apply]
  rfl

/-! ## The whole arrays -/

variable [Cert.ReferenceIdeal.Facts]

theorem kNormed_eq (z : Mat) (γ β : Row) : kNormed z γ β = Cert.Gnn.normed (F := Ideal) z γ β := by
  funext i
  obtain ⟨p, q, rfl⟩ : ∃ (p : Fin 2048) (q : Fin 128), i = ix2 p q := ⟨i 0, i 1, eq_ix2 i⟩
  rw [kNormed_apply, normed_apply]

theorem kPre_eq (g : Vec Ideal S2048x128 .f32) (C : Vec Ideal S128x128 .f32) (c : Vec Ideal S128 .f32) :
    kPre g C c = Cert.Gnn.preNorm (F := Ideal) g C c := by
  unfold kPre Cert.Gnn.preNorm
  rw [shapeCast_self]
  refine congrArg₂ addf ?_ ?_
  · exact matmul_zero_eq_hostDot _ _ rfl none none g C
  · funext i
    obtain ⟨p, q, rfl⟩ : ∃ (p : Fin 2048) (q : Fin 128), i = ix2 p q := ⟨i 0, i 1, eq_ix2 i⟩
    rw [Cert.LibRowwise.rowUnder_apply, underGraphs_apply]

theorem pay2_eq (g : Vec Ideal S2048x128 .f32) (C : Vec Ideal S128x128 .f32) (c γ β : Vec Ideal S128 .f32) (D : Vec Ideal S128x2 .f32) :
    k4_pay2 (F := Ideal) g C c γ β D
      = Host.dotGeneral (φ₁ := .f32) (φ₂ := .f32) Cert.ReferenceIdeal.dot_S2048x128_S128x2_S2048x2_1_0_0_1_n_n none
          (Cert.Gnn.normed (F := Ideal) (Cert.Gnn.preNorm (F := Ideal) g C c) γ β) D := by
  rw [pay2_text, kPre_eq, kNormed_eq]
  exact matmul_zero_eq_hostDot _ _ rfl none none _ D

theorem pay1_eq (v : FVec Ideal S2048x2 .f32) (d : Vec Ideal S2 .f32) :
    k4_pay1 (F := Ideal) v d
      = addf v (broadcastInDim Cert.ReferenceIdeal.S2048x2 ![0, 1] Cert.ReferenceIdeal.Facts₀.bcast_S1x2_S2048x2_0_1
          (broadcastInDim Cert.ReferenceIdeal.S1x2 ![1] Cert.ReferenceIdeal.Facts₀.bcast_S2_S1x2_1 d)) := by
  unfold k4_pay1
  refine congrArg (addf v) ?_
  funext i
  obtain ⟨p, q, rfl⟩ : ∃ (p : Fin 2048) (q : Fin 2), i = ix2 p q := ⟨i 0, i 1, eq_ix2 i⟩
  rw [Cert.LibRowwise.rowUnder_apply, rowUnderRows_apply]

/-- The body's result, from its seven operands, is the specification's classifier of them. -/
theorem body_eq (g : Vec Ideal S2048x128 .f32) (C : Vec Ideal S128x128 .f32) (c γ β : Vec Ideal S128 .f32) (D : Vec Ideal S128x2 .f32)
    (d : Vec Ideal S2 .f32) :
    k4_pay1 (F := Ideal) (k4_pay2 (F := Ideal) g C c γ β D) d = Cert.Gnn.classify (F := Ideal) g C c γ β D d := by
  rw [pay2_eq, pay1_eq]
  rfl

end Cert.KernelIdeal.ClassifierValue

end
-- ==== Proof.ClassifierRegion.lean ====
/-
  The classifier region leaves, in its output array, the specification's classifier of the arrays it found.

  The region's grid has one point and every window's block is its whole array: each block index is zero on every axis,
  so a block's entry sits in the array at its own coordinates.  Hence each input block is the array the region found,
  the body's one store covers the output's staging buffer with the body's result (the specification's classifier of the
  seven operands), and the one write-back covers the whole output array.
-/
import proofs.«149011_j79517024518682_1_alg».proof.Proof.Gen.KernelIdeal.Frame
import proofs.«149011_j79517024518682_1_alg».proof.Proof.ClassifierBody
import Idealize.ShloMosaic.Lib.Pipeline.Value

set_option maxRecDepth 16384

noncomputable section

namespace Cert.KernelIdeal.ClassifierValue

open Idealize.ShloMosaic Idealize.ShloMosaic.TcCoe Idealize.ShloMosaic.ValueIdx Cert.KernelIdeal Cert.KernelIdeal.Gen
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Each input block is the array the region found: the block index is zero on every axis -/

theorem idx4_0 : ∀ t : Fin cfg4.N, win4_0.index t (0 : Fin 2) = 0 ∧ win4_0.index t (1 : Fin 2) = 0 :=
  (by decide +kernel : ∀ t : Fin grid4.N, _)

theorem iblk4_0_eq (c : Dev nD) (t : Fin cfg4.N) : (iblk4 (F := Ideal) V c 0 t : Vec Ideal S2048x128 .f32) = V c main_v43 := by
  funext x
  unfold iblk4
  rw [View.read_apply]
  show V c main_v43 _ = V c main_v43 x
  congr 1
  funext a; apply Fin.ext
  match a with
  | ⟨0, _⟩ => show win4_0.index t (0 : Fin 2) * 2048 + 1 * (x 0).val = (x 0).val; rw [(idx4_0 t).1]; omega
  | ⟨1, _⟩ => show win4_0.index t (1 : Fin 2) * 128 + 1 * (x 1).val = (x 1).val; rw [(idx4_0 t).2]; omega

theorem idx4_1 : ∀ t : Fin cfg4.N, win4_1.index t (0 : Fin 2) = 0 ∧ win4_1.index t (1 : Fin 2) = 0 :=
  (by decide +kernel : ∀ t : Fin grid4.N, _)

theorem iblk4_1_eq (c : Dev nD) (t : Fin cfg4.N) : (iblk4 (F := Ideal) V c 1 t : Vec Ideal S128x128 .f32) = V c main_arg18 := by
  funext x
  unfold iblk4
  rw [View.read_apply]
  show V c main_arg18 _ = V c main_arg18 x
  congr 1
  funext a; apply Fin.ext
  match a with
  | ⟨0, _⟩ => show win4_1.index t (0 : Fin 2) * 128 + 1 * (x 0).val = (x 0).val; rw [(idx4_1 t).1]; omega
  | ⟨1, _⟩ => show win4_1.index t (1 : Fin 2) * 128 + 1 * (x 1).val = (x 1).val; rw [(idx4_1 t).2]; omega

theorem idx4_2 : ∀ t : Fin cfg4.N, win4_2.index t (0 : Fin 1) = 0 :=
  (by decide +kernel : ∀ t : Fin grid4.N, _)

theorem iblk4_2_eq (c : Dev nD) (t : Fin cfg4.N) : (iblk4 (F := Ideal) V c 2 t : Vec Ideal S128 .f32) = V c main_arg19 := by
  funext x
  unfold iblk4
  rw [View.read_apply]
  show V c main_arg19 _ = V c main_arg19 x
  congr 1
  funext a; apply Fin.ext
  match a with
  | ⟨0, _⟩ => show win4_2.index t (0 : Fin 1) * 128 + 1 * (x 0).val = (x 0).val; rw [(idx4_2 t)]; omega

theorem idx4_3 : ∀ t : Fin cfg4.N, win4_3.index t (0 : Fin 1) = 0 :=
  (by decide +kernel : ∀ t : Fin grid4.N, _)

theorem iblk4_3_eq (c : Dev nD) (t : Fin cfg4.N) : (iblk4 (F := Ideal) V c 3 t : Vec Ideal S128 .f32) = V c main_arg20 := by
  funext x
  unfold iblk4
  rw [View.read_apply]
  show V c main_arg20 _ = V c main_arg20 x
  congr 1
  funext a; apply Fin.ext
  match a with
  | ⟨0, _⟩ => show win4_3.index t (0 : Fin 1) * 128 + 1 * (x 0).val = (x 0).val; rw [(idx4_3 t)]; omega

theorem idx4_4 : ∀ t : Fin cfg4.N, win4_4.index t (0 : Fin 1) = 0 :=
  (by decide +kernel : ∀ t : Fin grid4.N, _)

theorem iblk4_4_eq (c : Dev nD) (t : Fin cfg4.N) : (iblk4 (F := Ideal) V c 4 t : Vec Ideal S128 .f32) = V c main_arg21 := by
  funext x
  unfold iblk4
  rw [View.read_apply]
  show V c main_arg21 _ = V c main_arg21 x
  congr 1
  funext a; apply Fin.ext
  match a with
  | ⟨0, _⟩ => show win4_4.index t (0 : Fin 1) * 128 + 1 * (x 0).val = (x 0).val; rw [(idx4_4 t)]; omega

theorem idx4_5 : ∀ t : Fin cfg4.N, win4_5.index t (0 : Fin 2) = 0 ∧ win4_5.index t (1 : Fin 2) = 0 :=
  (by decide +kernel : ∀ t : Fin grid4.N, _)

theorem iblk4_5_eq (c : Dev nD) (t : Fin cfg4.N) : (iblk4 (F := Ideal) V c 5 t : Vec Ideal S128x2 .f32) = V c main_arg22 := by
  funext x
  unfold iblk4
  rw [View.read_apply]
  show V c main_arg22 _ = V c main_arg22 x
  congr 1
  funext a; apply Fin.ext
  match a with
  | ⟨0, _⟩ => show win4_5.index t (0 : Fin 2) * 128 + 1 * (x 0).val = (x 0).val; rw [(idx4_5 t).1]; omega
  | ⟨1, _⟩ => show win4_5.index t (1 : Fin 2) * 2 + 1 * (x 1).val = (x 1).val; rw [(idx4_5 t).2]; omega

theorem idx4_6 : ∀ t : Fin cfg4.N, win4_6.index t (0 : Fin 1) = 0 :=
  (by decide +kernel : ∀ t : Fin grid4.N, _)

theorem iblk4_6_eq (c : Dev nD) (t : Fin cfg4.N) : (iblk4 (F := Ideal) V c 6 t : Vec Ideal S2 .f32) = V c main_arg23 := by
  funext x
  unfold iblk4
  rw [View.read_apply]
  show V c main_arg23 _ = V c main_arg23 x
  congr 1
  funext a; apply Fin.ext
  match a with
  | ⟨0, _⟩ => show win4_6.index t (0 : Fin 1) * 2 + 1 * (x 0).val = (x 0).val; rw [(idx4_6 t)]; omega

/-! ## The output -/

theorem idx4_7 : ∀ t : Fin cfg4.N, win4_7.index t (0 : Fin 2) = 0 ∧ win4_7.index t (1 : Fin 2) = 0 :=
  (by decide +kernel : ∀ t : Fin grid4.N, _)

variable [Cert.ReferenceIdeal.Facts]

/-- What the one point writes back is the whole of the classifier's result. -/
theorem flushed4_7 (c : Dev nD) (t : Fin cfg4.N) :
    (dat4 (F := Ideal) V c).flushed 7 t
      = ((cfg4.win 7).blk t).view.read (Elt Ideal)
          (Cert.Gnn.classify (F := Ideal) (V c main_v43) (V c main_arg18) (V c main_arg19) (V c main_arg20) (V c main_arg21) (V c main_arg22) (V c main_arg23)) := by
  show (cfg4.win 7).cut (grid4.coords t) ((dat4 V c).after 7 t) = _
  rw [after4_7]
  unfold out4_7
  rw [View.canon_unit_zero hz2]
  simp only [View.ld_unit_zero (S := S2048x128) hz2, View.ld_unit_zero (S := S128x128) hz2, View.ld_unit_zero (S := S128) hz1,
    View.ld_unit_zero (S := S128x2) hz2, View.ld_unit_zero (S := S2) hz1]
  rw [iblk4_0_eq, iblk4_1_eq, iblk4_2_eq, iblk4_3_eq, iblk4_4_eq, iblk4_5_eq, iblk4_6_eq, body_eq]
  funext j
  show Cert.Gnn.classify (F := Ideal) (V c main_v43) (V c main_arg18) (V c main_arg19) (V c main_arg20) (V c main_arg21) (V c main_arg22) (V c main_arg23) j
    = Cert.Gnn.classify (F := Ideal) (V c main_v43) (V c main_arg18) (V c main_arg19) (V c main_arg20) (V c main_arg21) (V c main_arg22) (V c main_arg23) (((cfg4.win 7).blk t).view.emb j)
  congr 1
  funext a; apply Fin.ext
  match a with
  | ⟨0, _⟩ => show (j 0).val = win4_7.index t (0 : Fin 2) * 2048 + 1 * (j 0).val; rw [(idx4_7 t).1]; omega
  | ⟨1, _⟩ => show (j 1).val = win4_7.index t (1 : Fin 2) * 2 + 1 * (j 1).val; rw [(idx4_7 t).2]; omega

/-- THE REGION: its output array ends holding the specification's classifier of the arrays the region found. -/
theorem region4 (c : Dev nD) :
    (dat4 (F := Ideal) V c).arrAt 7 cfg4.N
      = Cert.Gnn.classify (F := Ideal) (V c main_v43) (V c main_arg18) (V c main_arg19) (V c main_arg20) (V c main_arg21) (V c main_arg22) (V c main_arg23) :=
  (dat4 (F := Ideal) V c).arrAt_eq_of_cover 7 _ (fun t _ => flushed4_7 V c t) fun i =>
    ⟨t4_0, flush4_7 t4_0, by
      show i ∈ ((View.whole main_v44).slice (win4_7.rect t4_0)).set
      rw [View.set_slice_whole, Rect.mem_set_unit]
      intro a
      have h0 : (i 0 : Nat) < 2048 := (i 0).isLt
      have h1 : (i 1 : Nat) < 2 := (i 1).isLt
      match a with
      | ⟨0, _⟩ =>
        show win4_7.index t4_0 (0 : Fin 2) * 2048 ≤ (i 0 : Nat) ∧ (i 0 : Nat) < win4_7.index t4_0 (0 : Fin 2) * 2048 + 2048
        rw [(idx4_7 t4_0).1]; omega
      | ⟨1, _⟩ =>
        show win4_7.index t4_0 (1 : Fin 2) * 2 ≤ (i 1 : Nat) ∧ (i 1 : Nat) < win4_7.index t4_0 (1 : Fin 2) * 2 + 2
        rw [(idx4_7 t4_0).2]; omega⟩

end Cert.KernelIdeal.ClassifierValue

end
-- ==== Proof.lean ====
/-
  The certificate of the graph network: three graph layers (neighbour sums, then two dense layers with max(., 0)),
  the projection of the three layers side by side, per-graph sums, and a classifier normalised with its own column
  means and variances.  The kernel computes the dense stages in five regions, the graph layers and the projection tile
  by tile over 20 tiles of 5000 nodes, with the neighbour sums, the row blocks of the projection matrix and the
  per-graph sums left to host operations; the reference computes everything with host operations.

  At the ideal instance both end at one function of the arguments, Cert.Gnn.net:
  * a tile's rows of a dense layer depend on that tile's rows only, and a matrix product into a zero accumulator is
    the plain sum of products, as is the host's contraction;
  * the projection of [h1 | h2 | h3] by a 384-row matrix is the sum of the three products with its row blocks, a sum
    over 384 indices regrouped as three sums over 128, for which addition need only be commutative and associative;
  * the classifier's column statistics are the same sums over the 2048 rows on both sides, the variance's divisor
    2048 - float(0) being 2048 and positive.
  No step cancels or distributes, so the inputs' finiteness is never used.

  The frames of the two kernel programs are the generated ones; the reference's frame is its run with the result
  dropped; the idealization rewrote nothing, so there is nothing to preserve.
-/
import proofs.«149011_j79517024518682_1_alg».proof.Defs
import proofs.«149011_j79517024518682_1_alg».proof.Proof.Gen.Kernel
import proofs.«149011_j79517024518682_1_alg».proof.Proof.Gen.Kernel.Frame
import proofs.«149011_j79517024518682_1_alg».proof.Proof.Gen.KernelIdeal
import proofs.«149011_j79517024518682_1_alg».proof.Proof.Gen.KernelIdeal.Frame
import proofs.«149011_j79517024518682_1_alg».proof.Proof.Gen.ReferenceIdeal
import proofs.«149011_j79517024518682_1_alg».proof.Proof.Gen.Pre_finite_inputs
import proofs.«149011_j79517024518682_1_alg».proof.Proof.KernelRun
import proofs.«149011_j79517024518682_1_alg».proof.Proof.KernelFold
import proofs.«149011_j79517024518682_1_alg».proof.Proof.RefRun
import proofs.«149011_j79517024518682_1_alg».proof.Proof.GinLayerRegion0
import proofs.«149011_j79517024518682_1_alg».proof.Proof.GinLayerRegion1
import proofs.«149011_j79517024518682_1_alg».proof.Proof.GinLayerRegion2
import proofs.«149011_j79517024518682_1_alg».proof.Proof.JkValue
import proofs.«149011_j79517024518682_1_alg».proof.Proof.ClassifierRegion
import Idealize.ShloMosaic.Adequacy
import Idealize.ShloMosaic.Init

set_option maxRecDepth 16384

noncomputable section

namespace Cert.Proof

open Idealize.ShloMosaic Idealize.SL.Sem

/-- Each region leaves its stage of the network in its output array. -/
theorem regionValues : Cert.KernelIdeal.Fold.RegionValues :=
  ⟨Cert.KernelIdeal.LayerValue.region0, Cert.KernelIdeal.LayerValue.region1, Cert.KernelIdeal.LayerValue.region2,
   Cert.KernelIdeal.ProjValue.region3, fun V c => Cert.KernelIdeal.ClassifierValue.region4 V c⟩

/-- The network function takes equal arguments to equal values. -/
theorem net_congr {x0 y0 : (⟨Cert.ReferenceIdeal.S100000x7, .f32⟩ : BufTy).Contents (Elt Ideal)} {x1 y1 : (⟨Cert.ReferenceIdeal.S2x600000, .i32⟩ : BufTy).Contents (Elt Ideal)} {x2 y2 : (⟨Cert.ReferenceIdeal.S100000, .i32⟩ : BufTy).Contents (Elt Ideal)} {x3 y3 : (⟨Cert.ReferenceIdeal.S7x128, .f32⟩ : BufTy).Contents (Elt Ideal)} {x4 y4 : (⟨Cert.ReferenceIdeal.S128, .f32⟩ : BufTy).Contents (Elt Ideal)} {x5 y5 : (⟨Cert.ReferenceIdeal.S128x128, .f32⟩ : BufTy).Contents (Elt Ideal)} {x6 y6 : (⟨Cert.ReferenceIdeal.S128, .f32⟩ : BufTy).Contents (Elt Ideal)} {x7 y7 : (⟨Cert.ReferenceIdeal.S128x128, .f32⟩ : BufTy).Contents (Elt Ideal)} {x8 y8 : (⟨Cert.ReferenceIdeal.S128, .f32⟩ : BufTy).Contents (Elt Ideal)} {x9 y9 : (⟨Cert.ReferenceIdeal.S128x128, .f32⟩ : BufTy).Contents (Elt Ideal)} {x10 y10 : (⟨Cert.ReferenceIdeal.S128, .f32⟩ : BufTy).Contents (Elt Ideal)} {x11 y11 : (⟨Cert.ReferenceIdeal.S128x128, .f32⟩ : BufTy).Contents (Elt Ideal)} {x12 y12 : (⟨Cert.ReferenceIdeal.S128, .f32⟩ : BufTy).Contents (Elt Ideal)} {x13 y13 : (⟨Cert.ReferenceIdeal.S128x128, .f32⟩ : BufTy).Contents (Elt Ideal)} {x14 y14 : (⟨Cert.ReferenceIdeal.S128, .f32⟩ : BufTy).Contents (Elt Ideal)} {x15 y15 : (⟨Cert.ReferenceIdeal.S384x128, .f32⟩ : BufTy).Contents (Elt Ideal)} {x16 y16 : (⟨Cert.ReferenceIdeal.S128, .f32⟩ : BufTy).Contents (Elt Ideal)} {x17 y17 : (⟨Cert.ReferenceIdeal.S128x128, .f32⟩ : BufTy).Contents (Elt Ideal)} {x18 y18 : (⟨Cert.ReferenceIdeal.S128, .f32⟩ : BufTy).Contents (Elt Ideal)} {x19 y19 : (⟨Cert.ReferenceIdeal.S128, .f32⟩ : BufTy).Contents (Elt Ideal)} {x20 y20 : (⟨Cert.ReferenceIdeal.S128, .f32⟩ : BufTy).Contents (Elt Ideal)} {x21 y21 : (⟨Cert.ReferenceIdeal.S128x2, .f32⟩ : BufTy).Contents (Elt Ideal)} {x22 y22 : (⟨Cert.ReferenceIdeal.S2, .f32⟩ : BufTy).Contents (Elt Ideal)}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) (e17 : x17 = y17) (e18 : x18 = y18) (e19 : x19 = y19) (e20 : x20 = y20) (e21 : x21 = y21) (e22 : x22 = y22) :
    Cert.Gnn.net (F := Ideal) x0 x1 x2 x3 x4 x5 x6 x7 x8 x9 x10 x11 x12 x13 x14 x15 x16 x17 x18 x19 x20 x21 x22 = Cert.Gnn.net (F := Ideal) y0 y1 y2 y3 y4 y5 y6 y7 y8 y9 y10 y11 y12 y13 y14 y15 y16 y17 y18 y19 y20 y21 y22 := by
  subst e0 e1 e2 e3 e4 e5 e6 e7 e8 e9 e10 e11 e12 e13 e14 e15 e16 e17 e18 e19 e20 e21 e22; rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both programs end at the network function of the arguments, which agree. -/
theorem algebraic : Cert.algebraic_KernelIdeal_ReferenceIdeal := by
  intro m ρ m' ρ' _ hagree
  refine ⟨fun c => Cert.Gnn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), ?_, ?_⟩
  · exact (θ_run Cert.KernelIdeal.defs _ _).mono
      (fun _ h c => ⟨(h c).1.trans (Cert.KernelIdeal.Fold.value m ρ c regionValues), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.RefRun.run (F := Ideal) m' ρ')
    obtain ⟨a0, a1, a2, a3, a4, a5, a6, a7, a8, a9, a10, a11, a12, a13, a14, a15, a16, a17, a18, a19, a20, a21, a22, a23⟩ := hagree c
    exact net_congr a0 a1 a3 a4 a5 a6 a7 a8 a9 a10 a11 a12 a13 a14 a15 a16 a17 a18 a19 a20 a21 a22 a23

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
